-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x1024x64 : Shape := ⟨3, ![1024, 1024, 64]⟩
abbrev S1024 : Shape := ⟨1, ![1024]⟩
abbrev S16x64 : Shape := ⟨2, ![16, 64]⟩
abbrev S16 : Shape := ⟨1, ![16]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x1024x64 : S_.BroadcastsInDim S1024x1024x64 (![] : Fin 0 → Fin S1024x1024x64.rank)
  reducesTo_S1024x1024x64_S_d0_1_2 : S1024x1024x64.ReducesTo [0, 1, 2] S_
  bcast_S_S1024 : S_.BroadcastsInDim S1024 (![] : Fin 0 → Fin S1024.rank)
  reducesTo_S1024_S_d0 : S1024.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S16x64 .f32) (main_arg9 : FVec F S16 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S16x64 .f32 := Host.absf main_arg8
  let main_cst_14 : FVec F S_ .f32 := constant S_ .f32 0x7F800000#32
  let main_v40 : FVec F S16x64 .f32 := broadcastInDim S16x64 ![] bcast_S_S16x64 main_cst_14
  let main_v41 : IVec S16x64 1 := cmpf .olt main_v39 main_v40
  let main_c_15 : IVec S_ 1 := constantI S_ 1 1#1
  let main_v42 : IVec S_ 1 := (fun x v => Host.reduce IntOp.andi x v reducesTo_S16x64_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S16x64 .f32) (main_arg9 : FVec F S16 .f32) (main_arg10 : FVec F S1024x1024 .f32) (main_arg11 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1024x1024 .f32) (main_arg1 : FVec F S1024x1024x64 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S16x64 .f32) (main_arg9 : FVec F S16 .f32) (main_arg10 : FVec F S1024x1024 .f32) (main_arg11 : FVec F S1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024x64 .f32 := Host.absf main_arg1
  let main_cst_0 : FVec F S_ .f32 := constant S_ .f32 0x7F800000#32
  let main_v5 : FVec F S1024x1024x64 .f32 := broadcastInDim S1024x1024x64 ![] bcast_S_S1024x1024x64 main_cst_0
  let main_v6 : IVec S1024x1024x64 1 := cmpf .olt main_v4 main_v5
  let main_c_1 : IVec S_ 1 := constantI S_ 1 1#1
  let main_v7 : IVec S_ 1 := (fun x v => Host.reduce IntOp.andi x v reducesTo_S1024x1024x64_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S1024x1024 : Shape := ⟨2, ![1024, 1024]⟩
abbrev S1024x1024x64 : Shape := ⟨3, ![1024, 1024, 64]⟩
abbrev S1024 : Shape := ⟨1, ![1024]⟩
abbrev S16x64 : Shape := ⟨2, ![16, 64]⟩
abbrev S16 : Shape := ⟨1, ![16]⟩
abbrev S1024x3072 : Shape := ⟨2, ![1024, 3072]⟩
abbrev S3072 : Shape := ⟨1, ![3072]⟩
abbrev S1x3072 : Shape := ⟨2, ![1, 3072]⟩
abbrev S256x1024 : Shape := ⟨2, ![256, 1024]⟩
abbrev S256x3072 : Shape := ⟨2, ![256, 3072]⟩
abbrev S1024x16x64 : Shape := ⟨3, ![1024, 16, 64]⟩
abbrev S16x1024x64 : Shape := ⟨3, ![16, 1024, 64]⟩
abbrev S16x1x1 : Shape := ⟨3, ![16, 1, 1]⟩
abbrev S16x128x64 : Shape := ⟨3, ![16, 128, 64]⟩
abbrev S128x128x64 : Shape := ⟨3, ![128, 128, 64]⟩
abbrev S16x128x1 : Shape := ⟨3, ![16, 128, 1]⟩
abbrev S16384x64 : Shape := ⟨2, ![16384, 64]⟩
abbrev S16x16384 : Shape := ⟨2, ![16, 16384]⟩
abbrev S16x128x128 : Shape := ⟨3, ![16, 128, 128]⟩
abbrev S16x128 : Shape := ⟨2, ![16, 128]⟩
abbrev S1x1024 : Shape := ⟨2, ![1, 1024]⟩

abbrev nBuf : Space → Nat
  | .hbm => 37
  | .vmem => 29
  | .smem => 0
  | _ => 0

abbrev bufTy : (tb : Table) → Fin (tcTables nBuf tb) → BufTy
  | .hbm, ⟨0, _⟩ => ⟨S1024x1024, .f32⟩
  | .hbm, ⟨1, _⟩ => ⟨S1024x1024x64, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16x64, .f32⟩
  | .hbm, ⟨9, _⟩ => ⟨S16, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x3072, .f32⟩
  | .hbm, ⟨16, _⟩ => ⟨S3072, .f32⟩
  | .hbm, ⟨17, _⟩ => ⟨S1x3072, .f32⟩
  | .hbm, ⟨18, _⟩ => ⟨S1024x3072, .f32⟩
  | .hbm, ⟨19, _⟩ => ⟨S1024x1024, .f32⟩
  | .hbm, ⟨20, _⟩ => ⟨S1024x16x64, .f32⟩
  | .hbm, ⟨21, _⟩ => ⟨S16x1024x64, .f32⟩
  | .hbm, ⟨22, _⟩ => ⟨S1024x1024, .f32⟩
  | .hbm, ⟨23, _⟩ => ⟨S1024x16x64, .f32⟩
  | .hbm, ⟨24, _⟩ => ⟨S16x1024x64, .f32⟩
  | .hbm, ⟨25, _⟩ => ⟨S1024x1024, .f32⟩
  | .hbm, ⟨26, _⟩ => ⟨S1024x16x64, .f32⟩
  | .hbm, ⟨27, _⟩ => ⟨S16x1024x64, .f32⟩
  | .hbm, ⟨28, _⟩ => ⟨S16x1024x64, .bf16⟩
  | .hbm, ⟨29, _⟩ => ⟨S16x1x1, .f32⟩
  | .hbm, ⟨30, _⟩ => ⟨S16x1024x64, .bf16⟩
  | .hbm, ⟨31, _⟩ => ⟨S1024x16x64, .bf16⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S1x1024, .f32⟩
  | .hbm, ⟨36, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1024x3072, .f32⟩
  | .local _ .vmem, ⟨3, _⟩ => ⟨S1x3072, .f32⟩
  | .local _ .vmem, ⟨4, _⟩ => ⟨S256x3072, .f32⟩
  | .local _ .vmem, ⟨5, _⟩ => ⟨S256x3072, .f32⟩
  | .local _ .vmem, ⟨6, _⟩ => ⟨S16x128x64, .f32⟩
  | .local _ .vmem, ⟨7, _⟩ => ⟨S16x128x64, .f32⟩
  | .local _ .vmem, ⟨8, _⟩ => ⟨S16x128x64, .f32⟩
  | .local _ .vmem, ⟨9, _⟩ => ⟨S16x128x64, .f32⟩
  | .local _ .vmem, ⟨10, _⟩ => ⟨S16x128x64, .bf16⟩
  | .local _ .vmem, ⟨11, _⟩ => ⟨S16x128x64, .bf16⟩
  | .local _ .vmem, ⟨12, _⟩ => ⟨S128x128x64, .f32⟩
  | .local _ .vmem, ⟨13, _⟩ => ⟨S128x128x64, .f32⟩
  | .local _ .vmem, ⟨14, _⟩ => ⟨S16x64, .f32⟩
  | .local _ .vmem, ⟨15, _⟩ => ⟨S16x1x1, .f32⟩
  | .local _ .vmem, ⟨16, _⟩ => ⟨S16x128x64, .bf16⟩
  | .local _ .vmem, ⟨17, _⟩ => ⟨S16x128x64, .bf16⟩
  | .local _ .vmem, ⟨18, _⟩ => ⟨S16x128x1, .f32⟩
  | .local _ .vmem, ⟨19, _⟩ => ⟨S16x128x1, .f32⟩
  | .local _ .vmem, ⟨20, _⟩ => ⟨S16x128x64, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S1024x1024, .bf16⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_43 : BitVec 32 := 0#32
  let v55 : BitVec 1 := Scalar.cmpi .ne v54 c0_i32_43
  v55

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S16x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x128x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S16x128x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  slices_S1024x3072_S1024x1024_0_0 : S1024x3072.Slices ![0, 0] S1024x1024
  shapeCasts_S1024x1024_S1024x16x64 : S1024x1024.ShapeCasts S1024x16x64
  transposes_S1024x16x64_S16x1024x64_1_0_2 : S1024x16x64.Transposes [1, 0, 2] S16x1024x64
  slices_S1024x3072_S1024x1024_0_1024 : S1024x3072.Slices ![0, 1024] S1024x1024
  slices_S1024x3072_S1024x1024_0_2048 : S1024x3072.Slices ![0, 2048] S1024x1024
  bitsLt_bf16_f32 : FTy.bits .bf16 < FTy.bits .f32
  shapeCasts_S16_S16x1x1 : S16.ShapeCasts S16x1x1
  inb_S16x128x1_S16x128x1_0_0_0 : ∀ a, (![0, 0, 0] : Fin 3 → Nat) a + S16x128x1.size a ≤ S16x128x1.size a
  h_S16x128x1 : 0 < S16x128x1.numel
  shapeCasts_S16x128x1_S16x128x1 : S16x128x1.ShapeCasts S16x128x1
  inb_S16x128x64_S16x128x64_0_0_0 : ∀ a, (![0, 0, 0] : Fin 3 → Nat) a + S16x128x64.size a ≤ S16x128x64.size a
  h_S16x128x64 : 0 < S16x128x64.numel
  shapeCasts_S16x128x64_S16x128x64 : S16x128x64.ShapeCasts S16x128x64
  inb_S128x128x64_S128x128x64_0_0_0 : ∀ a, (![0, 0, 0] : Fin 3 → Nat) a + S128x128x64.size a ≤ S128x128x64.size a
  h_S128x128x64 : 0 < S128x128x64.numel
  inb_S16x64_S16x64_0_0 : ∀ a, (![0, 0] : Fin 2 → Nat) a + S16x64.size a ≤ S16x64.size a
  h_S16x64 : 0 < S16x64.numel
  inb_S16x1x1_S16x1x1_0_0_0 : ∀ a, (![0, 0, 0] : Fin 3 → Nat) a + S16x1x1.size a ≤ S16x1x1.size a
  h_S16x1x1 : 0 < S16x1x1.numel
  shapeCasts_S16x1x1_S16x1x1 : S16x1x1.ShapeCasts S16x1x1
  shapeCasts_S128x128x64_S16384x64 : S128x128x64.ShapeCasts S16384x64
  shapeCasts_S16x16384_S16x128x128 : S16x16384.ShapeCasts S16x128x128
  broadcasts_S16x1x1_S16x128x128 : S16x1x1.Broadcasts S16x128x128
  reduces_S16x128x128_S16x128 : S16x128x128.Reduces [2] S16x128
  shapeCasts_S16x128_S16x128x1 : S16x128.ShapeCasts S16x128x1
  broadcasts_S16x128x1_S16x128x128 : S16x128x1.Broadcasts S16x128x128
  broadcasts_S16x128x1_S16x128x64 : S16x128x1.Broadcasts S16x128x64
  packedbf16_S16x128x64_S16x128x64_0_0_0 : (Rect.unit (s := S16x128x64) ![0, 0, 0] S16x128x64.size inb_S16x128x64_S16x128x64_0_0_0).PackedRows (EltTy.packing .bf16)
  transposes_S16x1024x64_S1024x16x64_1_0_2 : S16x1024x64.Transposes [1, 0, 2] S1024x16x64
  shapeCasts_S1024x16x64_S1024x1024 : S1024x16x64.ShapeCasts S1024x1024
  shapeCasts_S1024_S1x1024 : S1024.ShapeCasts S1x1024
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x3072_S256x3072_1_0_0_1_n_n_wf : DotDims.WF S256x1024 S1024x3072 S256x3072 [1] [0] [0] [1] [] []
  dot_S16x64_S16384x64_S16x16384_1_1_0_0_n_n_wf : DotDims.WF S16x64 S16384x64 S16x16384 [1] [1] [0] [0] [] []
  dot_S16x128x64_S16x128x64_S16x128x128_2_2_1_1_0_0_wf : DotDims.WF S16x128x64 S16x128x64 S16x128x128 [2] [2] [1] [1] [0] [0]
  dot_S16x128x128_S16x128x64_S16x128x64_2_1_1_2_0_0_wf : DotDims.WF S16x128x128 S16x128x64 S16x128x64 [2] [1] [1] [2] [0] [0]
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .f32 = 32 ∨ (Rect.block (s := S1024x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .f32 = 32 ∨ (Rect.block (s := S1024x3072) S1024x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S1024x3072.size a
  hwx0_3 : ∀ i : grid0.Coords, EltTy.bits .f32 = 32 ∨ (Rect.block (s := S1024x3072) S256x3072.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x64.size a ≤ S16x1024x64.size a
  hwx1_0 : ∀ i : grid1.Coords, EltTy.bits .f32 = 32 ∨ (Rect.block (s := S16x1024x64) S16x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128x64.size a ≤ S16x1024x64.size a
  hwx1_1 : ∀ i : grid1.Coords, EltTy.bits .f32 = 32 ∨ (Rect.block (s := S16x1024x64) S16x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128x64.size a ≤ S16x1024x64.size a
  hwx1_2 : ∀ i : grid1.Coords, EltTy.bits .bf16 = 32 ∨ (Rect.block (s := S16x1024x64) S16x128x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128x64.size a ≤ S1024x1024x64.size a
  hwx1_3 : ∀ i : grid1.Coords, EltTy.bits .f32 = 32 ∨ (Rect.block (s := S1024x1024x64) S128x128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x1x1.size a ≤ S16x1x1.size a
  hwx1_5 : ∀ i : grid1.Coords, EltTy.bits .f32 = 32 ∨ (Rect.block (s := S16x1x1) S16x1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16x128x64.size a ≤ S16x1024x64.size a
  hwx1_6 : ∀ i : grid1.Coords, EltTy.bits .bf16 = 32 ∨ (Rect.block (s := S16x1024x64) S16x128x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S1024x1024.size a
  hwx2_0 : ∀ i : grid2.Coords, EltTy.bits .f32 = 32 ∨ (Rect.block (s := S1024x1024) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S1024x1024.size a
  hwx2_1 : ∀ i : grid2.Coords, EltTy.bits .bf16 = 32 ∨ (Rect.block (s := S1024x1024) S256x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1024.size a ≤ S1024x1024.size a
  hwx2_4 : ∀ i : grid2.Coords, EltTy.bits .f32 = 32 ∨ (Rect.block (s := S1024x1024) S256x1024.size (cc2_transform_4 i) (hinb2_4 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S16x64_S16384x64_S16x16384_1_1_0_0_n_n : DotDims S16x64 S16384x64 S16x16384 where
  lhsContracting := [1]
  rhsContracting := [1]
  lhsNonContracting := [0]
  rhsNonContracting := [0]
  lhsBatch := []
  rhsBatch := []
  wf := dot_S16x64_S16384x64_S16x16384_1_1_0_0_n_n_wf
def dot_S16x128x64_S16x128x64_S16x128x128_2_2_1_1_0_0 : DotDims S16x128x64 S16x128x64 S16x128x128 where
  lhsContracting := [2]
  rhsContracting := [2]
  lhsNonContracting := [1]
  rhsNonContracting := [1]
  lhsBatch := [0]
  rhsBatch := [0]
  wf := dot_S16x128x64_S16x128x64_S16x128x128_2_2_1_1_0_0_wf
def dot_S16x128x128_S16x128x64_S16x128x64_2_1_1_2_0_0 : DotDims S16x128x128 S16x128x64 S16x128x64 where
  lhsContracting := [2]
  rhsContracting := [1]
  lhsNonContracting := [1]
  rhsNonContracting := [2]
  lhsBatch := [0]
  rhsBatch := [0]
  wf := dot_S16x128x128_S16x128x64_S16x128x64_2_1_1_2_0_0_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S16x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S16x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S16x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128x128x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S16x1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S16x128x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_arg0) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S256x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1024x1024 : Shape := ⟨2, ![1024, 1024]⟩
abbrev S1024x1024x64 : Shape := ⟨3, ![1024, 1024, 64]⟩
abbrev S1024 : Shape := ⟨1, ![1024]⟩
abbrev S16x64 : Shape := ⟨2, ![16, 64]⟩
abbrev S16 : Shape := ⟨1, ![16]⟩
abbrev S16x1024x1024 : Shape := ⟨3, ![16, 1024, 1024]⟩
abbrev S16x1x1 : Shape := ⟨3, ![16, 1, 1]⟩
abbrev S_ : Shape := ⟨0, ![]⟩
abbrev S1x1024 : Shape := ⟨2, ![1, 1024]⟩
abbrev S1024x16x64 : Shape := ⟨3, ![1024, 16, 64]⟩
abbrev S16x1024x64 : Shape := ⟨3, ![16, 1024, 64]⟩
abbrev S16x1024 : Shape := ⟨2, ![16, 1024]⟩
abbrev S16x1024x1 : Shape := ⟨3, ![16, 1024, 1]⟩

abbrev nBuf : Space → Nat
  | .hbm => 69
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024x64, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16x64, .f32⟩
  | .hbm, ⟨9, _⟩ => ⟨S16, .f32⟩
  | .hbm, ⟨10, _⟩ => ⟨S1024x1024, .f32⟩
  | .hbm, ⟨11, _⟩ => ⟨S1024, .f32⟩
  | .hbm, ⟨12, _⟩ => ⟨S16x1024x1024, .f32⟩
  | .hbm, ⟨13, _⟩ => ⟨S16x1x1, .f32⟩
  | .hbm, ⟨14, _⟩ => ⟨S16x1024x1024, .f32⟩
  | .hbm, ⟨15, _⟩ => ⟨S16x1024x1024, .f32⟩
  | .hbm, ⟨16, _⟩ => ⟨S_, .f32⟩
  | .hbm, ⟨17, _⟩ => ⟨S16x1024x1024, .f32⟩
  | .hbm, ⟨18, _⟩ => ⟨S16x1024x1024, .f32⟩
  | .hbm, ⟨19, _⟩ => ⟨S_, .f32⟩
  | .hbm, ⟨20, _⟩ => ⟨S16x1024x1024, .f32⟩
  | .hbm, ⟨21, _⟩ => ⟨S16x1024x1024, .f32⟩
  | .hbm, ⟨22, _⟩ => ⟨S16x1024x1024, .f32⟩
  | .hbm, ⟨23, _⟩ => ⟨S1024x1024, .f32⟩
  | .hbm, ⟨24, _⟩ => ⟨S1024x1024, .f32⟩
  | .hbm, ⟨25, _⟩ => ⟨S1x1024, .f32⟩
  | .hbm, ⟨26, _⟩ => ⟨S1024x1024, .f32⟩
  | .hbm, ⟨27, _⟩ => ⟨S1024x1024, .f32⟩
  | .hbm, ⟨28, _⟩ => ⟨S1024x16x64, .f32⟩
  | .hbm, ⟨29, _⟩ => ⟨S16x1024x64, .f32⟩
  | .hbm, ⟨30, _⟩ => ⟨S1024x1024, .f32⟩
  | .hbm, ⟨31, _⟩ => ⟨S1024x1024, .f32⟩
  | .hbm, ⟨32, _⟩ => ⟨S1x1024, .f32⟩
  | .hbm, ⟨33, _⟩ => ⟨S1024x1024, .f32⟩
  | .hbm, ⟨34, _⟩ => ⟨S1024x1024, .f32⟩
  | .hbm, ⟨35, _⟩ => ⟨S1024x16x64, .f32⟩
  | .hbm, ⟨36, _⟩ => ⟨S16x1024x64, .f32⟩
  | .hbm, ⟨37, _⟩ => ⟨S1024x1024, .f32⟩
  | .hbm, ⟨38, _⟩ => ⟨S1024x1024, .f32⟩
  | .hbm, ⟨39, _⟩ => ⟨S1x1024, .f32⟩
  | .hbm, ⟨40, _⟩ => ⟨S1024x1024, .f32⟩
  | .hbm, ⟨41, _⟩ => ⟨S1024x1024, .f32⟩
  | .hbm, ⟨42, _⟩ => ⟨S1024x16x64, .f32⟩
  | .hbm, ⟨43, _⟩ => ⟨S16x1024x64, .f32⟩
  | .hbm, ⟨44, _⟩ => ⟨S16x1024x1024, .f32⟩
  | .hbm, ⟨45, _⟩ => ⟨S16x1024x1024, .f32⟩
  | .hbm, ⟨46, _⟩ => ⟨S_, .f32⟩
  | .hbm, ⟨47, _⟩ => ⟨S16x1024, .f32⟩
  | .hbm, ⟨48, _⟩ => ⟨S_, .f32⟩
  | .hbm, ⟨49, _⟩ => ⟨S16x1024, .f32⟩
  | .hbm, ⟨50, _⟩ => ⟨S16x1024, .f32⟩
  | .hbm, ⟨51, _⟩ => ⟨S16x1024x1, .f32⟩
  | .hbm, ⟨52, _⟩ => ⟨S16x1024x1024, .f32⟩
  | .hbm, ⟨53, _⟩ => ⟨S16x1024x1024, .f32⟩
  | .hbm, ⟨54, _⟩ => ⟨S16x1024x1024, .f32⟩
  | .hbm, ⟨55, _⟩ => ⟨S_, .f32⟩
  | .hbm, ⟨56, _⟩ => ⟨S16x1024, .f32⟩
  | .hbm, ⟨57, _⟩ => ⟨S16x1024x1, .f32⟩
  | .hbm, ⟨58, _⟩ => ⟨S16x1024x1024, .f32⟩
  | .hbm, ⟨59, _⟩ => ⟨S16x1024x1024, .f32⟩
  | .hbm, ⟨60, _⟩ => ⟨S16x1024x64, .f32⟩
  | .hbm, ⟨61, _⟩ => ⟨S1024x16x64, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S1x1024, .f32⟩
  | .hbm, ⟨66, _⟩ => ⟨S1024x1024, .f32⟩
  | .hbm, ⟨67, _⟩ => ⟨S1024x1024, .f32⟩
  | .hbm, ⟨68, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_0 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  bcast_S16_S16x1x1_0 : S16.BroadcastsInDim S16x1x1 (![0] : Fin 1 → Fin S16x1x1.rank)
  bcast_S16x1x1_S16x1024x1024_0_1_2 : S16x1x1.BroadcastsInDim S16x1024x1024 (![0, 1, 2] : Fin 3 → Fin S16x1024x1024.rank)
  bcast_S_S16x1024x1024 : S_.BroadcastsInDim S16x1024x1024 (![] : Fin 0 → Fin S16x1024x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  shapeCasts_S1024x1024_S1024x16x64 : S1024x1024.ShapeCasts S1024x16x64
  transposes_S1024x16x64_S16x1024x64_1_0_2 : S1024x16x64.Transposes [1, 0, 2] S16x1024x64
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  transposes_S16x1024x64_S1024x16x64_1_0_2 : S16x1024x64.Transposes [1, 0, 2] S1024x16x64
  shapeCasts_S1024x16x64_S1024x1024 : S1024x16x64.ShapeCasts S1024x1024
  dot_S16x64_S1024x1024x64_S16x1024x1024_1_2_0_01_n_n_wf : DotDims.WF S16x64 S1024x1024x64 S16x1024x1024 [1] [2] [0] [0, 1] [] []
  dot_S1024x1024_S1024x1024_S1024x1024_1_0_0_1_n_n_wf : DotDims.WF S1024x1024 S1024x1024 S1024x1024 [1] [0] [0] [1] [] []
  dot_S16x1024x64_S16x1024x64_S16x1024x1024_2_2_1_1_0_0_wf : DotDims.WF S16x1024x64 S16x1024x64 S16x1024x1024 [2] [2] [1] [1] [0] [0]
  dot_S16x1024x1024_S16x1024x64_S16x1024x64_2_1_1_2_0_0_wf : DotDims.WF S16x1024x1024 S16x1024x64 S16x1024x64 [2] [1] [1] [2] [0] [0]

variable [Facts₀]

def dot_S16x64_S1024x1024x64_S16x1024x1024_1_2_0_01_n_n : DotDims S16x64 S1024x1024x64 S16x1024x1024 where
  lhsContracting := [1]
  rhsContracting := [2]
  lhsNonContracting := [0]
  rhsNonContracting := [0, 1]
  lhsBatch := []
  rhsBatch := []
  wf := dot_S16x64_S1024x1024x64_S16x1024x1024_1_2_0_01_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S16x1024x64_S16x1024x64_S16x1024x1024_2_2_1_1_0_0 : DotDims S16x1024x64 S16x1024x64 S16x1024x1024 where
  lhsContracting := [2]
  rhsContracting := [2]
  lhsNonContracting := [1]
  rhsNonContracting := [1]
  lhsBatch := [0]
  rhsBatch := [0]
  wf := dot_S16x1024x64_S16x1024x64_S16x1024x1024_2_2_1_1_0_0_wf
def dot_S16x1024x1024_S16x1024x64_S16x1024x64_2_1_1_2_0_0 : DotDims S16x1024x1024 S16x1024x64 S16x1024x64 where
  lhsContracting := [2]
  rhsContracting := [1]
  lhsNonContracting := [1]
  rhsNonContracting := [2]
  lhsBatch := [0]
  rhsBatch := [0]
  wf := dot_S16x1024x1024_S16x1024x64_S16x1024x64_2_1_1_2_0_0_wf

class Facts : Prop extends Facts₀ where

variable [Facts]
-- ==== Proof.BitsRegion0.lean ====
/-
  The projection kernel (the first of the program's three kernel regions): at grid point t it loads a 256-row block of
  the activations, the whole 1024×3072 weight matrix and the 1×3072 bias row, and stores into its output block the
  matrix product plus the bias row broadcast down the rows. Here: what each window's staging buffer holds before and
  after the body at every grid point, the body's run as a separation-logic triple, and the per-point obligation the
  pipeline's launch theorems take. Stated at any float instance.
-/
import proofs.«153090_j59820304499077_2_alg».proof.Proof.Gen.Kernel.Launch
import proofs.«153090_j59820304499077_2_alg».proof.Proof.Gen.Kernel.Skeleton
import proofs.«153090_j59820304499077_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered.
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's 256-row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds the whole matrix at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row's staging buffer likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole of its block. -/
abbrev r0_0 : Rect S256x1024 := Rect.unit (s := S256x1024) ![0, 0] S256x1024.size inb_S256x1024_S256x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S256x3072 := Rect.unit (s := S256x3072) ![0, 0] S256x3072.size inb_S256x3072_S256x3072_0_0

theorem hz2 : (![0, 0] : Fin 2 → Nat) = fun _ => 0 := by funext a; fin_cases a <;> rfl

/-- The output block after the body: the product plus the bias row, of the three input blocks, stored whole. -/
def out0_3 (x0 : Vec F S256x1024 .f32) (x1 : Vec F S1024x3072 .f32) (x2 : Vec F S1x3072 .f32) : Vec F S256x3072 .f32 :=
  View.canon [⟨r0_3, k0_pay1 (View.ld x0 r0_0) (View.ld x1 r0_1) (View.ld x2 r0_2)⟩]

/-- The one store covers the block. -/
theorem cover0_3 (p0 : Vec F S256x3072 .f32) (y : S256x3072.Idx) :
    ∃ pc ∈ ([⟨r0_3, p0⟩] : List (View.Piece (Elt F) S256x3072 .f32)), y ∈ pc.1.set :=
  ⟨⟨r0_3, p0⟩, List.mem_singleton.mpr rfl, View.mem_set_unit_zero hz2 inb_S256x3072_S256x3072_0_0 y⟩

set_option maxHeartbeats 1000000 in
/-- The body on whole staging buffers: the three inputs keep their contents, the output ends at the product plus bias. -/
theorem sound_kernel0 (c : Dev nD) (E : Set ℕ) (i : grid0.Coords)
    (arg1 : Memref sig .tc .vmem S256x1024 .f32) (harg1 : arg1.IsWhole) (arg2 : Memref sig .tc .vmem S1024x3072 .f32) (harg2 : arg2.IsWhole)
    (arg3 : Memref sig .tc .vmem S1x3072 .f32) (harg3 : arg3.IsWhole) (arg4 : Memref sig .tc .vmem S256x3072 .f32) (harg4 : arg4.IsWhole)
    (x0 : Vec F S256x1024 .f32) (x1 : Vec F S1024x3072 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-- The region's proof data on core c: the arrays as the region finds them; after the body at point t each input's
    buffer still at its block and the output's at the product plus bias of the input blocks; the invariant the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1Base.lean ====
/-
  The attention kernel (the second of the program's three kernel regions), on an 8×8 grid of (query block, key block)
  points, the key block innermost. At every point it forms the block of scores (queries · keys plus the logarithm of the
  clamped geometry bias), updates a running row maximum, a running sum of exponentials and a running weighted sum of
  values kept in three scratch buffers, resetting them at a query block's first key block and, at its last, storing the
  weighted sum divided by the sum of exponentials into the output block. This module: the windows' blocks, the two
  branch conditions decided over the grid, where the output window is idle, the scratch buffers as memrefs, and the
  region invariant with the three scratch buffers singled out. Stated at any float instance.
-/
import proofs.«153090_j59820304499077_2_alg».proof.Proof.Gen.Kernel.Launch
import proofs.«153090_j59820304499077_2_alg».proof.Proof.Gen.Kernel.Skeleton
import proofs.«153090_j59820304499077_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered.
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block's staging buffer holds the point's block at every point (fetched when the query block changes). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key block's staging buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value block's staging buffer holds the point's block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The geometry block's staging buffer holds the point's block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The geometry weights' staging buffer holds the whole matrix at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- The geometry bias column's staging buffer likewise. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The first branch of the body (reset the running statistics): taken at a query block's first key block. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (normalise and store the output block): taken at a query block's last key block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the second branch is not taken the output window is idle and its block is not written back; where it is taken
    the window is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- One staging buffer of the output window, through which its contents are stated. -/
abbrev VO1_6 : View sig .tc .vmem S16x128x64 .bf16 := (Memref.whole cc1_stg6_0 : Memref sig .tc .vmem S16x128x64 .bf16).view
/-- Each window's current staging memref at point t, as the pipeline passes it, and its wholeness. -/
abbrev ms1_0 (t : Fin cfg1.N) : Memref sig .tc .vmem S16x128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x128x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16x1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S16x128x64 .bf16 := win1_6.stage (cfg1.slots t 6)
abbrev hs1_6 (t : Fin cfg1.N) : (ms1_6 t).IsWhole := hstage1_6 ((cfg1.slots t 6).cast nbuf1_6)
/-- The three scratch buffers: the running maximum, the running sum, the running weighted sum. -/
abbrev scM1_0 : Memref sig .tc .vmem S16x128x1 .f32 := Memref.whole cc1_scratch0
abbrev scM1_1 : Memref sig .tc .vmem S16x128x1 .f32 := Memref.whole cc1_scratch1
abbrev scM1_2 : Memref sig .tc .vmem S16x128x64 .f32 := Memref.whole cc1_scratch2
abbrev VS1_0 : View sig .tc .vmem S16x128x1 .f32 := scM1_0.view
abbrev VS1_1 : View sig .tc .vmem S16x128x1 .f32 := scM1_1.view
abbrev VS1_2 : View sig .tc .vmem S16x128x64 .f32 := scM1_2.view

/-- The scoped buffers no window of this region stages other than its three scratch buffers, each whole at some contents,
    and the generator register at some state. -/
def Other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ r, prngReg c r))

/-- The three scratch buffers at the given ownership beside the rest. -/
def PhiWith (c : Dev nD) (P0 P1 P2 : sProp 𝕄) : sProp 𝕄 := iprop(P0 ∗ P1 ∗ P2 ∗ Other1 c)

/-- The class's region invariant hands out each scratch buffer owned at some contents, -/
theorem PhiA1_split (c : Dev nD) :
    (Pipeline.ΦA spec1 c : sProp 𝕄)
      ⊢ PhiWith c iprop(∃ d, owns (c : Thread nD τ) scM1_0 fullShare d) iprop(∃ d, owns (c : Thread nD τ) scM1_1 fullShare d) iprop(∃ d, owns (c : Thread nD τ) scM1_2 fullShare d) := by
  unfold Pipeline.ΦA PhiWith Other1; rw [scopedRest1_eq]; simp only [scM1_0, scM1_1, scM1_2, owns_whole]
  iintro ⟨⟨A1, A2, A3, A4, A5, A6, S0, S1, S2, B1, B2, B3, B4, B5, B6, B7, B8⟩, Hg⟩
  isplitl [S0]; · iexact S0
  isplitl [S1]; · iexact S1
  isplitl [S2]; · iexact S2
  isplitl [A1]; · iexact A1
  isplitl [A2]; · iexact A2
  isplitl [A3]; · iexact A3
  isplitl [A4]; · iexact A4
  isplitl [A5]; · iexact A5
  isplitl [A6]; · iexact A6
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  iexact Hg
/-- and takes them back so. -/
theorem PhiA1_join (c : Dev nD) :
    PhiWith c iprop(∃ d, owns (c : Thread nD τ) scM1_0 fullShare d) iprop(∃ d, owns (c : Thread nD τ) scM1_1 fullShare d) iprop(∃ d, owns (c : Thread nD τ) scM1_2 fullShare d)
      ⊢ (Pipeline.ΦA spec1 c : sProp 𝕄) := by
  unfold Pipeline.ΦA PhiWith Other1; rw [scopedRest1_eq]; simp only [scM1_0, scM1_1, scM1_2, owns_whole]
  iintro ⟨S0, S1, S2, A1, A2, A3, A4, A5, A6, B1, B2, B3, B4, B5, B6, B7, B8, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [S0]; · iexact S0
  isplitl [S1]; · iexact S1
  isplitl [S2]; · iexact S2
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

end Cert.Kernel.Hand

end
-- ==== Proof.BitsRegion1RunA.lean ====
/-
  The attention kernel's whole body run at a query block's first key block (the statistics are reset, the output block is not stored): the body's separation-logic triple on whole staging and scratch
  memrefs, the input blocks kept, each scratch buffer left with the pieces its stores wrote (the pieces are the witness the
  run finds). Stated at any float instance.
-/
import proofs.«153090_j59820304499077_2_alg».proof.Proof.BitsRegion1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a first key block: the scratch buffers may hold anything; the output's staging buffer is handed back
    untouched. -/
noncomputable def kernelRun1_A (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) :
    Σ' (LS0 : List (View.Piece (Elt F) S16x128x1 .f32)) (LS1 : List (View.Piece (Elt F) S16x128x1 .f32)), { LS2 : List (View.Piece (Elt F) S16x128x64 .f32) //
      ∀ (xi6 : Vec F S16x128x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.BitsRegion1RunB.lean ====
/-
  The attention kernel's whole body run at a middle key block (no reset, the output block is not stored): the body's separation-logic triple on whole staging and scratch
  memrefs, the input blocks kept, each scratch buffer left with the pieces its stores wrote (the pieces are the witness the
  run finds). Stated at any float instance.
-/
import proofs.«153090_j59820304499077_2_alg».proof.Proof.BitsRegion1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a middle key block: the scratch buffers hold what the point before left; the output's staging buffer is
    handed back untouched. -/
noncomputable def kernelRun1_B (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) :
    Σ' (LS0 : List (View.Piece (Elt F) S16x128x1 .f32)) (LS1 : List (View.Piece (Elt F) S16x128x1 .f32)), { LS2 : List (View.Piece (Elt F) S16x128x64 .f32) //
      ∀ (xi6 : Vec F S16x128x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.BitsRegion1RunC.lean ====
/-
  The attention kernel's whole body run at a query block's last key block (no reset, the output block is stored): the body's separation-logic triple on whole staging and scratch
  memrefs, the input blocks kept, each scratch buffer left with the pieces its stores wrote (the pieces are the witness the
  run finds). Stated at any float instance.
-/
import proofs.«153090_j59820304499077_2_alg».proof.Proof.BitsRegion1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a last key block: the scratch buffers hold what the point before left; the output's staging buffer may
    hold anything and is left with the pieces its store wrote. -/
noncomputable def kernelRun1_C (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) :
    Σ' (L6 : List (View.Piece (Elt F) S16x128x64 .bf16)) (LS0 : List (View.Piece (Elt F) S16x128x1 .f32)) (LS1 : List (View.Piece (Elt F) S16x128x1 .f32)), { LS2 : List (View.Piece (Elt F) S16x128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Kernel.Hand

end
-- ==== Proof.BitsRegion1.lean ====
/-
  The attention kernel's region, assembled: what each scratch buffer and the output's staging buffer hold after the body
  at each of the 64 grid points (by recursion on the point: the reset case starts afresh, the other two continue from what
  the point before left), the region invariant that carries the three scratch buffers from point to point, the proof
  data, and the per-point obligation by cases on the point's position in its query block. Stated at any float instance.
-/
import proofs.«153090_j59820304499077_2_alg».proof.Proof.BitsRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At such a point the stores into scratch buffer 0 cover it. -/
theorem scover1_A_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (y : S16x128x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).1 S16x128x1.size (by sl_kernel_rfl) y
/-- What the body leaves in scratch buffer 0 there: its pieces read back. -/
def sout1_A_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) : Vec F S16x128x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5).1)
/-- At such a point the stores into scratch buffer 1 cover it. -/
theorem scover1_A_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (y : S16x128x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.1 S16x128x1.size (by sl_kernel_rfl) y
/-- What the body leaves in scratch buffer 1 there: its pieces read back. -/
def sout1_A_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) : Vec F S16x128x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5).2.1)
/-- At such a point the stores into scratch buffer 2 cover it. -/
theorem scover1_A_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (y : S16x128x64.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.1 S16x128x64.size (by sl_kernel_rfl) y
/-- What the body leaves in scratch buffer 2 there: its pieces read back. -/
def sout1_A_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) : Vec F S16x128x64 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 hc0 hc1 x0 x1 x2 x3 x4 x5).2.2.1)
/-- At such a point the stores into scratch buffer 0 cover it. -/
theorem scover1_B_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).1 S16x128x1.size (by sl_kernel_rfl) y
/-- What the body leaves in scratch buffer 0 there: its pieces read back. -/
def sout1_B_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).1)
/-- At such a point the stores into scratch buffer 1 cover it. -/
theorem scover1_B_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S16x128x1.size (by sl_kernel_rfl) y
/-- What the body leaves in scratch buffer 1 there: its pieces read back. -/
def sout1_B_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)
/-- At such a point the stores into scratch buffer 2 cover it. -/
theorem scover1_B_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x64.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S16x128x64.size (by sl_kernel_rfl) y
/-- What the body leaves in scratch buffer 2 there: its pieces read back. -/
def sout1_B_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x64 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)
/-- At such a point the stores into scratch buffer 0 cover it. -/
theorem scover1_C_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S16x128x1.size (by sl_kernel_rfl) y
/-- What the body leaves in scratch buffer 0 there: its pieces read back. -/
def sout1_C_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)
/-- At such a point the stores into scratch buffer 1 cover it. -/
theorem scover1_C_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S16x128x1.size (by sl_kernel_rfl) y
/-- What the body leaves in scratch buffer 1 there: its pieces read back. -/
def sout1_C_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)
/-- At such a point the stores into scratch buffer 2 cover it. -/
theorem scover1_C_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x64.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S16x128x64.size (by sl_kernel_rfl) y
/-- What the body leaves in scratch buffer 2 there: its pieces read back. -/
def sout1_C_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x64 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- At a last key block the one store into the output's staging buffer covers it. -/
theorem cover1_C_6 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x64.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S16x128x64.size (by sl_kernel_rfl) y
/-- What the body leaves in the output's staging buffer there. -/
def out1_C_6 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x64 .bf16 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

-- The buffers' contents when the region is entered.
variable (V : (c : Dev nD) → (b : Ref sig .tc) → Buf (Elt F) ((c : Thread nD τ).loc b))

/-- The three scratch buffers' contents, and with the output's staging buffer in front. -/
abbrev Scr (F : FTy → Type) [FloatOps F] : Type := Vec F S16x128x1 .f32 × Vec F S16x128x1 .f32 × Vec F S16x128x64 .f32
abbrev St (F : FTy → Type) [FloatOps F] : Type := Vec F S16x128x64 .bf16 × Scr F
/-- Contents nothing consults: the output's staging buffer where the body stores nothing into it, the scratch before
    the first point. -/
def junk6 : Vec F S16x128x64 .bf16 := VO1_6.read (Elt F) VO1_6.junk
def junkS : Scr F := (VS1_0.read (Elt F) VS1_0.junk, VS1_1.read (Elt F) VS1_1.junk, VS1_2.read (Elt F) VS1_2.junk)

/-- One point's effect on the output's staging buffer and the scratch buffers, from what the point before left in the
    scratch: the case is read off the point's position in its query block. -/
def stepAt1 (c : Dev nD) (t : Fin cfg1.N) (p : Scr F) : St F :=
  if h0 : t.val % 8 = 0 then
    (junk6,
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t),
      sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t))
  else if h1 : t.val % 8 = 7 then
    (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2)
  else
    (junk6,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2,
      sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2)

/-- THE ACCUMULATION: what the output's staging buffer and the scratch buffers hold after the body at position n. -/
def outsAt1 (c : Dev nD) : (n : ℕ) → n < cfg1.N → St F
  | 0, hn => stepAt1 V c ⟨0, hn⟩ junkS
  | n + 1, hn => stepAt1 V c ⟨n + 1, hn⟩ (outsAt1 c n (Nat.lt_of_succ_lt hn)).2

/-- After a point that is not the first: the step from what the point before left. -/
theorem outsAt1_pos (c : Dev nD) (t : Fin cfg1.N) (hz : t.val ≠ 0) :
    outsAt1 V c t.val t.isLt = stepAt1 V c t (outsAt1 V c (t.val - 1) (Nat.lt_of_le_of_lt (Nat.sub_le _ _) t.isLt)).2 := by
  obtain ⟨n, hn⟩ := t
  cases n with
  | zero => exact absurd rfl hz
  | succ n => rfl
/-- After the first point: the step from nothing in particular. -/
theorem outsAt1_zero (c : Dev nD) (t : Fin cfg1.N) (hz : t.val = 0) :
    outsAt1 V c t.val t.isLt = stepAt1 V c t junkS := by
  obtain ⟨n, hn⟩ := t
  cases n with
  | zero => rfl
  | succ n => exact absurd hz (Nat.succ_ne_zero n)

/-- The step at a first key block does not read what the point before left. -/
theorem stepAt1_A (c : Dev nD) (t : Fin cfg1.N) (h0 : t.val % 8 = 0) (p : Scr F) :
    stepAt1 V c t p = (junk6,
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t),
      sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t)) := by
  unfold stepAt1; rw [dif_pos h0]
theorem stepAt1_B (c : Dev nD) (t : Fin cfg1.N) (h0 : ¬t.val % 8 = 0) (h1 : ¬t.val % 8 = 7) (p : Scr F) :
    stepAt1 V c t p = (junk6,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2,
      sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2) := by
  unfold stepAt1; rw [dif_neg h0, dif_neg h1]
theorem stepAt1_C (c : Dev nD) (t : Fin cfg1.N) (h0 : ¬t.val % 8 = 0) (h1 : t.val % 8 = 7) (p : Scr F) :
    stepAt1 V c t p = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2) := by
  unfold stepAt1; rw [dif_neg h0, dif_pos h1]

/-- The region invariant before position n: before the first point the class's (every scratch buffer at anything);
    afterwards each scratch buffer at what the point before left in it. -/
def PhiS (c : Dev nD) : (n : ℕ) → n ≤ cfg1.N → sProp 𝕄
  | 0, _ => Pipeline.ΦA spec1 c
  | n + 1, hn => PhiWith c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2) := rfl
theorem PhiS_pos (c : Dev nD) (n : ℕ) (h : n ≤ cfg1.N) (hz : n ≠ 0) :
    PhiS V c n h = PhiWith c (owns (c : Thread nD τ) scM1_0 fullShare (outsAt1 V c (n - 1) (by omega)).2.1)
      (owns (c : Thread nD τ) scM1_1 fullShare (outsAt1 V c (n - 1) (by omega)).2.2.1) (owns (c : Thread nD τ) scM1_2 fullShare (outsAt1 V c (n - 1) (by omega)).2.2.2) := by
  cases n with
  | zero => exact absurd rfl hz
  | succ n => rfl

/-- The region's proof data on core c: the arrays as the region finds them; after the body at point t each input's
    buffer still at its block and the output's at the accumulation's first component; the invariant carries the scratch
    buffers; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' buffers hold their blocks; the point's position in its query block says which
    case it is in; the invariant hands the body the scratch buffers at what the point before left (at anything before
    the first point) and takes them back at this point's contents; where the body stores nothing into the output's
    staging buffer it is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · have hnc1 : ¬cond1_1 (grid1.coords t) := fun h => by have := (hcond1_1 t).mp h; omega
    rw [Dat.leavesExact_idle (dat1 V c) 6 t (idleAt1_6 t hnc1) (noFlush1_6 t hnc1)]
    by_cases hz : t.val = 0
    · rw [outsAt1_zero V c t hz, stepAt1_A V c t h0]
      unfold sout1_A_0 sout1_A_1 sout1_A_2; (try dsimp only)
      rw [PhiS_castSucc V c t, PhiS_zero V c _ _ hz]
      have hsplit := PhiA1_split (F := F) c
      unfold PhiWith at hsplit ⊢
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := hsplit $$ HΦ
      icases HΦ' with ⟨HS0, HS1, HS2, Hoth⟩
      iapply ((kernelRun1_A c (grid1.coords t) _ _ _ _ _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hoth]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [outsAt1_pos V c t hz, stepAt1_A V c t h0]
      unfold sout1_A_0 sout1_A_1 sout1_A_2; (try dsimp only)
      rw [PhiS_castSucc V c t, PhiS_pos V c _ _ hz]
      unfold PhiWith
      iintro ⟨⟨HS0, HS1, HS2, Hoth⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hoth]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_pos V c t hz, stepAt1_C V c t h0 h1]
      unfold out1_C_6 sout1_C_0 sout1_C_1 sout1_C_2; (try dsimp only)
      rw [PhiS_castSucc V c t, PhiS_pos V c _ _ hz]
      unfold PhiWith
      iintro ⟨⟨HS0, HS1, HS2, Hoth⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 Hoth]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _ _ _)
    · have hnc1 : ¬cond1_1 (grid1.coords t) := fun h => h1 ((hcond1_1 t).mp h)
      rw [Dat.leavesExact_idle (dat1 V c) 6 t (idleAt1_6 t hnc1) (noFlush1_6 t hnc1)]
      rw [outsAt1_pos V c t hz, stepAt1_B V c t h0 h1]
      unfold sout1_B_0 sout1_B_1 sout1_B_2; (try dsimp only)
      rw [PhiS_castSucc V c t, PhiS_pos V c _ _ hz]
      unfold PhiWith
      iintro ⟨⟨HS0, HS1, HS2, Hoth⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hoth]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: what the scratch buffers hold is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  have hjoin := PhiA1_join (F := F) c
  unfold PhiWith at hjoin ⊢
  iintro ⟨HS0, HS1, HS2, Ho⟩
  iapply hjoin
  isplitl [HS0]; · iexists _; iexact HS0
  isplitl [HS1]; · iexists _; iexact HS1
  isplitl [HS2]; · iexists _; iexact HS2
  iexact Ho

end Cert.Kernel.Hand

end
-- ==== Proof.BitsRegion2.lean ====
/-
  The output kernel (the last of the program's three kernel regions): at grid point t it loads a 256-row block of the
  activations, the matching 256-row block of the attention result, the whole 1024×1024 output weight matrix and the
  1×1024 bias row, and stores into its output block the activations plus (the product plus the bias row broadcast down
  the rows). Here: what each window's staging buffer holds before and after the body at every grid point, the body's
  run as a separation-logic triple, and the per-point obligation the pipeline's launch theorems take. Stated at any
  float instance.
-/
import proofs.«153090_j59820304499077_2_alg».proof.Proof.Gen.Kernel.Launch
import proofs.«153090_j59820304499077_2_alg».proof.Proof.Gen.Kernel.Skeleton
import proofs.«153090_j59820304499077_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered.
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's 256-row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The attention result's staging buffer holds the point's 256-row block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The weights' staging buffer holds the whole matrix at every point: fetched once, its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The bias row's staging buffer likewise. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: each the whole of its block. -/
abbrev r2_0 : Rect S256x1024 := Rect.unit (s := S256x1024) ![0, 0] S256x1024.size inb_S256x1024_S256x1024_0_0
abbrev r2_2 : Rect S1024x1024 := Rect.unit (s := S1024x1024) ![0, 0] S1024x1024.size inb_S1024x1024_S1024x1024_0_0
abbrev r2_3 : Rect S1x1024 := Rect.unit (s := S1x1024) ![0, 0] S1x1024.size inb_S1x1024_S1x1024_0_0

theorem hz2' : (![0, 0] : Fin 2 → Nat) = fun _ => 0 := by funext a; fin_cases a <;> rfl

/-- The output block after the body: activations plus product plus bias row, of the four input blocks, stored whole. -/
def out2_4 (x0 : Vec F S256x1024 .f32) (x1 : Vec F S256x1024 .bf16) (x2 : Vec F S1024x1024 .bf16) (x3 : Vec F S1x1024 .f32) : Vec F S256x1024 .f32 :=
  View.canon [⟨r2_0, k2_pay1 (View.ld x0 r2_0) (View.ld x1 r2_0) (View.ld x2 r2_2) (View.ld x3 r2_3)⟩]

/-- The one store covers the block. -/
theorem cover2_4 (p0 : Vec F S256x1024 .f32) (y : S256x1024.Idx) :
    ∃ pc ∈ ([⟨r2_0, p0⟩] : List (View.Piece (Elt F) S256x1024 .f32)), y ∈ pc.1.set :=
  ⟨⟨r2_0, p0⟩, List.mem_singleton.mpr rfl, View.mem_set_unit_zero hz2' inb_S256x1024_S256x1024_0_0 y⟩

set_option maxHeartbeats 1000000 in
/-- The body on whole staging buffers: the four inputs keep their contents, the output ends at activations plus
    product plus bias. -/
theorem sound_kernel2 (c : Dev nD) (E : Set ℕ) (i : grid2.Coords)
    (arg1 : Memref sig .tc .vmem S256x1024 .f32) (harg1 : arg1.IsWhole) (arg2 : Memref sig .tc .vmem S256x1024 .bf16) (harg2 : arg2.IsWhole)
    (arg3 : Memref sig .tc .vmem S1024x1024 .bf16) (harg3 : arg3.IsWhole) (arg4 : Memref sig .tc .vmem S1x1024 .f32) (harg4 : arg4.IsWhole)
    (arg5 : Memref sig .tc .vmem S256x1024 .f32) (harg5 : arg5.IsWhole)
    (x0 : Vec F S256x1024 .f32) (x1 : Vec F S256x1024 .bf16) (x2 : Vec F S1024x1024 .bf16) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__outproj_kernel i arg1 harg1 arg2 harg2 arg3 harg3 arg4 harg4 arg5 harg5) K := by
  simp only [cc2__outproj_kernel_eq_skeleton]; unfold cc2__outproj_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_4 _)

/-- The region's proof data on core c: the arrays as the region finds them; after the body at point t each input's
    buffer still at its block and the output's at the body's result of the input blocks; the invariant the scoped
    buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsMain.lean ====
/-
  The whole program's run: three stretches of host operations, each followed by a kernel region. The buffer contents at
  each of the seven segment boundaries are a fold from the launch memory (a stretch applies its operations; a region
  leaves its arrays at what its write-backs leave and every other buffer as entered); every argument array is traced
  back through the fold to its launch contents; and the several-regions launch theorem gives: every weakly fair
  execution terminates, nothing faulting, and the final memory holds every unscoped buffer at the last boundary's
  contents. Stated at any float instance.
-/
import proofs.«153090_j59820304499077_2_alg».proof.Proof.BitsRegion0
import proofs.«153090_j59820304499077_2_alg».proof.Proof.BitsRegion1
import proofs.«153090_j59820304499077_2_alg».proof.Proof.BitsRegion2
import proofs.«153090_j59820304499077_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => (s₀ m ρ).mem ((c : Dev nD), b)
/-- after the first stretch of host operations (region 0's entry), -/
abbrev W1 : Dev nD → Valuation τ sig (Elt F) := fun c => StableHlo.after hostOps0 (W0 m ρ c)
abbrev Vw1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (Vw1 m ρ) c).arrAt w cfg0.N
theorem W2_arr (c : Dev nD) (w : Fin cfg0.W) :
    W2 m ρ c (Proc.devRef .tc (Pipeline.arrRef spec0 w)) = (dat0 (Vw1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vw2 : (c : Dev nD) → (b : Ref sig .tc) → Buf (Elt F) ((c : Thread nD τ).loc b) := fun c b => W2 m ρ c b
theorem hF0 (c : Dev nD) (w : Fin cfg0.W) : (dat0 (Vw1 m ρ) c).arrAt w cfg0.N = Vw2 m ρ c (Pipeline.arrRef spec0 w) :=
  (W2_arr m ρ c w).symm
theorem hrest0 (c : Dev nD) : ∀ b, b ∉ Finset.univ.image (Pipeline.arrRef spec0) → Vw2 m ρ c b = Vw1 m ρ c b :=
  fun b hb => W2_of_ne m ρ c b fun w e => hb (Finset.mem_image.mpr ⟨w, Finset.mem_univ _, e⟩)

/-- after the second stretch (region 1's entry), -/
abbrev W3 : Dev nD → Valuation τ sig (Elt F) := fun c => StableHlo.after hostOps1 (W2 m ρ c)
abbrev Vw3 : (c : Dev nD) → (b : Ref sig .tc) → Buf (Elt F) ((c : Thread nD τ).loc b) := fun c b => W3 m ρ c b
/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (Vw3 m ρ) c).arrAt w cfg1.N
theorem W4_arr (c : Dev nD) (w : Fin cfg1.W) :
    W4 m ρ c (Proc.devRef .tc (Pipeline.arrRef spec1 w)) = (dat1 (Vw3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vw4 : (c : Dev nD) → (b : Ref sig .tc) → Buf (Elt F) ((c : Thread nD τ).loc b) := fun c b => W4 m ρ c b
theorem hF1 (c : Dev nD) (w : Fin cfg1.W) : (dat1 (Vw3 m ρ) c).arrAt w cfg1.N = Vw4 m ρ c (Pipeline.arrRef spec1 w) :=
  (W4_arr m ρ c w).symm
theorem hrest1 (c : Dev nD) : ∀ b, b ∉ Finset.univ.image (Pipeline.arrRef spec1) → Vw4 m ρ c b = Vw3 m ρ c b :=
  fun b hb => W4_of_ne m ρ c b fun w e => hb (Finset.mem_image.mpr ⟨w, Finset.mem_univ _, e⟩)

/-- after the third stretch (region 2's entry). -/
abbrev W5 : Dev nD → Valuation τ sig (Elt F) := fun c => StableHlo.after hostOps2 (W4 m ρ c)
abbrev Vw5 : (c : Dev nD) → (b : Ref sig .tc) → Buf (Elt F) ((c : Thread nD τ).loc b) := fun c b => W5 m ρ c b
/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (Vw5 m ρ) c).arrAt w cfg2.N
theorem W6_arr (c : Dev nD) (w : Fin cfg2.W) :
    W6 m ρ c (Proc.devRef .tc (Pipeline.arrRef spec2 w)) = (dat2 (Vw5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vw6 : (c : Dev nD) → (b : Ref sig .tc) → Buf (Elt F) ((c : Thread nD τ).loc b) := fun c b => W6 m ρ c b
theorem hF2 (c : Dev nD) (w : Fin cfg2.W) : (dat2 (Vw5 m ρ) c).arrAt w cfg2.N = Vw6 m ρ c (Pipeline.arrRef spec2 w) :=
  (W6_arr m ρ c w).symm
theorem hrest2 (c : Dev nD) : ∀ b, b ∉ Finset.univ.image (Pipeline.arrRef spec2) → Vw6 m ρ c b = Vw5 m ρ c b :=
  fun b hb => W6_of_ne m ρ c b fun w e => hb (Finset.mem_image.mpr ⟨w, Finset.mem_univ _, e⟩)

/-! The arguments end as launched: no host operation and no region writes one (a region reads it through an input window
    or bypasses it), so the fold at an argument's buffer walks back to the launch memory. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_arr m ρ c 0).trans (((dat2 (Vw5 m ρ) c).arrAt_in 0 rfl _).trans (A_eq2 (Vw5 m ρ) c 0))
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (Vw1 m ρ) c).arrAt_in 0 rfl _).trans (A_eq0 (Vw1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := (W4_arr m ρ c 3).trans (((dat1 (Vw3 m ρ) c).arrAt_in 3 rfl _).trans (A_eq1 (Vw3 m ρ) c 3))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide : main_arg8 ∉ hostOps2_W)
    _ = W3 m ρ c (Proc.devRef .tc main_arg8) := (W4_arr m ρ c 4).trans (((dat1 (Vw3 m ρ) c).arrAt_in 4 rfl _).trans (A_eq1 (Vw3 m ρ) c 4))
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide : main_arg9 ∉ hostOps2_W)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide : main_arg10 ∉ hostOps2_W)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide : main_arg11 ∉ hostOps2_W)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

/-- Every pipeline's proof data, each at its region's entry contents. -/
def hdats : (p : Fin 3) → (c : Dev nD) → Dat τ (Elt F) Unit ℕ (UR sig nD τ) ℕ (Pipeline.pin (pcfgs (F := F)) adm p) c
  | ⟨0, _⟩ => fun c => dat0 (Vw1 m ρ) c
  | ⟨1, _⟩ => fun c => dat1 (Vw3 m ρ) c
  | ⟨2, _⟩ => fun c => dat2 (Vw5 m ρ) c
abbrev 𝒱z : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and nothing owed. -/
abbrev Rz (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱z Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tend (c : Dev nD) : sProp 𝕄 := iprop(StableHlo.held (c : Thread nD τ) (Pipeline.ucRefs τ sig) (W6 m ρ c) ∗ ∃ r, prngReg c r)

set_option backward.isDefEq.respectTransparency.types false in
/-- Kernel region 0 over the thread state: entered from every unscoped buffer at the boundary's contents, left at
    the next boundary's. Its arrays are split out of the unscoped buffers and put back at what the write-backs leave;
    the generator register goes into the region invariant and comes out; nothing owed; no semaphore of the kernel's
    own. -/
def reg0 : Pipeline.RegionSeg (pcfgs (F := F)) adm (hdats m ρ) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Vw1 m ρ) c).loose
  hwaits := Pipeline.hwaits_of_owed_zero _ _ _ _ Lz lvz 0 fun _ _ => rfl
  pre c := iprop(StableHlo.held (c : Thread nD τ) (Pipeline.ucRefs τ sig) (W1 m ρ c) ∗ Rz c)
  post c := iprop(StableHlo.held (c : Thread nD τ) (Pipeline.ucRefs τ sig) (W2 m ρ c) ∗ Rz c)
  X c := iprop(∃ r, prngReg c r)
  Y c := iprop(∃ r, prngReg c r)
  Z c := Pipeline.unscopedRest (Ix := Unit) (Name := ℕ) (U := UR sig nD τ) (Lvl := ℕ) spec0 c (Vw1 m ρ c)
  hentry c := by
    rw [Pipeline.ownSems0_none]
    have hsplit := Pipeline.arrays_of_unscopedBufs (p := 0) (pcfgs (F := F)) adm (hdats m ρ) launch0.win launch0.arr_whole c
      ((hdats m ρ 0 c).share_full fun _ => rfl) (Vw1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hdats m ρ) ((hdats m ρ 0 c).share_full fun _ => rfl)
      (Vw1 m ρ c) (Vw2 m ρ c) ((hdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the boundary's contents, left at
    the next boundary's. Its arrays are split out of the unscoped buffers and put back at what the write-backs leave;
    the generator register goes into the region invariant and comes out; nothing owed; no semaphore of the kernel's
    own. -/
def reg1 : Pipeline.RegionSeg (pcfgs (F := F)) adm (hdats m ρ) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (Vw3 m ρ) c).loose
  hwaits := Pipeline.hwaits_of_owed_zero _ _ _ _ Lz lvz 1 fun _ _ => rfl
  pre c := iprop(StableHlo.held (c : Thread nD τ) (Pipeline.ucRefs τ sig) (W3 m ρ c) ∗ Rz c)
  post c := iprop(StableHlo.held (c : Thread nD τ) (Pipeline.ucRefs τ sig) (W4 m ρ c) ∗ Rz c)
  X c := iprop(∃ r, prngReg c r)
  Y c := iprop(∃ r, prngReg c r)
  Z c := Pipeline.unscopedRest (Ix := Unit) (Name := ℕ) (U := UR sig nD τ) (Lvl := ℕ) spec1 c (Vw3 m ρ c)
  hentry c := by
    rw [Pipeline.ownSems0_none]
    have hsplit := Pipeline.arrays_of_unscopedBufs (p := 1) (pcfgs (F := F)) adm (hdats m ρ) launch1.win launch1.arr_whole c
      ((hdats m ρ 1 c).share_full fun _ => rfl) (Vw3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 1 c).Φ 0 = Pipeline.ΦA spec1 c from rfl]; unfold Pipeline.ΦA
    iintro ⟨Hp, -, Hr⟩
    isplitl [Hr]; · iexact Hr
    iexact Hp
  hout c := by
    refine (show (hdats m ρ 1 c).Φ (Fin.last _) ⊢ (Pipeline.ΦA spec1 c : sProp 𝕄) from hout1 (Vw3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hdats m ρ) ((hdats m ρ 1 c).share_full fun _ => rfl)
      (Vw3 m ρ c) (Vw4 m ρ c) ((hdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered from every unscoped buffer at the boundary's contents, left at
    the next boundary's. Its arrays are split out of the unscoped buffers and put back at what the write-backs leave;
    the generator register goes into the region invariant and comes out; nothing owed; no semaphore of the kernel's
    own. -/
def reg2 : Pipeline.RegionSeg (pcfgs (F := F)) adm (hdats m ρ) () defs₀ 𝒱z Lz lvz 2 where
  win := launch2.win.to₀
  block_pos := launch2.block_pos
  stage_whole := launch2.stage_whole
  K := PEmpty
  osem k := k.elim
  ho := Pipeline.OwnSemFacts.none _
  hbody c := (body_obligation2 (Vw5 m ρ) c).loose
  hwaits := Pipeline.hwaits_of_owed_zero _ _ _ _ Lz lvz 2 fun _ _ => rfl
  pre c := iprop(StableHlo.held (c : Thread nD τ) (Pipeline.ucRefs τ sig) (W5 m ρ c) ∗ Rz c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vw5 m ρ c)
  hentry c := by
    rw [Pipeline.ownSems0_none]
    have hsplit := Pipeline.arrays_of_unscopedBufs (p := 2) (pcfgs (F := F)) adm (hdats m ρ) launch2.win launch2.arr_whole c
      ((hdats m ρ 2 c).share_full fun _ => rfl) (Vw5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (hdats m ρ) ((hdats m ρ 2 c).share_full fun _ => rfl)
      (Vw5 m ρ c) (Vw6 m ρ c) ((hdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's six segments in order. -/
abbrev rsegs : List (Pipeline.Seg (pcfgs (F := F)) adm (hdats m ρ) () defs₀ 𝒱z Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of its segments. -/
theorem main_run (c : Dev nD) : main (F := F) c = Pipeline.Seg.run (rsegs m ρ) := (main_chain c).trans (by chain_rfl)

set_option backward.isDefEq.respectTransparency.types false in
/-- THE RUN: from any memory with zero counters, every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (hdats m ρ) () cellOf_inj emb₁ defs₀ 𝒱z Lz lvz m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rz c)) (Tₙ := Tend m ρ)
    (hch := ⟨fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: every argument array ends as launched. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c)⟩) (run_all m ρ)

end Cert.Kernel.Hand

end
-- ==== Proof.IdealRegion0.lean ====
/-
  The projection kernel (the first of the program's three kernel regions): at grid point t it loads a 256-row block of
  the activations, the whole 1024×3072 weight matrix and the 1×3072 bias row, and stores into its output block the
  matrix product plus the bias row broadcast down the rows. Here: what each window's staging buffer holds before and
  after the body at every grid point, the body's run as a separation-logic triple, and the per-point obligation the
  pipeline's launch theorems take. Stated at any float instance.
-/
import proofs.«153090_j59820304499077_2_alg».proof.Proof.Gen.KernelIdeal.Launch
import proofs.«153090_j59820304499077_2_alg».proof.Proof.Gen.KernelIdeal.Skeleton
import proofs.«153090_j59820304499077_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered.
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's 256-row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds the whole matrix at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row's staging buffer likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole of its block. -/
abbrev r0_0 : Rect S256x1024 := Rect.unit (s := S256x1024) ![0, 0] S256x1024.size inb_S256x1024_S256x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S256x3072 := Rect.unit (s := S256x3072) ![0, 0] S256x3072.size inb_S256x3072_S256x3072_0_0

theorem hz2 : (![0, 0] : Fin 2 → Nat) = fun _ => 0 := by funext a; fin_cases a <;> rfl

/-- The output block after the body: the product plus the bias row, of the three input blocks, stored whole. -/
def out0_3 (x0 : Vec F S256x1024 .f32) (x1 : Vec F S1024x3072 .f32) (x2 : Vec F S1x3072 .f32) : Vec F S256x3072 .f32 :=
  View.canon [⟨r0_3, k0_pay1 (View.ld x0 r0_0) (View.ld x1 r0_1) (View.ld x2 r0_2)⟩]

/-- The one store covers the block. -/
theorem cover0_3 (p0 : Vec F S256x3072 .f32) (y : S256x3072.Idx) :
    ∃ pc ∈ ([⟨r0_3, p0⟩] : List (View.Piece (Elt F) S256x3072 .f32)), y ∈ pc.1.set :=
  ⟨⟨r0_3, p0⟩, List.mem_singleton.mpr rfl, View.mem_set_unit_zero hz2 inb_S256x3072_S256x3072_0_0 y⟩

set_option maxHeartbeats 1000000 in
/-- The body on whole staging buffers: the three inputs keep their contents, the output ends at the product plus bias. -/
theorem sound_kernel0 (c : Dev nD) (E : Set ℕ) (i : grid0.Coords)
    (arg1 : Memref sig .tc .vmem S256x1024 .f32) (harg1 : arg1.IsWhole) (arg2 : Memref sig .tc .vmem S1024x3072 .f32) (harg2 : arg2.IsWhole)
    (arg3 : Memref sig .tc .vmem S1x3072 .f32) (harg3 : arg3.IsWhole) (arg4 : Memref sig .tc .vmem S256x3072 .f32) (harg4 : arg4.IsWhole)
    (x0 : Vec F S256x1024 .f32) (x1 : Vec F S1024x3072 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-- The region's proof data on core c: the arrays as the region finds them; after the body at point t each input's
    buffer still at its block and the output's at the product plus bias of the input blocks; the invariant the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1Base.lean ====
/-
  The attention kernel (the second of the program's three kernel regions), on an 8×8 grid of (query block, key block)
  points, the key block innermost. At every point it forms the block of scores (queries · keys plus the logarithm of the
  clamped geometry bias), updates a running row maximum, a running sum of exponentials and a running weighted sum of
  values kept in three scratch buffers, resetting them at a query block's first key block and, at its last, storing the
  weighted sum divided by the sum of exponentials into the output block. This module: the windows' blocks, the two
  branch conditions decided over the grid, where the output window is idle, the scratch buffers as memrefs, and the
  region invariant with the three scratch buffers singled out. Stated at any float instance.
-/
import proofs.«153090_j59820304499077_2_alg».proof.Proof.Gen.KernelIdeal.Launch
import proofs.«153090_j59820304499077_2_alg».proof.Proof.Gen.KernelIdeal.Skeleton
import proofs.«153090_j59820304499077_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered.
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block's staging buffer holds the point's block at every point (fetched when the query block changes). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key block's staging buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value block's staging buffer holds the point's block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The geometry block's staging buffer holds the point's block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The geometry weights' staging buffer holds the whole matrix at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- The geometry bias column's staging buffer likewise. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The first branch of the body (reset the running statistics): taken at a query block's first key block. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (normalise and store the output block): taken at a query block's last key block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the second branch is not taken the output window is idle and its block is not written back; where it is taken
    the window is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- One staging buffer of the output window, through which its contents are stated. -/
abbrev VO1_6 : View sig .tc .vmem S16x128x64 .bf16 := (Memref.whole cc1_stg6_0 : Memref sig .tc .vmem S16x128x64 .bf16).view
/-- Each window's current staging memref at point t, as the pipeline passes it, and its wholeness. -/
abbrev ms1_0 (t : Fin cfg1.N) : Memref sig .tc .vmem S16x128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x128x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16x1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S16x128x64 .bf16 := win1_6.stage (cfg1.slots t 6)
abbrev hs1_6 (t : Fin cfg1.N) : (ms1_6 t).IsWhole := hstage1_6 ((cfg1.slots t 6).cast nbuf1_6)
/-- The three scratch buffers: the running maximum, the running sum, the running weighted sum. -/
abbrev scM1_0 : Memref sig .tc .vmem S16x128x1 .f32 := Memref.whole cc1_scratch0
abbrev scM1_1 : Memref sig .tc .vmem S16x128x1 .f32 := Memref.whole cc1_scratch1
abbrev scM1_2 : Memref sig .tc .vmem S16x128x64 .f32 := Memref.whole cc1_scratch2
abbrev VS1_0 : View sig .tc .vmem S16x128x1 .f32 := scM1_0.view
abbrev VS1_1 : View sig .tc .vmem S16x128x1 .f32 := scM1_1.view
abbrev VS1_2 : View sig .tc .vmem S16x128x64 .f32 := scM1_2.view

/-- The scoped buffers no window of this region stages other than its three scratch buffers, each whole at some contents,
    and the generator register at some state. -/
def Other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ r, prngReg c r))

/-- The three scratch buffers at the given ownership beside the rest. -/
def PhiWith (c : Dev nD) (P0 P1 P2 : sProp 𝕄) : sProp 𝕄 := iprop(P0 ∗ P1 ∗ P2 ∗ Other1 c)

/-- The class's region invariant hands out each scratch buffer owned at some contents, -/
theorem PhiA1_split (c : Dev nD) :
    (Pipeline.ΦA spec1 c : sProp 𝕄)
      ⊢ PhiWith c iprop(∃ d, owns (c : Thread nD τ) scM1_0 fullShare d) iprop(∃ d, owns (c : Thread nD τ) scM1_1 fullShare d) iprop(∃ d, owns (c : Thread nD τ) scM1_2 fullShare d) := by
  unfold Pipeline.ΦA PhiWith Other1; rw [scopedRest1_eq]; simp only [scM1_0, scM1_1, scM1_2, owns_whole]
  iintro ⟨⟨A1, A2, A3, A4, A5, A6, S0, S1, S2, B1, B2, B3, B4, B5, B6, B7, B8⟩, Hg⟩
  isplitl [S0]; · iexact S0
  isplitl [S1]; · iexact S1
  isplitl [S2]; · iexact S2
  isplitl [A1]; · iexact A1
  isplitl [A2]; · iexact A2
  isplitl [A3]; · iexact A3
  isplitl [A4]; · iexact A4
  isplitl [A5]; · iexact A5
  isplitl [A6]; · iexact A6
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  iexact Hg
/-- and takes them back so. -/
theorem PhiA1_join (c : Dev nD) :
    PhiWith c iprop(∃ d, owns (c : Thread nD τ) scM1_0 fullShare d) iprop(∃ d, owns (c : Thread nD τ) scM1_1 fullShare d) iprop(∃ d, owns (c : Thread nD τ) scM1_2 fullShare d)
      ⊢ (Pipeline.ΦA spec1 c : sProp 𝕄) := by
  unfold Pipeline.ΦA PhiWith Other1; rw [scopedRest1_eq]; simp only [scM1_0, scM1_1, scM1_2, owns_whole]
  iintro ⟨S0, S1, S2, A1, A2, A3, A4, A5, A6, B1, B2, B3, B4, B5, B6, B7, B8, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [S0]; · iexact S0
  isplitl [S1]; · iexact S1
  isplitl [S2]; · iexact S2
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

end Cert.KernelIdeal.Hand

end
-- ==== Proof.IdealRegion1RunA.lean ====
/-
  The attention kernel's whole body run at a query block's first key block (the statistics are reset, the output block is not stored): the body's separation-logic triple on whole staging and scratch
  memrefs, the input blocks kept, each scratch buffer left with the pieces its stores wrote (the pieces are the witness the
  run finds). Stated at any float instance.
-/
import proofs.«153090_j59820304499077_2_alg».proof.Proof.IdealRegion1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a first key block: the scratch buffers may hold anything; the output's staging buffer is handed back
    untouched. -/
noncomputable def kernelRun1_A (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) :
    Σ' (LS0 : List (View.Piece (Elt F) S16x128x1 .f32)) (LS1 : List (View.Piece (Elt F) S16x128x1 .f32)), { LS2 : List (View.Piece (Elt F) S16x128x64 .f32) //
      ∀ (xi6 : Vec F S16x128x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.IdealRegion1RunB.lean ====
/-
  The attention kernel's whole body run at a middle key block (no reset, the output block is not stored): the body's separation-logic triple on whole staging and scratch
  memrefs, the input blocks kept, each scratch buffer left with the pieces its stores wrote (the pieces are the witness the
  run finds). Stated at any float instance.
-/
import proofs.«153090_j59820304499077_2_alg».proof.Proof.IdealRegion1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a middle key block: the scratch buffers hold what the point before left; the output's staging buffer is
    handed back untouched. -/
noncomputable def kernelRun1_B (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) :
    Σ' (LS0 : List (View.Piece (Elt F) S16x128x1 .f32)) (LS1 : List (View.Piece (Elt F) S16x128x1 .f32)), { LS2 : List (View.Piece (Elt F) S16x128x64 .f32) //
      ∀ (xi6 : Vec F S16x128x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.IdealRegion1RunC.lean ====
/-
  The attention kernel's whole body run at a query block's last key block (no reset, the output block is stored): the body's separation-logic triple on whole staging and scratch
  memrefs, the input blocks kept, each scratch buffer left with the pieces its stores wrote (the pieces are the witness the
  run finds). Stated at any float instance.
-/
import proofs.«153090_j59820304499077_2_alg».proof.Proof.IdealRegion1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a last key block: the scratch buffers hold what the point before left; the output's staging buffer may
    hold anything and is left with the pieces its store wrote. -/
noncomputable def kernelRun1_C (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) :
    Σ' (L6 : List (View.Piece (Elt F) S16x128x64 .bf16)) (LS0 : List (View.Piece (Elt F) S16x128x1 .f32)) (LS1 : List (View.Piece (Elt F) S16x128x1 .f32)), { LS2 : List (View.Piece (Elt F) S16x128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Hand

end
-- ==== Proof.IdealRegion1.lean ====
/-
  The attention kernel's region, assembled: what each scratch buffer and the output's staging buffer hold after the body
  at each of the 64 grid points (by recursion on the point: the reset case starts afresh, the other two continue from what
  the point before left), the region invariant that carries the three scratch buffers from point to point, the proof
  data, and the per-point obligation by cases on the point's position in its query block. Stated at any float instance.
-/
import proofs.«153090_j59820304499077_2_alg».proof.Proof.IdealRegion1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At such a point the stores into scratch buffer 0 cover it. -/
theorem scover1_A_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (y : S16x128x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).1 S16x128x1.size (by sl_kernel_rfl) y
/-- What the body leaves in scratch buffer 0 there: its pieces read back. -/
def sout1_A_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) : Vec F S16x128x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5).1)
/-- At such a point the stores into scratch buffer 1 cover it. -/
theorem scover1_A_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (y : S16x128x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.1 S16x128x1.size (by sl_kernel_rfl) y
/-- What the body leaves in scratch buffer 1 there: its pieces read back. -/
def sout1_A_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) : Vec F S16x128x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5).2.1)
/-- At such a point the stores into scratch buffer 2 cover it. -/
theorem scover1_A_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (y : S16x128x64.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.1 S16x128x64.size (by sl_kernel_rfl) y
/-- What the body leaves in scratch buffer 2 there: its pieces read back. -/
def sout1_A_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) : Vec F S16x128x64 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 hc0 hc1 x0 x1 x2 x3 x4 x5).2.2.1)
/-- At such a point the stores into scratch buffer 0 cover it. -/
theorem scover1_B_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).1 S16x128x1.size (by sl_kernel_rfl) y
/-- What the body leaves in scratch buffer 0 there: its pieces read back. -/
def sout1_B_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).1)
/-- At such a point the stores into scratch buffer 1 cover it. -/
theorem scover1_B_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S16x128x1.size (by sl_kernel_rfl) y
/-- What the body leaves in scratch buffer 1 there: its pieces read back. -/
def sout1_B_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)
/-- At such a point the stores into scratch buffer 2 cover it. -/
theorem scover1_B_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x64.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S16x128x64.size (by sl_kernel_rfl) y
/-- What the body leaves in scratch buffer 2 there: its pieces read back. -/
def sout1_B_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x64 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)
/-- At such a point the stores into scratch buffer 0 cover it. -/
theorem scover1_C_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S16x128x1.size (by sl_kernel_rfl) y
/-- What the body leaves in scratch buffer 0 there: its pieces read back. -/
def sout1_C_0 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)
/-- At such a point the stores into scratch buffer 1 cover it. -/
theorem scover1_C_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S16x128x1.size (by sl_kernel_rfl) y
/-- What the body leaves in scratch buffer 1 there: its pieces read back. -/
def sout1_C_1 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)
/-- At such a point the stores into scratch buffer 2 cover it. -/
theorem scover1_C_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x64.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S16x128x64.size (by sl_kernel_rfl) y
/-- What the body leaves in scratch buffer 2 there: its pieces read back. -/
def sout1_C_2 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x64 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- At a last key block the one store into the output's staging buffer covers it. -/
theorem cover1_C_6 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) (y : S16x128x64.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S16x128x64.size (by sl_kernel_rfl) y
/-- What the body leaves in the output's staging buffer there. -/
def out1_C_6 (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) : Vec F S16x128x64 .bf16 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

-- The buffers' contents when the region is entered.
variable (V : (c : Dev nD) → (b : Ref sig .tc) → Buf (Elt F) ((c : Thread nD τ).loc b))

/-- The three scratch buffers' contents, and with the output's staging buffer in front. -/
abbrev Scr (F : FTy → Type) [FloatOps F] : Type := Vec F S16x128x1 .f32 × Vec F S16x128x1 .f32 × Vec F S16x128x64 .f32
abbrev St (F : FTy → Type) [FloatOps F] : Type := Vec F S16x128x64 .bf16 × Scr F
/-- Contents nothing consults: the output's staging buffer where the body stores nothing into it, the scratch before
    the first point. -/
def junk6 : Vec F S16x128x64 .bf16 := VO1_6.read (Elt F) VO1_6.junk
def junkS : Scr F := (VS1_0.read (Elt F) VS1_0.junk, VS1_1.read (Elt F) VS1_1.junk, VS1_2.read (Elt F) VS1_2.junk)

/-- One point's effect on the output's staging buffer and the scratch buffers, from what the point before left in the
    scratch: the case is read off the point's position in its query block. -/
def stepAt1 (c : Dev nD) (t : Fin cfg1.N) (p : Scr F) : St F :=
  if h0 : t.val % 8 = 0 then
    (junk6,
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t),
      sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t))
  else if h1 : t.val % 8 = 7 then
    (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2)
  else
    (junk6,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2,
      sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2)

/-- THE ACCUMULATION: what the output's staging buffer and the scratch buffers hold after the body at position n. -/
def outsAt1 (c : Dev nD) : (n : ℕ) → n < cfg1.N → St F
  | 0, hn => stepAt1 V c ⟨0, hn⟩ junkS
  | n + 1, hn => stepAt1 V c ⟨n + 1, hn⟩ (outsAt1 c n (Nat.lt_of_succ_lt hn)).2

/-- After a point that is not the first: the step from what the point before left. -/
theorem outsAt1_pos (c : Dev nD) (t : Fin cfg1.N) (hz : t.val ≠ 0) :
    outsAt1 V c t.val t.isLt = stepAt1 V c t (outsAt1 V c (t.val - 1) (Nat.lt_of_le_of_lt (Nat.sub_le _ _) t.isLt)).2 := by
  obtain ⟨n, hn⟩ := t
  cases n with
  | zero => exact absurd rfl hz
  | succ n => rfl
/-- After the first point: the step from nothing in particular. -/
theorem outsAt1_zero (c : Dev nD) (t : Fin cfg1.N) (hz : t.val = 0) :
    outsAt1 V c t.val t.isLt = stepAt1 V c t junkS := by
  obtain ⟨n, hn⟩ := t
  cases n with
  | zero => rfl
  | succ n => exact absurd hz (Nat.succ_ne_zero n)

/-- The step at a first key block does not read what the point before left. -/
theorem stepAt1_A (c : Dev nD) (t : Fin cfg1.N) (h0 : t.val % 8 = 0) (p : Scr F) :
    stepAt1 V c t p = (junk6,
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t),
      sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t)) := by
  unfold stepAt1; rw [dif_pos h0]
theorem stepAt1_B (c : Dev nD) (t : Fin cfg1.N) (h0 : ¬t.val % 8 = 0) (h1 : ¬t.val % 8 = 7) (p : Scr F) :
    stepAt1 V c t p = (junk6,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2,
      sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p.1 p.2.1 p.2.2) := by
  unfold stepAt1; rw [dif_neg h0, dif_neg h1]
theorem stepAt1_C (c : Dev nD) (t : Fin cfg1.N) (h0 : ¬t.val % 8 = 0) (h1 : t.val % 8 = 7) (p : Scr F) :
    stepAt1 V c t p = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2,
      sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p.1 p.2.1 p.2.2) := by
  unfold stepAt1; rw [dif_neg h0, dif_pos h1]

/-- The region invariant before position n: before the first point the class's (every scratch buffer at anything);
    afterwards each scratch buffer at what the point before left in it. -/
def PhiS (c : Dev nD) : (n : ℕ) → n ≤ cfg1.N → sProp 𝕄
  | 0, _ => Pipeline.ΦA spec1 c
  | n + 1, hn => PhiWith c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2) := rfl
theorem PhiS_pos (c : Dev nD) (n : ℕ) (h : n ≤ cfg1.N) (hz : n ≠ 0) :
    PhiS V c n h = PhiWith c (owns (c : Thread nD τ) scM1_0 fullShare (outsAt1 V c (n - 1) (by omega)).2.1)
      (owns (c : Thread nD τ) scM1_1 fullShare (outsAt1 V c (n - 1) (by omega)).2.2.1) (owns (c : Thread nD τ) scM1_2 fullShare (outsAt1 V c (n - 1) (by omega)).2.2.2) := by
  cases n with
  | zero => exact absurd rfl hz
  | succ n => rfl

/-- The region's proof data on core c: the arrays as the region finds them; after the body at point t each input's
    buffer still at its block and the output's at the accumulation's first component; the invariant carries the scratch
    buffers; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' buffers hold their blocks; the point's position in its query block says which
    case it is in; the invariant hands the body the scratch buffers at what the point before left (at anything before
    the first point) and takes them back at this point's contents; where the body stores nothing into the output's
    staging buffer it is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · have hnc1 : ¬cond1_1 (grid1.coords t) := fun h => by have := (hcond1_1 t).mp h; omega
    rw [Dat.leavesExact_idle (dat1 V c) 6 t (idleAt1_6 t hnc1) (noFlush1_6 t hnc1)]
    by_cases hz : t.val = 0
    · rw [outsAt1_zero V c t hz, stepAt1_A V c t h0]
      unfold sout1_A_0 sout1_A_1 sout1_A_2; (try dsimp only)
      rw [PhiS_castSucc V c t, PhiS_zero V c _ _ hz]
      have hsplit := PhiA1_split (F := F) c
      unfold PhiWith at hsplit ⊢
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := hsplit $$ HΦ
      icases HΦ' with ⟨HS0, HS1, HS2, Hoth⟩
      iapply ((kernelRun1_A c (grid1.coords t) _ _ _ _ _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hoth]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [outsAt1_pos V c t hz, stepAt1_A V c t h0]
      unfold sout1_A_0 sout1_A_1 sout1_A_2; (try dsimp only)
      rw [PhiS_castSucc V c t, PhiS_pos V c _ _ hz]
      unfold PhiWith
      iintro ⟨⟨HS0, HS1, HS2, Hoth⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hoth]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_pos V c t hz, stepAt1_C V c t h0 h1]
      unfold out1_C_6 sout1_C_0 sout1_C_1 sout1_C_2; (try dsimp only)
      rw [PhiS_castSucc V c t, PhiS_pos V c _ _ hz]
      unfold PhiWith
      iintro ⟨⟨HS0, HS1, HS2, Hoth⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 Hoth]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _ _ _)
    · have hnc1 : ¬cond1_1 (grid1.coords t) := fun h => h1 ((hcond1_1 t).mp h)
      rw [Dat.leavesExact_idle (dat1 V c) 6 t (idleAt1_6 t hnc1) (noFlush1_6 t hnc1)]
      rw [outsAt1_pos V c t hz, stepAt1_B V c t h0 h1]
      unfold sout1_B_0 sout1_B_1 sout1_B_2; (try dsimp only)
      rw [PhiS_castSucc V c t, PhiS_pos V c _ _ hz]
      unfold PhiWith
      iintro ⟨⟨HS0, HS1, HS2, Hoth⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hoth]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: what the scratch buffers hold is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  have hjoin := PhiA1_join (F := F) c
  unfold PhiWith at hjoin ⊢
  iintro ⟨HS0, HS1, HS2, Ho⟩
  iapply hjoin
  isplitl [HS0]; · iexists _; iexact HS0
  isplitl [HS1]; · iexists _; iexact HS1
  isplitl [HS2]; · iexists _; iexact HS2
  iexact Ho

end Cert.KernelIdeal.Hand

end
-- ==== Proof.IdealRegion2.lean ====
/-
  The output kernel (the last of the program's three kernel regions): at grid point t it loads a 256-row block of the
  activations, the matching 256-row block of the attention result, the whole 1024×1024 output weight matrix and the
  1×1024 bias row, and stores into its output block the activations plus (the product plus the bias row broadcast down
  the rows). Here: what each window's staging buffer holds before and after the body at every grid point, the body's
  run as a separation-logic triple, and the per-point obligation the pipeline's launch theorems take. Stated at any
  float instance.
-/
import proofs.«153090_j59820304499077_2_alg».proof.Proof.Gen.KernelIdeal.Launch
import proofs.«153090_j59820304499077_2_alg».proof.Proof.Gen.KernelIdeal.Skeleton
import proofs.«153090_j59820304499077_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered.
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's 256-row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The attention result's staging buffer holds the point's 256-row block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The weights' staging buffer holds the whole matrix at every point: fetched once, its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The bias row's staging buffer likewise. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: each the whole of its block. -/
abbrev r2_0 : Rect S256x1024 := Rect.unit (s := S256x1024) ![0, 0] S256x1024.size inb_S256x1024_S256x1024_0_0
abbrev r2_2 : Rect S1024x1024 := Rect.unit (s := S1024x1024) ![0, 0] S1024x1024.size inb_S1024x1024_S1024x1024_0_0
abbrev r2_3 : Rect S1x1024 := Rect.unit (s := S1x1024) ![0, 0] S1x1024.size inb_S1x1024_S1x1024_0_0

theorem hz2' : (![0, 0] : Fin 2 → Nat) = fun _ => 0 := by funext a; fin_cases a <;> rfl

/-- The output block after the body: activations plus product plus bias row, of the four input blocks, stored whole. -/
def out2_4 (x0 : Vec F S256x1024 .f32) (x1 : Vec F S256x1024 .bf16) (x2 : Vec F S1024x1024 .bf16) (x3 : Vec F S1x1024 .f32) : Vec F S256x1024 .f32 :=
  View.canon [⟨r2_0, k2_pay1 (View.ld x0 r2_0) (View.ld x1 r2_0) (View.ld x2 r2_2) (View.ld x3 r2_3)⟩]

/-- The one store covers the block. -/
theorem cover2_4 (p0 : Vec F S256x1024 .f32) (y : S256x1024.Idx) :
    ∃ pc ∈ ([⟨r2_0, p0⟩] : List (View.Piece (Elt F) S256x1024 .f32)), y ∈ pc.1.set :=
  ⟨⟨r2_0, p0⟩, List.mem_singleton.mpr rfl, View.mem_set_unit_zero hz2' inb_S256x1024_S256x1024_0_0 y⟩

set_option maxHeartbeats 1000000 in
/-- The body on whole staging buffers: the four inputs keep their contents, the output ends at activations plus
    product plus bias. -/
theorem sound_kernel2 (c : Dev nD) (E : Set ℕ) (i : grid2.Coords)
    (arg1 : Memref sig .tc .vmem S256x1024 .f32) (harg1 : arg1.IsWhole) (arg2 : Memref sig .tc .vmem S256x1024 .bf16) (harg2 : arg2.IsWhole)
    (arg3 : Memref sig .tc .vmem S1024x1024 .bf16) (harg3 : arg3.IsWhole) (arg4 : Memref sig .tc .vmem S1x1024 .f32) (harg4 : arg4.IsWhole)
    (arg5 : Memref sig .tc .vmem S256x1024 .f32) (harg5 : arg5.IsWhole)
    (x0 : Vec F S256x1024 .f32) (x1 : Vec F S256x1024 .bf16) (x2 : Vec F S1024x1024 .bf16) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__outproj_kernel i arg1 harg1 arg2 harg2 arg3 harg3 arg4 harg4 arg5 harg5) K := by
  simp only [cc2__outproj_kernel_eq_skeleton]; unfold cc2__outproj_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_4 _)

/-- The region's proof data on core c: the arrays as the region finds them; after the body at point t each input's
    buffer still at its block and the output's at the body's result of the input blocks; the invariant the scoped
    buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealMain.lean ====
/-
  The whole program's run: three stretches of host operations, each followed by a kernel region. The buffer contents at
  each of the seven segment boundaries are a fold from the launch memory (a stretch applies its operations; a region
  leaves its arrays at what its write-backs leave and every other buffer as entered); every argument array is traced
  back through the fold to its launch contents; and the several-regions launch theorem gives: every weakly fair
  execution terminates, nothing faulting, and the final memory holds every unscoped buffer at the last boundary's
  contents. Stated at any float instance.
-/
import proofs.«153090_j59820304499077_2_alg».proof.Proof.IdealRegion0
import proofs.«153090_j59820304499077_2_alg».proof.Proof.IdealRegion1
import proofs.«153090_j59820304499077_2_alg».proof.Proof.IdealRegion2
import proofs.«153090_j59820304499077_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => (s₀ m ρ).mem ((c : Dev nD), b)
/-- after the first stretch of host operations (region 0's entry), -/
abbrev W1 : Dev nD → Valuation τ sig (Elt F) := fun c => StableHlo.after hostOps0 (W0 m ρ c)
abbrev Vw1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (Vw1 m ρ) c).arrAt w cfg0.N
theorem W2_arr (c : Dev nD) (w : Fin cfg0.W) :
    W2 m ρ c (Proc.devRef .tc (Pipeline.arrRef spec0 w)) = (dat0 (Vw1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vw2 : (c : Dev nD) → (b : Ref sig .tc) → Buf (Elt F) ((c : Thread nD τ).loc b) := fun c b => W2 m ρ c b
theorem hF0 (c : Dev nD) (w : Fin cfg0.W) : (dat0 (Vw1 m ρ) c).arrAt w cfg0.N = Vw2 m ρ c (Pipeline.arrRef spec0 w) :=
  (W2_arr m ρ c w).symm
theorem hrest0 (c : Dev nD) : ∀ b, b ∉ Finset.univ.image (Pipeline.arrRef spec0) → Vw2 m ρ c b = Vw1 m ρ c b :=
  fun b hb => W2_of_ne m ρ c b fun w e => hb (Finset.mem_image.mpr ⟨w, Finset.mem_univ _, e⟩)

/-- after the second stretch (region 1's entry), -/
abbrev W3 : Dev nD → Valuation τ sig (Elt F) := fun c => StableHlo.after hostOps1 (W2 m ρ c)
abbrev Vw3 : (c : Dev nD) → (b : Ref sig .tc) → Buf (Elt F) ((c : Thread nD τ).loc b) := fun c b => W3 m ρ c b
/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (Vw3 m ρ) c).arrAt w cfg1.N
theorem W4_arr (c : Dev nD) (w : Fin cfg1.W) :
    W4 m ρ c (Proc.devRef .tc (Pipeline.arrRef spec1 w)) = (dat1 (Vw3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vw4 : (c : Dev nD) → (b : Ref sig .tc) → Buf (Elt F) ((c : Thread nD τ).loc b) := fun c b => W4 m ρ c b
theorem hF1 (c : Dev nD) (w : Fin cfg1.W) : (dat1 (Vw3 m ρ) c).arrAt w cfg1.N = Vw4 m ρ c (Pipeline.arrRef spec1 w) :=
  (W4_arr m ρ c w).symm
theorem hrest1 (c : Dev nD) : ∀ b, b ∉ Finset.univ.image (Pipeline.arrRef spec1) → Vw4 m ρ c b = Vw3 m ρ c b :=
  fun b hb => W4_of_ne m ρ c b fun w e => hb (Finset.mem_image.mpr ⟨w, Finset.mem_univ _, e⟩)

/-- after the third stretch (region 2's entry). -/
abbrev W5 : Dev nD → Valuation τ sig (Elt F) := fun c => StableHlo.after hostOps2 (W4 m ρ c)
abbrev Vw5 : (c : Dev nD) → (b : Ref sig .tc) → Buf (Elt F) ((c : Thread nD τ).loc b) := fun c b => W5 m ρ c b
/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (Vw5 m ρ) c).arrAt w cfg2.N
theorem W6_arr (c : Dev nD) (w : Fin cfg2.W) :
    W6 m ρ c (Proc.devRef .tc (Pipeline.arrRef spec2 w)) = (dat2 (Vw5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vw6 : (c : Dev nD) → (b : Ref sig .tc) → Buf (Elt F) ((c : Thread nD τ).loc b) := fun c b => W6 m ρ c b
theorem hF2 (c : Dev nD) (w : Fin cfg2.W) : (dat2 (Vw5 m ρ) c).arrAt w cfg2.N = Vw6 m ρ c (Pipeline.arrRef spec2 w) :=
  (W6_arr m ρ c w).symm
theorem hrest2 (c : Dev nD) : ∀ b, b ∉ Finset.univ.image (Pipeline.arrRef spec2) → Vw6 m ρ c b = Vw5 m ρ c b :=
  fun b hb => W6_of_ne m ρ c b fun w e => hb (Finset.mem_image.mpr ⟨w, Finset.mem_univ _, e⟩)

/-! The arguments end as launched: no host operation and no region writes one (a region reads it through an input window
    or bypasses it), so the fold at an argument's buffer walks back to the launch memory. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_arr m ρ c 0).trans (((dat2 (Vw5 m ρ) c).arrAt_in 0 rfl _).trans (A_eq2 (Vw5 m ρ) c 0))
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (Vw1 m ρ) c).arrAt_in 0 rfl _).trans (A_eq0 (Vw1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := (W4_arr m ρ c 3).trans (((dat1 (Vw3 m ρ) c).arrAt_in 3 rfl _).trans (A_eq1 (Vw3 m ρ) c 3))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide : main_arg8 ∉ hostOps2_W)
    _ = W3 m ρ c (Proc.devRef .tc main_arg8) := (W4_arr m ρ c 4).trans (((dat1 (Vw3 m ρ) c).arrAt_in 4 rfl _).trans (A_eq1 (Vw3 m ρ) c 4))
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide : main_arg9 ∉ hostOps2_W)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide : main_arg10 ∉ hostOps2_W)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide : main_arg11 ∉ hostOps2_W)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

/-- Every pipeline's proof data, each at its region's entry contents. -/
def hdats : (p : Fin 3) → (c : Dev nD) → Dat τ (Elt F) Unit ℕ (UR sig nD τ) ℕ (Pipeline.pin (pcfgs (F := F)) adm p) c
  | ⟨0, _⟩ => fun c => dat0 (Vw1 m ρ) c
  | ⟨1, _⟩ => fun c => dat1 (Vw3 m ρ) c
  | ⟨2, _⟩ => fun c => dat2 (Vw5 m ρ) c
abbrev 𝒱z : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and nothing owed. -/
abbrev Rz (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱z Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tend (c : Dev nD) : sProp 𝕄 := iprop(StableHlo.held (c : Thread nD τ) (Pipeline.ucRefs τ sig) (W6 m ρ c) ∗ ∃ r, prngReg c r)

set_option backward.isDefEq.respectTransparency.types false in
/-- Kernel region 0 over the thread state: entered from every unscoped buffer at the boundary's contents, left at
    the next boundary's. Its arrays are split out of the unscoped buffers and put back at what the write-backs leave;
    the generator register goes into the region invariant and comes out; nothing owed; no semaphore of the kernel's
    own. -/
def reg0 : Pipeline.RegionSeg (pcfgs (F := F)) adm (hdats m ρ) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Vw1 m ρ) c).loose
  hwaits := Pipeline.hwaits_of_owed_zero _ _ _ _ Lz lvz 0 fun _ _ => rfl
  pre c := iprop(StableHlo.held (c : Thread nD τ) (Pipeline.ucRefs τ sig) (W1 m ρ c) ∗ Rz c)
  post c := iprop(StableHlo.held (c : Thread nD τ) (Pipeline.ucRefs τ sig) (W2 m ρ c) ∗ Rz c)
  X c := iprop(∃ r, prngReg c r)
  Y c := iprop(∃ r, prngReg c r)
  Z c := Pipeline.unscopedRest (Ix := Unit) (Name := ℕ) (U := UR sig nD τ) (Lvl := ℕ) spec0 c (Vw1 m ρ c)
  hentry c := by
    rw [Pipeline.ownSems0_none]
    have hsplit := Pipeline.arrays_of_unscopedBufs (p := 0) (pcfgs (F := F)) adm (hdats m ρ) launch0.win launch0.arr_whole c
      ((hdats m ρ 0 c).share_full fun _ => rfl) (Vw1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hdats m ρ) ((hdats m ρ 0 c).share_full fun _ => rfl)
      (Vw1 m ρ c) (Vw2 m ρ c) ((hdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the boundary's contents, left at
    the next boundary's. Its arrays are split out of the unscoped buffers and put back at what the write-backs leave;
    the generator register goes into the region invariant and comes out; nothing owed; no semaphore of the kernel's
    own. -/
def reg1 : Pipeline.RegionSeg (pcfgs (F := F)) adm (hdats m ρ) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (Vw3 m ρ) c).loose
  hwaits := Pipeline.hwaits_of_owed_zero _ _ _ _ Lz lvz 1 fun _ _ => rfl
  pre c := iprop(StableHlo.held (c : Thread nD τ) (Pipeline.ucRefs τ sig) (W3 m ρ c) ∗ Rz c)
  post c := iprop(StableHlo.held (c : Thread nD τ) (Pipeline.ucRefs τ sig) (W4 m ρ c) ∗ Rz c)
  X c := iprop(∃ r, prngReg c r)
  Y c := iprop(∃ r, prngReg c r)
  Z c := Pipeline.unscopedRest (Ix := Unit) (Name := ℕ) (U := UR sig nD τ) (Lvl := ℕ) spec1 c (Vw3 m ρ c)
  hentry c := by
    rw [Pipeline.ownSems0_none]
    have hsplit := Pipeline.arrays_of_unscopedBufs (p := 1) (pcfgs (F := F)) adm (hdats m ρ) launch1.win launch1.arr_whole c
      ((hdats m ρ 1 c).share_full fun _ => rfl) (Vw3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 1 c).Φ 0 = Pipeline.ΦA spec1 c from rfl]; unfold Pipeline.ΦA
    iintro ⟨Hp, -, Hr⟩
    isplitl [Hr]; · iexact Hr
    iexact Hp
  hout c := by
    refine (show (hdats m ρ 1 c).Φ (Fin.last _) ⊢ (Pipeline.ΦA spec1 c : sProp 𝕄) from hout1 (Vw3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hdats m ρ) ((hdats m ρ 1 c).share_full fun _ => rfl)
      (Vw3 m ρ c) (Vw4 m ρ c) ((hdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered from every unscoped buffer at the boundary's contents, left at
    the next boundary's. Its arrays are split out of the unscoped buffers and put back at what the write-backs leave;
    the generator register goes into the region invariant and comes out; nothing owed; no semaphore of the kernel's
    own. -/
def reg2 : Pipeline.RegionSeg (pcfgs (F := F)) adm (hdats m ρ) () defs₀ 𝒱z Lz lvz 2 where
  win := launch2.win.to₀
  block_pos := launch2.block_pos
  stage_whole := launch2.stage_whole
  K := PEmpty
  osem k := k.elim
  ho := Pipeline.OwnSemFacts.none _
  hbody c := (body_obligation2 (Vw5 m ρ) c).loose
  hwaits := Pipeline.hwaits_of_owed_zero _ _ _ _ Lz lvz 2 fun _ _ => rfl
  pre c := iprop(StableHlo.held (c : Thread nD τ) (Pipeline.ucRefs τ sig) (W5 m ρ c) ∗ Rz c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vw5 m ρ c)
  hentry c := by
    rw [Pipeline.ownSems0_none]
    have hsplit := Pipeline.arrays_of_unscopedBufs (p := 2) (pcfgs (F := F)) adm (hdats m ρ) launch2.win launch2.arr_whole c
      ((hdats m ρ 2 c).share_full fun _ => rfl) (Vw5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (hdats m ρ) ((hdats m ρ 2 c).share_full fun _ => rfl)
      (Vw5 m ρ c) (Vw6 m ρ c) ((hdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's six segments in order. -/
abbrev rsegs : List (Pipeline.Seg (pcfgs (F := F)) adm (hdats m ρ) () defs₀ 𝒱z Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of its segments. -/
theorem main_run (c : Dev nD) : main (F := F) c = Pipeline.Seg.run (rsegs m ρ) := (main_chain c).trans (by chain_rfl)

set_option backward.isDefEq.respectTransparency.types false in
/-- THE RUN: from any memory with zero counters, every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (hdats m ρ) () cellOf_inj emb₁ defs₀ 𝒱z Lz lvz m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rz c)) (Tₙ := Tend m ρ)
    (hch := ⟨fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: every argument array ends as launched. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c)⟩) (run_all m ρ)

end Cert.KernelIdeal.Hand

end
-- ==== Proof.IdealArgs.lean ====
/-
  Every argument array, read at each intermediate segment boundary of the program's run, still holds its launch
  contents: no host operation writes an argument and no region changes one.
-/
import proofs.«153090_j59820304499077_2_alg».proof.Proof.IdealMain

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_writes_sub hostOps0 _ hostOps0_writes (by decide : main_arg0 ∉ hostOps0_W)
    _ = m ((c : Thread nD τ).loc main_arg0) := rfl
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_writes_sub hostOps0 _ hostOps0_writes (by decide : main_arg1 ∉ hostOps0_W)
    _ = m ((c : Thread nD τ).loc main_arg1) := rfl
theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_writes_sub hostOps0 _ hostOps0_writes (by decide : main_arg2 ∉ hostOps0_W)
    _ = m ((c : Thread nD τ).loc main_arg2) := rfl
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_writes_sub hostOps0 _ hostOps0_writes (by decide : main_arg3 ∉ hostOps0_W)
    _ = m ((c : Thread nD τ).loc main_arg3) := rfl
theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_writes_sub hostOps0 _ hostOps0_writes (by decide : main_arg4 ∉ hostOps0_W)
    _ = m ((c : Thread nD τ).loc main_arg4) := rfl
theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_writes_sub hostOps0 _ hostOps0_writes (by decide : main_arg5 ∉ hostOps0_W)
    _ = m ((c : Thread nD τ).loc main_arg5) := rfl
theorem W1_main_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_writes_sub hostOps0 _ hostOps0_writes (by decide : main_arg6 ∉ hostOps0_W)
    _ = m ((c : Thread nD τ).loc main_arg6) := rfl
theorem W1_main_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_writes_sub hostOps0 _ hostOps0_writes (by decide : main_arg7 ∉ hostOps0_W)
    _ = m ((c : Thread nD τ).loc main_arg7) := rfl
theorem W1_main_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_writes_sub hostOps0 _ hostOps0_writes (by decide : main_arg8 ∉ hostOps0_W)
    _ = m ((c : Thread nD τ).loc main_arg8) := rfl
theorem W1_main_arg9 (c : Dev nD) : W1 m ρ c (Proc.devRef .tc main_arg9) = m ((c : Thread nD τ).loc main_arg9) :=
  calc W1 m ρ c (Proc.devRef .tc main_arg9)
    _ = W0 m ρ c (Proc.devRef .tc main_arg9) := StableHlo.after_of_writes_sub hostOps0 _ hostOps0_writes (by decide : main_arg9 ∉ hostOps0_W)
    _ = m ((c : Thread nD τ).loc main_arg9) := rfl
theorem W1_main_arg10 (c : Dev nD) : W1 m ρ c (Proc.devRef .tc main_arg10) = m ((c : Thread nD τ).loc main_arg10) :=
  calc W1 m ρ c (Proc.devRef .tc main_arg10)
    _ = W0 m ρ c (Proc.devRef .tc main_arg10) := StableHlo.after_of_writes_sub hostOps0 _ hostOps0_writes (by decide : main_arg10 ∉ hostOps0_W)
    _ = m ((c : Thread nD τ).loc main_arg10) := rfl
theorem W1_main_arg11 (c : Dev nD) : W1 m ρ c (Proc.devRef .tc main_arg11) = m ((c : Thread nD τ).loc main_arg11) :=
  calc W1 m ρ c (Proc.devRef .tc main_arg11)
    _ = W0 m ρ c (Proc.devRef .tc main_arg11) := StableHlo.after_of_writes_sub hostOps0 _ hostOps0_writes (by decide : main_arg11 ∉ hostOps0_W)
    _ = m ((c : Thread nD τ).loc main_arg11) := rfl

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (Vw1 m ρ) c).arrAt_in 0 rfl _).trans (A_eq0 (Vw1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl
theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (Vw1 m ρ) c).arrAt_in 0 rfl _).trans (A_eq0 (Vw1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (Vw1 m ρ) c).arrAt_in 0 rfl _).trans (A_eq0 (Vw1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 3).trans (((dat1 (Vw3 m ρ) c).arrAt_in 3 rfl _).trans (A_eq1 (Vw3 m ρ) c 3))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 4).trans (((dat1 (Vw3 m ρ) c).arrAt_in 4 rfl _).trans (A_eq1 (Vw3 m ρ) c 4))
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (Vw1 m ρ) c).arrAt_in 0 rfl _).trans (A_eq0 (Vw1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := (W4_arr m ρ c 3).trans (((dat1 (Vw3 m ρ) c).arrAt_in 3 rfl _).trans (A_eq1 (Vw3 m ρ) c 3))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide : main_arg8 ∉ hostOps2_W)
    _ = W3 m ρ c (Proc.devRef .tc main_arg8) := (W4_arr m ρ c 4).trans (((dat1 (Vw3 m ρ) c).arrAt_in 4 rfl _).trans (A_eq1 (Vw3 m ρ) c 4))
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide : main_arg9 ∉ hostOps2_W)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide : main_arg10 ∉ hostOps2_W)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide : main_arg11 ∉ hostOps2_W)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

end Cert.KernelIdeal.Hand

end
-- ==== Proof.IdealPayloads.lean ====
/-
  The kernels' payloads read at an index, at the extended reals.

  Each stored value of the three kernels (the projection x·W + b, the attention sweep's per-block
  update of the running maximum, normaliser and weighted sum, and the output projection with its
  residual) is a vector expression over the loaded vectors. Read at one index, written by its
  coordinates, it is the scalar expression a textbook would write: a matrix product is the sum over
  the contracted coordinate of the products, a lane reduction is the sum (or the fold of max from
  -∞) over the lane coordinate, a broadcast reads the one element it repeats, a change of format is
  the identity, and a reshape reads the element at the same row-major position.
-/
import proofs.«153090_j59820304499077_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx
open scoped BigOperators

/-! ### The matrix products read at an index -/

/-- [256,1024] · [1024,3072] into a zero accumulator: at (r, c) the sum over e of lhs (r, e) · rhs (e, c). -/
theorem dot_256x1024_1024x3072_apply {φ₁ φ₂ : FTy} (lhs : FVec Ideal S256x1024 φ₁) (rhs : FVec Ideal S1024x3072 φ₂)
    (r : Fin 256) (c : Fin 3072) :
    matmul dot_S256x1024_S1024x3072_S256x3072_1_0_0_1_n_n none lhs rhs
        (constant (F := Ideal) S256x3072 .f32 0x00000000#32) (ix2 r c)
      = ∑ e : Fin 1024, lhs (ix2 r e) * rhs (ix2 e c) := by
  simp only [matmul]
  rw [Ideal.matmul_constant_zero_apply,
    ← Equiv.sum_comp (contrEquiv1 dot_S256x1024_S1024x3072_S256x3072_1_0_0_1_n_n 1024 rfl rfl).symm]
  refine Finset.sum_congr rfl fun k _ => ?_
  have hk := contrEquiv1_symm_val dot_S256x1024_S1024x3072_S256x3072_1_0_0_1_n_n 1024 rfl rfl k
  have el : dot_S256x1024_S1024x3072_S256x3072_1_0_0_1_n_n.lhsIdx (ix2 r c)
      ((contrEquiv1 dot_S256x1024_S1024x3072_S256x3072_1_0_0_1_n_n 1024 rfl rfl).symm k) = (ix2 r k) :=
    funext fun a => Fin.ext (by
      match a with
      | ⟨0, _⟩ =>
        show (dot_S256x1024_S1024x3072_S256x3072_1_0_0_1_n_n.lhsIdx (ix2 r c) _ (0 : Fin S256x1024.rank)).val = r.val
        unfold DotDims.lhsIdx
        rw [dif_neg (show ¬(0 : Fin S256x1024.rank) ∈ dot_S256x1024_S1024x3072_S256x3072_1_0_0_1_n_n.lhsBatch by decide),
          dif_pos (show (0 : Fin S256x1024.rank) ∈ dot_S256x1024_S1024x3072_S256x3072_1_0_0_1_n_n.lhsNonContracting by decide)]
        rfl
      | ⟨1, _⟩ =>
        exact (dot_S256x1024_S1024x3072_S256x3072_1_0_0_1_n_n.lhsIdx_val_of_single rfl _ _).trans hk)
  have er : dot_S256x1024_S1024x3072_S256x3072_1_0_0_1_n_n.rhsIdx (ix2 r c)
      ((contrEquiv1 dot_S256x1024_S1024x3072_S256x3072_1_0_0_1_n_n 1024 rfl rfl).symm k) = (ix2 k c) :=
    funext fun a => Fin.ext (by
      match a with
      | ⟨0, _⟩ =>
        exact (dot_S256x1024_S1024x3072_S256x3072_1_0_0_1_n_n.rhsIdx_val_of_single rfl _ _).trans hk
      | ⟨1, _⟩ =>
        show (dot_S256x1024_S1024x3072_S256x3072_1_0_0_1_n_n.rhsIdx (ix2 r c) _ (1 : Fin S1024x3072.rank)).val = c.val
        unfold DotDims.rhsIdx
        rw [dif_neg (show ¬(1 : Fin S1024x3072.rank) ∈ dot_S256x1024_S1024x3072_S256x3072_1_0_0_1_n_n.rhsBatch by decide),
          dif_pos (show (1 : Fin S1024x3072.rank) ∈ dot_S256x1024_S1024x3072_S256x3072_1_0_0_1_n_n.rhsNonContracting by decide)]
        rfl)
  rw [el, er]
/-- [256,1024] · [1024,1024] into a zero accumulator: at (r, c) the sum over e of lhs (r, e) · rhs (e, c). -/
theorem dot_256x1024_1024x1024_apply {φ₁ φ₂ : FTy} (lhs : FVec Ideal S256x1024 φ₁) (rhs : FVec Ideal S1024x1024 φ₂)
    (r : Fin 256) (c : Fin 1024) :
    matmul dot_S256x1024_S1024x1024_S256x1024_1_0_0_1_n_n none lhs rhs
        (constant (F := Ideal) S256x1024 .f32 0x00000000#32) (ix2 r c)
      = ∑ e : Fin 1024, lhs (ix2 r e) * rhs (ix2 e c) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r c)
      ((contrEquiv1 dot_S256x1024_S1024x1024_S256x1024_1_0_0_1_n_n 1024 rfl rfl).symm k) = (ix2 r k) :=
    funext fun a => Fin.ext (by
      match a with
      | ⟨0, _⟩ =>
        show (dot_S256x1024_S1024x1024_S256x1024_1_0_0_1_n_n.lhsIdx (ix2 r c) _ (0 : Fin S256x1024.rank)).val = r.val
        unfold DotDims.lhsIdx
        rw [dif_neg (show ¬(0 : Fin S256x1024.rank) ∈ dot_S256x1024_S1024x1024_S256x1024_1_0_0_1_n_n.lhsBatch by decide),
          dif_pos (show (0 : Fin S256x1024.rank) ∈ dot_S256x1024_S1024x1024_S256x1024_1_0_0_1_n_n.lhsNonContracting by decide)]
        rfl
      | ⟨1, _⟩ =>
        exact (dot_S256x1024_S1024x1024_S256x1024_1_0_0_1_n_n.lhsIdx_val_of_single rfl _ _).trans hk)
  have er : dot_S256x1024_S1024x1024_S256x1024_1_0_0_1_n_n.rhsIdx (ix2 r c)
      ((contrEquiv1 dot_S256x1024_S1024x1024_S256x1024_1_0_0_1_n_n 1024 rfl rfl).symm k) = (ix2 k c) :=
    funext fun a => Fin.ext (by
      match a with
      | ⟨0, _⟩ =>
        exact (dot_S256x1024_S1024x1024_S256x1024_1_0_0_1_n_n.rhsIdx_val_of_single rfl _ _).trans hk
      | ⟨1, _⟩ =>
        show (dot_S256x1024_S1024x1024_S256x1024_1_0_0_1_n_n.rhsIdx (ix2 r c) _ (1 : Fin S1024x1024.rank)).val = c.val
        unfold DotDims.rhsIdx
        rw [dif_neg (show ¬(1 : Fin S1024x1024.rank) ∈ dot_S256x1024_S1024x1024_S256x1024_1_0_0_1_n_n.rhsBatch by decide),
          dif_pos (show (1 : Fin S1024x1024.rank) ∈ dot_S256x1024_S1024x1024_S256x1024_1_0_0_1_n_n.rhsNonContracting by decide)]
        rfl)
  rw [el, er]
/-- Per head h: weights [128,128] times values [128,64] into a zero accumulator: at (h, r, d) the sum over k of lhs (h, r, k) · rhs (h, k, d). -/
theorem dot_pv_apply {φ₁ φ₂ : FTy} (lhs : FVec Ideal S16x128x128 φ₁) (rhs : FVec Ideal S16x128x64 φ₂)
    (h : Fin 16) (r : Fin 128) (d : Fin 64) :
    matmul dot_S16x128x128_S16x128x64_S16x128x64_2_1_1_2_0_0 none lhs rhs
        (constant (F := Ideal) S16x128x64 .f32 0x00000000#32) (ix3 h r d)
      = ∑ k' : Fin 128, lhs (ix3 h r k') * rhs (ix3 h k' d) := by
  simp only [matmul]
  rw [Ideal.matmul_constant_zero_apply,
    ← Equiv.sum_comp (contrEquiv1 dot_S16x128x128_S16x128x64_S16x128x64_2_1_1_2_0_0 128 rfl rfl).symm]
  refine Finset.sum_congr rfl fun k _ => ?_
  have hk := contrEquiv1_symm_val dot_S16x128x128_S16x128x64_S16x128x64_2_1_1_2_0_0 128 rfl rfl k
  have el : dot_S16x128x128_S16x128x64_S16x128x64_2_1_1_2_0_0.lhsIdx (ix3 h r d)
      ((contrEquiv1 dot_S16x128x128_S16x128x64_S16x128x64_2_1_1_2_0_0 128 rfl rfl).symm k) = (ix3 h r k) :=
    funext fun a => Fin.ext (by
      match a with
      | ⟨0, _⟩ =>
        show (dot_S16x128x128_S16x128x64_S16x128x64_2_1_1_2_0_0.lhsIdx (ix3 h r d) _ (0 : Fin S16x128x128.rank)).val = h.val
        unfold DotDims.lhsIdx
        rw [dif_pos (show (0 : Fin S16x128x128.rank) ∈ dot_S16x128x128_S16x128x64_S16x128x64_2_1_1_2_0_0.lhsBatch by decide)]
        rfl
      | ⟨1, _⟩ =>
        show (dot_S16x128x128_S16x128x64_S16x128x64_2_1_1_2_0_0.lhsIdx (ix3 h r d) _ (1 : Fin S16x128x128.rank)).val = r.val
        unfold DotDims.lhsIdx
        rw [dif_neg (show ¬(1 : Fin S16x128x128.rank) ∈ dot_S16x128x128_S16x128x64_S16x128x64_2_1_1_2_0_0.lhsBatch by decide),
          dif_pos (show (1 : Fin S16x128x128.rank) ∈ dot_S16x128x128_S16x128x64_S16x128x64_2_1_1_2_0_0.lhsNonContracting by decide)]
        rfl
      | ⟨2, _⟩ =>
        exact (dot_S16x128x128_S16x128x64_S16x128x64_2_1_1_2_0_0.lhsIdx_val_of_single rfl _ _).trans hk)
  have er : dot_S16x128x128_S16x128x64_S16x128x64_2_1_1_2_0_0.rhsIdx (ix3 h r d)
      ((contrEquiv1 dot_S16x128x128_S16x128x64_S16x128x64_2_1_1_2_0_0 128 rfl rfl).symm k) = (ix3 h k d) :=
    funext fun a => Fin.ext (by
      match a with
      | ⟨0, _⟩ =>
        show (dot_S16x128x128_S16x128x64_S16x128x64_2_1_1_2_0_0.rhsIdx (ix3 h r d) _ (0 : Fin S16x128x64.rank)).val = h.val
        unfold DotDims.rhsIdx
        rw [dif_pos (show (0 : Fin S16x128x64.rank) ∈ dot_S16x128x128_S16x128x64_S16x128x64_2_1_1_2_0_0.rhsBatch by decide)]
        rfl
      | ⟨1, _⟩ =>
        exact (dot_S16x128x128_S16x128x64_S16x128x64_2_1_1_2_0_0.rhsIdx_val_of_single rfl _ _).trans hk
      | ⟨2, _⟩ =>
        show (dot_S16x128x128_S16x128x64_S16x128x64_2_1_1_2_0_0.rhsIdx (ix3 h r d) _ (2 : Fin S16x128x64.rank)).val = d.val
        unfold DotDims.rhsIdx
        rw [dif_neg (show ¬(2 : Fin S16x128x64.rank) ∈ dot_S16x128x128_S16x128x64_S16x128x64_2_1_1_2_0_0.rhsBatch by decide),
          dif_pos (show (2 : Fin S16x128x64.rank) ∈ dot_S16x128x128_S16x128x64_S16x128x64_2_1_1_2_0_0.rhsNonContracting by decide)]
        rfl)
  rw [el, er]
/-- Per head h: queries [128,64] times keys [128,64] transposed into a zero accumulator: at (h, r, k) the sum over d of lhs (h, r, d) · rhs (h, k, d). -/
theorem dot_qk_apply {φ₁ φ₂ : FTy} (lhs : FVec Ideal S16x128x64 φ₁) (rhs : FVec Ideal S16x128x64 φ₂)
    (h : Fin 16) (r : Fin 128) (k : Fin 128) :
    matmul dot_S16x128x64_S16x128x64_S16x128x128_2_2_1_1_0_0 none lhs rhs
        (constant (F := Ideal) S16x128x128 .f32 0x00000000#32) (ix3 h r k)
      = ∑ d : Fin 64, lhs (ix3 h r d) * rhs (ix3 h k d) := by
  simp only [matmul]
  rw [Ideal.matmul_constant_zero_apply,
    ← Equiv.sum_comp (contrEquiv1 dot_S16x128x64_S16x128x64_S16x128x128_2_2_1_1_0_0 64 rfl rfl).symm]
  refine Finset.sum_congr rfl fun k' _ => ?_
  have hk := contrEquiv1_symm_val dot_S16x128x64_S16x128x64_S16x128x128_2_2_1_1_0_0 64 rfl rfl k'
  have el : dot_S16x128x64_S16x128x64_S16x128x128_2_2_1_1_0_0.lhsIdx (ix3 h r k)
      ((contrEquiv1 dot_S16x128x64_S16x128x64_S16x128x128_2_2_1_1_0_0 64 rfl rfl).symm k') = (ix3 h r k') :=
    funext fun a => Fin.ext (by
      match a with
      | ⟨0, _⟩ =>
        show (dot_S16x128x64_S16x128x64_S16x128x128_2_2_1_1_0_0.lhsIdx (ix3 h r k) _ (0 : Fin S16x128x64.rank)).val = h.val
        unfold DotDims.lhsIdx
        rw [dif_pos (show (0 : Fin S16x128x64.rank) ∈ dot_S16x128x64_S16x128x64_S16x128x128_2_2_1_1_0_0.lhsBatch by decide)]
        rfl
      | ⟨1, _⟩ =>
        show (dot_S16x128x64_S16x128x64_S16x128x128_2_2_1_1_0_0.lhsIdx (ix3 h r k) _ (1 : Fin S16x128x64.rank)).val = r.val
        unfold DotDims.lhsIdx
        rw [dif_neg (show ¬(1 : Fin S16x128x64.rank) ∈ dot_S16x128x64_S16x128x64_S16x128x128_2_2_1_1_0_0.lhsBatch by decide),
          dif_pos (show (1 : Fin S16x128x64.rank) ∈ dot_S16x128x64_S16x128x64_S16x128x128_2_2_1_1_0_0.lhsNonContracting by decide)]
        rfl
      | ⟨2, _⟩ =>
        exact (dot_S16x128x64_S16x128x64_S16x128x128_2_2_1_1_0_0.lhsIdx_val_of_single rfl _ _).trans hk)
  have er : dot_S16x128x64_S16x128x64_S16x128x128_2_2_1_1_0_0.rhsIdx (ix3 h r k)
      ((contrEquiv1 dot_S16x128x64_S16x128x64_S16x128x128_2_2_1_1_0_0 64 rfl rfl).symm k') = (ix3 h k k') :=
    funext fun a => Fin.ext (by
      match a with
      | ⟨0, _⟩ =>
        show (dot_S16x128x64_S16x128x64_S16x128x128_2_2_1_1_0_0.rhsIdx (ix3 h r k) _ (0 : Fin S16x128x64.rank)).val = h.val
        unfold DotDims.rhsIdx
        rw [dif_pos (show (0 : Fin S16x128x64.rank) ∈ dot_S16x128x64_S16x128x64_S16x128x128_2_2_1_1_0_0.rhsBatch by decide)]
        rfl
      | ⟨1, _⟩ =>
        show (dot_S16x128x64_S16x128x64_S16x128x128_2_2_1_1_0_0.rhsIdx (ix3 h r k) _ (1 : Fin S16x128x64.rank)).val = k.val
        unfold DotDims.rhsIdx
        rw [dif_neg (show ¬(1 : Fin S16x128x64.rank) ∈ dot_S16x128x64_S16x128x64_S16x128x128_2_2_1_1_0_0.rhsBatch by decide),
          dif_pos (show (1 : Fin S16x128x64.rank) ∈ dot_S16x128x64_S16x128x64_S16x128x128_2_2_1_1_0_0.rhsNonContracting by decide)]
        rfl
      | ⟨2, _⟩ =>
        exact (dot_S16x128x64_S16x128x64_S16x128x128_2_2_1_1_0_0.rhsIdx_val_of_single rfl _ _).trans hk)
  rw [el, er]
/-- [16,64] times [16384,64] transposed into a zero accumulator: at (h, c) the sum over d of lhs (h, d) · rhs (c, d). -/
theorem dot_16x64_16384x64_apply {φ₁ φ₂ : FTy} (lhs : FVec Ideal S16x64 φ₁) (rhs : FVec Ideal S16384x64 φ₂)
    (h : Fin 16) (c : Fin 16384) :
    matmul dot_S16x64_S16384x64_S16x16384_1_1_0_0_n_n none lhs rhs
        (constant (F := Ideal) S16x16384 .f32 0x00000000#32) (ix2 h c)
      = ∑ d : Fin 64, lhs (ix2 h d) * rhs (ix2 c d) := by
  simp only [matmul]
  rw [Ideal.matmul_constant_zero_apply,
    ← Equiv.sum_comp (contrEquiv1 dot_S16x64_S16384x64_S16x16384_1_1_0_0_n_n 64 rfl rfl).symm]
  refine Finset.sum_congr rfl fun k _ => ?_
  have hk := contrEquiv1_symm_val dot_S16x64_S16384x64_S16x16384_1_1_0_0_n_n 64 rfl rfl k
  have el : dot_S16x64_S16384x64_S16x16384_1_1_0_0_n_n.lhsIdx (ix2 h c)
      ((contrEquiv1 dot_S16x64_S16384x64_S16x16384_1_1_0_0_n_n 64 rfl rfl).symm k) = (ix2 h k) :=
    funext fun a => Fin.ext (by
      match a with
      | ⟨0, _⟩ =>
        show (dot_S16x64_S16384x64_S16x16384_1_1_0_0_n_n.lhsIdx (ix2 h c) _ (0 : Fin S16x64.rank)).val = h.val
        unfold DotDims.lhsIdx
        rw [dif_neg (show ¬(0 : Fin S16x64.rank) ∈ dot_S16x64_S16384x64_S16x16384_1_1_0_0_n_n.lhsBatch by decide),
          dif_pos (show (0 : Fin S16x64.rank) ∈ dot_S16x64_S16384x64_S16x16384_1_1_0_0_n_n.lhsNonContracting by decide)]
        rfl
      | ⟨1, _⟩ =>
        exact (dot_S16x64_S16384x64_S16x16384_1_1_0_0_n_n.lhsIdx_val_of_single rfl _ _).trans hk)
  have er : dot_S16x64_S16384x64_S16x16384_1_1_0_0_n_n.rhsIdx (ix2 h c)
      ((contrEquiv1 dot_S16x64_S16384x64_S16x16384_1_1_0_0_n_n 64 rfl rfl).symm k) = (ix2 c k) :=
    funext fun a => Fin.ext (by
      match a with
      | ⟨0, _⟩ =>
        show (dot_S16x64_S16384x64_S16x16384_1_1_0_0_n_n.rhsIdx (ix2 h c) _ (0 : Fin S16384x64.rank)).val = c.val
        unfold DotDims.rhsIdx
        rw [dif_neg (show ¬(0 : Fin S16384x64.rank) ∈ dot_S16x64_S16384x64_S16x16384_1_1_0_0_n_n.rhsBatch by decide),
          dif_pos (show (0 : Fin S16384x64.rank) ∈ dot_S16x64_S16384x64_S16x16384_1_1_0_0_n_n.rhsNonContracting by decide)]
        rfl
      | ⟨1, _⟩ =>
        exact (dot_S16x64_S16384x64_S16x16384_1_1_0_0_n_n.rhsIdx_val_of_single rfl _ _).trans hk)
  rw [el, er]

/-! ### The projection kernel -/

/-- The projection kernel's stored value at (r, c): the row r of x times the column c of W, plus the bias at c. -/
theorem k0_pay1_apply (v0 : Vec Ideal S256x1024 .f32) (v1 : Vec Ideal S1024x3072 .f32) (v3 : Vec Ideal S1x3072 .f32)
    (r : Fin 256) (c : Fin 3072) :
    k0_pay1 (F := Ideal) v0 v1 v3 (ix2 r c)
      = (∑ e : Fin 1024, v0 (ix2 r e) * v1 (ix2 e c)) + v3 (ix2 (0 : Fin 1) c) := by
  unfold k0_pay1
  simp only [shapeCast_self]
  rw [addf_apply, dot_256x1024_1024x3072_apply, broadcastTo_1b_ab_apply]

/-! ### The output-projection kernel -/

/-- The output kernel's stored value at (r, c): the residual at (r, c) plus the row r of the attention output times
    the column c of the weight, plus the bias at c. -/
theorem k2_pay1_apply (v0 : Vec Ideal S256x1024 .f32) (v1 : Vec Ideal S256x1024 .bf16) (v3 : Vec Ideal S1024x1024 .bf16)
    (v5 : Vec Ideal S1x1024 .f32) (r : Fin 256) (c : Fin 1024) :
    k2_pay1 (F := Ideal) v0 v1 v3 v5 (ix2 r c)
      = v0 (ix2 r c) + ((∑ e : Fin 1024, v1 (ix2 r e) * v3 (ix2 e c)) + v5 (ix2 (0 : Fin 1) c)) := by
  unfold k2_pay1
  simp only [shapeCast_self]
  rw [addf_apply, addf_apply, dot_256x1024_1024x1024_apply, broadcastTo_1b_ab_apply]

/-! ### Layout operations of the attention kernel read at an index -/

/-- A [16,128,1] column broadcast along the last axis to [16,128,64] reads, at (h, r, d), the column at (h, r, 0). -/
theorem broadcastTo_16x128x1_16x128x64_apply {α : Type} (x : S16x128x1.Idx → α) (h : Fin 16) (r : Fin 128) (d : Fin 64) :
    broadcastTo S16x128x64 x broadcasts_S16x128x1_S16x128x64 (ix3 h r d) = x (ix3 h r (0 : Fin 1)) :=
  broadcastTo_apply x _ (ix3 h r d) (ix3 h r (0 : Fin 1)) fun a =>
    match a with | ⟨0, _⟩ => rfl | ⟨1, _⟩ => rfl | ⟨2, _⟩ => rfl

/-- A [16,128,1] column broadcast along the last axis to [16,128,128] reads, at (h, r, k), the column at (h, r, 0). -/
theorem broadcastTo_16x128x1_16x128x128_apply {α : Type} (x : S16x128x1.Idx → α) (h : Fin 16) (r : Fin 128) (k : Fin 128) :
    broadcastTo S16x128x128 x broadcasts_S16x128x1_S16x128x128 (ix3 h r k) = x (ix3 h r (0 : Fin 1)) :=
  broadcastTo_apply x _ (ix3 h r k) (ix3 h r (0 : Fin 1)) fun a =>
    match a with | ⟨0, _⟩ => rfl | ⟨1, _⟩ => rfl | ⟨2, _⟩ => rfl

/-- A [16,1,1] per-head scalar broadcast to [16,128,128] reads, at (h, r, k), the scalar at (h, 0, 0). -/
theorem broadcastTo_16x1x1_16x128x128_apply {α : Type} (x : S16x1x1.Idx → α) (h : Fin 16) (r : Fin 128) (k : Fin 128) :
    broadcastTo S16x128x128 x broadcasts_S16x1x1_S16x128x128 (ix3 h r k) = x (ix3 h (0 : Fin 1) (0 : Fin 1)) :=
  broadcastTo_apply x _ (ix3 h r k) (ix3 h (0 : Fin 1) (0 : Fin 1)) fun a =>
    match a with | ⟨0, _⟩ => rfl | ⟨1, _⟩ => rfl | ⟨2, _⟩ => rfl

/-- A [16,128] array cast to [16,128,1] reads, at (h, r, 0), the operand at (h, r). -/
theorem shapeCast_16x128_16x128x1_apply {α : Type} (x : S16x128.Idx → α) (h : Fin 16) (r : Fin 128) (z : Fin 1) :
    shapeCast S16x128x1 x shapeCasts_S16x128_S16x128x1 (ix3 h r z) = x (ix2 h r) :=
  shapeCast_apply x _ _ _ (by
    have hz := z.isLt
    rw [Shape.rowMajor_val_two, Shape.rowMajor_val_three]
    show h.val * 128 + r.val = (h.val * 128 + r.val) * 1 + z.val
    omega)

/-- The flat position r · 128 + k of the pair (r, k) on an axis of 128 · 128 = 16384 coordinates. -/
def flat (r k : Fin 128) : Fin 16384 := ⟨r.val * 128 + k.val, by have := r.isLt; have := k.isLt; omega⟩

theorem flat_val (r k : Fin 128) : (flat r k).val = r.val * 128 + k.val := rfl

/-- A [16,16384] array cast to [16,128,128] reads, at (h, r, k), the operand at (h, r · 128 + k). -/
theorem shapeCast_16x16384_16x128x128_apply {α : Type} (x : S16x16384.Idx → α) (h : Fin 16) (r k : Fin 128) :
    shapeCast S16x128x128 x shapeCasts_S16x16384_S16x128x128 (ix3 h r k) = x (ix2 h (flat r k)) :=
  shapeCast_apply x _ _ _ (by
    rw [Shape.rowMajor_val_two, Shape.rowMajor_val_three]
    show h.val * 16384 + (r.val * 128 + k.val) = (h.val * 128 + r.val) * 128 + k.val
    omega)

/-- A [128,128,64] array cast to [16384,64] reads, at (r · 128 + k, d), the operand at (r, k, d). -/
theorem shapeCast_128x128x64_16384x64_apply {α : Type} (x : S128x128x64.Idx → α) (r k : Fin 128) (d : Fin 64) :
    shapeCast S16384x64 x shapeCasts_S128x128x64_S16384x64 (ix2 (flat r k) d) = x (ix3 r k d) :=
  shapeCast_apply x _ _ _ (by
    rw [Shape.rowMajor_val_two, Shape.rowMajor_val_three]
    show (r.val * 128 + k.val) * 64 + d.val = (r.val * 128 + k.val) * 64 + d.val
    rfl)

/-! ### The attention kernel: the output and the resets -/

/-- The attention kernel's output at (h, r, d): the weighted sum at (h, r, d) divided by the normaliser at (h, r). -/
theorem k1_pay6_apply (v56 : Vec Ideal S16x128x64 .f32) (v57 : Vec Ideal S16x128x1 .f32) (h : Fin 16) (r : Fin 128)
    (d : Fin 64) :
    k1_pay6 (F := Ideal) v56 v57 (ix3 h r d) = Ideal.div (v56 (ix3 h r d)) (v57 (ix3 h r (0 : Fin 1))) := by
  unfold k1_pay6
  rw [truncf_apply, divf_apply, broadcastTo_16x128x1_16x128x64_apply]

/-- The stored running maximum is the new maximum itself. -/
theorem k1_pay5_eq (v26 : FVec Ideal S16x128x1 .f32) : k1_pay5 (F := Ideal) v26 = v26 := by
  unfold k1_pay5
  exact shapeCast_self _ _

/-- The value block carried into the update is the loaded block itself. -/
theorem k1_pay10_eq (v7 : Vec Ideal S16x128x64 .bf16) : k1_pay10 (F := Ideal) v7 = v7 := by
  unfold k1_pay10
  exact shapeCast_self _ _

/-- The f32 word 0xFF800000 is -∞. -/
theorem ofBits_neg_inf_f32 : Ideal.ofBits .f32 0xFF800000#32 = ⊥ := by simp [Ideal.ofBits, Ideal.ieee]

/-- The running maximum is reset to -∞ everywhere. -/
theorem k1_pay7_apply (i : S16x128x1.Idx) : k1_pay7 (F := Ideal) i = ⊥ := by
  unfold k1_pay7
  simp only [shapeCast_self]
  exact ofBits_neg_inf_f32

/-- The normaliser is reset to 0 everywhere. -/
theorem k1_pay8_apply (i : S16x128x1.Idx) : k1_pay8 (F := Ideal) i = 0 := by
  unfold k1_pay8
  simp only [shapeCast_self]
  exact Ideal.ofBits_zero_f32

/-- The weighted sum is reset to 0 everywhere. -/
theorem k1_pay9_apply (i : S16x128x64.Idx) : k1_pay9 (F := Ideal) i = 0 := by
  unfold k1_pay9
  simp only [shapeCast_self]
  exact Ideal.ofBits_zero_f32

/-! ### The lane reductions of the attention kernel read at an index -/

/-- The index of the [16,128,128] source over (h, r) with k on the reduced (last) axis is (h, r, k). -/
theorem lift_16x128x128_eq (h : Fin 16) (r : Fin 128) (k : Fin 128) :
    reduces_S16x128x128_S16x128.lift (ix2 h r) k = ix3 h r k :=
  funext fun a => Fin.ext (by
    match a with
    | ⟨0, _⟩ => rfl
    | ⟨1, _⟩ => rfl
    | ⟨2, _⟩ => rfl)

/-- A lane sum of a [16,128,128] vector at (h, r) is the sum over k of the source at (h, r, k): no initial value
    remains (the accumulator is the sum's neutral element by the reduction's own side condition). -/
theorem laneSum_16x128x128_apply (src : FVec Ideal S16x128x128 .f32) (hφ : FKind.Formats .f32)
    (hacc : (0x00000000#32 : BitVec 32) = FKind.add.neutral .f32 hφ) (h : Fin 16) (r : Fin 128) :
    multiReduction (F := Ideal) .add [2] S16x128 src 0x00000000#32 reduces_S16x128x128_S16x128 hφ hacc (ix2 h r)
      = ∑ k : Fin 128, src (ix3 h r k) := by
  refine (Ideal.multiReduction_add_single src 0x00000000#32 reduces_S16x128x128_S16x128 hφ hacc (ix2 h r)).trans ?_
  show ∑ k : Fin 128, src (reduces_S16x128x128_S16x128.lift (ix2 h r) k) = _
  exact Finset.sum_congr rfl fun k _ => congrArg src (lift_16x128x128_eq h r k)

/-- A lane maximum of a [16,128,128] vector at (h, r) is the fold of max from -∞ over k of the source at (h, r, k). -/
theorem laneMax_16x128x128_apply (src : FVec Ideal S16x128x128 .f32) (hφ : FKind.Formats .f32)
    (hacc : (0xFF800000#32 : BitVec 32) = FKind.maximumf.neutral .f32 hφ) (h : Fin 16) (r : Fin 128) :
    multiReduction (F := Ideal) .maximumf [2] S16x128 src 0xFF800000#32 reduces_S16x128x128_S16x128 hφ hacc (ix2 h r)
      = Finset.univ.fold max ⊥ fun k : Fin 128 => src (ix3 h r k) := by
  refine (Ideal.multiReduction_maximumf_single src 0xFF800000#32 reduces_S16x128x128_S16x128 hφ hacc (ix2 h r)).trans ?_
  show (Finset.univ : Finset (Fin 128)).fold max (Ideal.ofBits .f32 0xFF800000#32)
      (fun k => src (reduces_S16x128x128_S16x128.lift (ix2 h r) k)) = _
  rw [ofBits_neg_inf_f32]
  exact congrArg (fun f => Finset.fold max (⊥ : EReal) f (Finset.univ : Finset (Fin 128)))
    (funext fun k => congrArg src (lift_16x128x128_eq h r k))

/-! ### The attention kernel: one block's update -/

/-- The rescaling factor at (h, r): exp (old maximum - new maximum). -/
theorem k1_pay1_apply (v26 : FVec Ideal S16x128x1 .f32) (v27 : Vec Ideal S16x128x1 .f32) (i : S16x128x1.Idx) :
    k1_pay1 (F := Ideal) v26 v27 i = Ideal.exp (v27 i - v26 i) := rfl

/-- The block's unnormalised weights at (h, r, k): exp (score - new maximum of the row). -/
theorem k1_pay2_apply (v22 : FVec Ideal S16x128x128 .f32) (v26 : FVec Ideal S16x128x1 .f32) (h : Fin 16) (r : Fin 128)
    (k : Fin 128) :
    k1_pay2 (F := Ideal) v22 v26 (ix3 h r k) = Ideal.exp (v22 (ix3 h r k) - v26 (ix3 h r (0 : Fin 1))) := by
  unfold k1_pay2
  show Ideal.exp (v22 (ix3 h r k) - broadcastTo S16x128x128 v26 broadcasts_S16x128x1_S16x128x128 (ix3 h r k)) = _
  rw [broadcastTo_16x128x1_16x128x128_apply]

/-- The new normaliser at (h, r): the old one rescaled, plus the sum over the block's keys of the weights. The
    lane sum has no initial value left in it. -/
theorem k1_pay3_apply (v22 : FVec Ideal S16x128x128 .f32) (v26 : FVec Ideal S16x128x1 .f32) (v27 : Vec Ideal S16x128x1 .f32)
    (v33 : Vec Ideal S16x128x1 .f32) (h : Fin 16) (r : Fin 128) :
    k1_pay3 (F := Ideal) v22 v26 v27 v33 (ix3 h r (0 : Fin 1))
      = Ideal.exp (v27 (ix3 h r (0 : Fin 1)) - v26 (ix3 h r (0 : Fin 1))) * v33 (ix3 h r (0 : Fin 1))
        + ∑ k : Fin 128, Ideal.exp (v22 (ix3 h r k) - v26 (ix3 h r (0 : Fin 1))) := by
  unfold k1_pay3
  simp only [shapeCast_self]
  rw [addf_apply, mulf_apply, k1_pay1_apply]
  refine congrArg₂ (fun a b : EReal => a + b) rfl ?_
  refine (shapeCast_16x128_16x128x1_apply _ h r 0).trans ?_
  refine (laneSum_16x128x128_apply _ _ _ h r).trans ?_
  exact Finset.sum_congr rfl fun k _ => k1_pay2_apply v22 v26 h r k

/-- The new weighted sum at (h, r, d): the old one rescaled, plus the sum over the block's keys of the weights
    times the values. The change of format of the weights is the identity and the zero accumulator of the product
    is gone. -/
theorem k1_pay4_apply (v8 : FVec Ideal S16x128x64 .bf16) (v22 : FVec Ideal S16x128x128 .f32) (v26 : FVec Ideal S16x128x1 .f32)
    (v27 : Vec Ideal S16x128x1 .f32) (v41 : Vec Ideal S16x128x64 .f32) (h : Fin 16) (r : Fin 128) (d : Fin 64) :
    k1_pay4 (F := Ideal) v8 v22 v26 v27 v41 (ix3 h r d)
      = Ideal.exp (v27 (ix3 h r (0 : Fin 1)) - v26 (ix3 h r (0 : Fin 1))) * v41 (ix3 h r d)
        + ∑ k : Fin 128, Ideal.exp (v22 (ix3 h r k) - v26 (ix3 h r (0 : Fin 1))) * v8 (ix3 h k d) := by
  unfold k1_pay4
  simp only [shapeCast_self]
  rw [addf_apply, mulf_apply, broadcastTo_16x128x1_16x128x64_apply, k1_pay1_apply, dot_pv_apply]
  refine congrArg₂ (fun a b : EReal => a + b) rfl ?_
  refine Finset.sum_congr rfl fun k _ => ?_
  rw [truncf_apply, k1_pay2_apply]

/-- The block's scores at (h, r, k): the query row r of head h times the key row k of head h, plus the logarithm
    of the positional gate clamped from below — the head's gate weights times the positional block's row (r, k), plus
    the head's bias. The positional block [128,128,64] is read flat as [16384,64], multiplied into [16,16384] and read
    back as [16,128,128]: the flat column r · 128 + k on both sides. -/
theorem k1_pay11_apply (v3 : Vec Ideal S16x128x64 .f32) (v5 : Vec Ideal S16x128x64 .f32) (v9 : Vec Ideal S128x128x64 .f32)
    (v10 : Vec Ideal S16x64 .f32) (v11 : Vec Ideal S16x1x1 .f32) (h : Fin 16) (r k : Fin 128) :
    k1_pay11 (F := Ideal) v3 v5 v9 v10 v11 (ix3 h r k)
      = (∑ d : Fin 64, v3 (ix3 h r d) * v5 (ix3 h k d))
        + Ideal.log (max ((∑ d : Fin 64, v10 (ix2 h d) * v9 (ix3 r k d)) + v11 (ix3 h (0 : Fin 1) (0 : Fin 1)))
            (Ideal.ofBits .f32 0x358637BD#32)) := by
  unfold k1_pay11
  simp only [shapeCast_self]
  rw [addf_apply, dot_qk_apply]
  refine congrArg₂ (fun a b : EReal => a + b) rfl ?_
  show Ideal.log (max (_ + _) (Ideal.ofBits .f32 0x358637BD#32)) = _
  rw [shapeCast_16x16384_16x128x128_apply, dot_16x64_16384x64_apply, broadcastTo_16x1x1_16x128x128_apply]
  refine congrArg (fun s : EReal => Ideal.log (max (s + v11 (ix3 h (0 : Fin 1) (0 : Fin 1))) (Ideal.ofBits .f32 0x358637BD#32))) ?_
  exact Finset.sum_congr rfl fun d _ => congrArg (v10 (ix2 h d) * ·) (shapeCast_128x128x64_16384x64_apply v9 r k d)

/-- The new running maximum at (h, r): the maximum of the old one and the fold of max from -∞ over the block's
    keys of the scores. -/
theorem k1_pay12_apply (v3 : Vec Ideal S16x128x64 .f32) (v5 : Vec Ideal S16x128x64 .f32) (v9 : Vec Ideal S128x128x64 .f32)
    (v10 : Vec Ideal S16x64 .f32) (v11 : Vec Ideal S16x1x1 .f32) (v23 : Vec Ideal S16x128x1 .f32) (h : Fin 16) (r : Fin 128) :
    k1_pay12 (F := Ideal) v3 v5 v9 v10 v11 v23 (ix3 h r (0 : Fin 1))
      = max (v23 (ix3 h r (0 : Fin 1)))
          (Finset.univ.fold max ⊥ fun k : Fin 128 => k1_pay11 (F := Ideal) v3 v5 v9 v10 v11 (ix3 h r k)) := by
  unfold k1_pay12
  rw [maximumf_apply]
  refine congrArg (max (v23 (ix3 h r (0 : Fin 1)))) ?_
  refine (shapeCast_16x128_16x128x1_apply _ h r 0).trans ?_
  exact laneMax_16x128x128_apply _ _ _ h r

/-! ### One block's update as the streaming-softmax step

  For one head h and query row r, write sj k for the block's score at (h, r, k) and vj k d for the block's value at
  (h, k, d). The three values the kernel stores after a block — the new running maximum, the new normaliser and the
  new weighted sum — are the step of the streaming softmax on the state (m, l, acc) = (v23, v33, v41) at (h, r),
  provided the two loads of the running maximum agree (v27 = v23): with m' = max m (fold of max from -∞ of sj),
  m' itself, exp (m - m') · l + Σ exp (sj k - m'), and exp (m - m') · acc d + Σ exp (sj k - m') · vj k d. -/

/-- The stored running maximum at (h, r) is m' = max m (block maximum). -/
theorem stored_max_apply (v3 : Vec Ideal S16x128x64 .f32) (v5 : Vec Ideal S16x128x64 .f32) (v9 : Vec Ideal S128x128x64 .f32)
    (v10 : Vec Ideal S16x64 .f32) (v11 : Vec Ideal S16x1x1 .f32) (v23 : Vec Ideal S16x128x1 .f32) (h : Fin 16) (r : Fin 128) :
    k1_pay5 (F := Ideal) (k1_pay12 (F := Ideal) v3 v5 v9 v10 v11 v23) (ix3 h r (0 : Fin 1))
      = max (v23 (ix3 h r (0 : Fin 1)))
          (Finset.univ.fold max ⊥ fun k : Fin 128 => k1_pay11 (F := Ideal) v3 v5 v9 v10 v11 (ix3 h r k)) := by
  rw [k1_pay5_eq, k1_pay12_apply]

/-- The stored normaliser at (h, r) is exp (m - m') · l + Σ exp (sj k - m'). -/
theorem stored_sum_apply (v3 : Vec Ideal S16x128x64 .f32) (v5 : Vec Ideal S16x128x64 .f32) (v9 : Vec Ideal S128x128x64 .f32)
    (v10 : Vec Ideal S16x64 .f32) (v11 : Vec Ideal S16x1x1 .f32) (v23 : Vec Ideal S16x128x1 .f32)
    (v33 : Vec Ideal S16x128x1 .f32) (h : Fin 16) (r : Fin 128) :
    k1_pay3 (F := Ideal) (k1_pay11 (F := Ideal) v3 v5 v9 v10 v11) (k1_pay12 (F := Ideal) v3 v5 v9 v10 v11 v23) v23 v33
        (ix3 h r (0 : Fin 1))
      = Ideal.exp (v23 (ix3 h r (0 : Fin 1))
            - max (v23 (ix3 h r (0 : Fin 1)))
                (Finset.univ.fold max ⊥ fun k : Fin 128 => k1_pay11 (F := Ideal) v3 v5 v9 v10 v11 (ix3 h r k)))
          * v33 (ix3 h r (0 : Fin 1))
        + ∑ k : Fin 128, Ideal.exp (k1_pay11 (F := Ideal) v3 v5 v9 v10 v11 (ix3 h r k)
            - max (v23 (ix3 h r (0 : Fin 1)))
                (Finset.univ.fold max ⊥ fun k : Fin 128 => k1_pay11 (F := Ideal) v3 v5 v9 v10 v11 (ix3 h r k))) := by
  rw [k1_pay3_apply, k1_pay12_apply]

/-- The stored weighted sum at (h, r, d) is exp (m - m') · acc d + Σ exp (sj k - m') · vj k d. -/
theorem stored_acc_apply (v3 : Vec Ideal S16x128x64 .f32) (v5 : Vec Ideal S16x128x64 .f32) (v7 : Vec Ideal S16x128x64 .bf16)
    (v9 : Vec Ideal S128x128x64 .f32) (v10 : Vec Ideal S16x64 .f32) (v11 : Vec Ideal S16x1x1 .f32)
    (v23 : Vec Ideal S16x128x1 .f32) (v41 : Vec Ideal S16x128x64 .f32) (h : Fin 16) (r : Fin 128) (d : Fin 64) :
    k1_pay4 (F := Ideal) (k1_pay10 (F := Ideal) v7) (k1_pay11 (F := Ideal) v3 v5 v9 v10 v11)
        (k1_pay12 (F := Ideal) v3 v5 v9 v10 v11 v23) v23 v41 (ix3 h r d)
      = Ideal.exp (v23 (ix3 h r (0 : Fin 1))
            - max (v23 (ix3 h r (0 : Fin 1)))
                (Finset.univ.fold max ⊥ fun k : Fin 128 => k1_pay11 (F := Ideal) v3 v5 v9 v10 v11 (ix3 h r k)))
          * v41 (ix3 h r d)
        + ∑ k : Fin 128, Ideal.exp (k1_pay11 (F := Ideal) v3 v5 v9 v10 v11 (ix3 h r k)
            - max (v23 (ix3 h r (0 : Fin 1)))
                (Finset.univ.fold max ⊥ fun k : Fin 128 => k1_pay11 (F := Ideal) v3 v5 v9 v10 v11 (ix3 h r k)))
          * v7 (ix3 h k d) := by
  rw [k1_pay4_apply, k1_pay12_apply, k1_pay10_eq]

end Cert.KernelIdeal.Payloads

end
-- ==== Proof.IdealFinal0.lean ====
/-
  The projection kernel's output array. The kernel's four grid points each write one 256-row block
  of the output; the blocks tile the 1024 rows. Row by row the output is the activations' row times
  the weight matrix plus the bias row: one function of the three arrays the region reads, index by
  index, whatever the block a row falls in.
-/
import proofs.«153090_j59820304499077_2_alg».proof.Proof.IdealRegion0
import proofs.«153090_j59820304499077_2_alg».proof.Proof.IdealPayloads
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Payloads
open Idealize.ShloMosaic Idealize.ShloMosaic.TcCoe Idealize.ShloMosaic.ValueIdx
open Idealize.SL.Sem
open Idealize.ShloMosaic.Pipeline (Dat Cfg Window)
open scoped BigOperators

/-- The projection: at (n, j) the row n of x times the column j of B, plus the bias at j. -/
def G0 (x : S1024x1024.Idx → EReal) (B : S1024x3072.Idx → EReal) (b : S1x3072.Idx → EReal) : S1024x3072.Idx → EReal :=
  fun i => (∑ e : Fin 1024, x (ix2 (⟨(i 0).val, (i 0).isLt⟩ : Fin 1024) e) * B (ix2 e (⟨(i 1).val, (i 1).isLt⟩ : Fin 3072)))
    + b (ix2 (0 : Fin 1) (⟨(i 1).val, (i 1).isLt⟩ : Fin 3072))

theorem G0_apply (x : S1024x1024.Idx → EReal) (B : S1024x3072.Idx → EReal) (b : S1x3072.Idx → EReal)
    (n : Fin 1024) (j : Fin 3072) :
    G0 x B b (ix2 n j) = (∑ e : Fin 1024, x (ix2 n e) * B (ix2 e j)) + b (ix2 (0 : Fin 1) j) := rfl

variable (V : (c : Dev nD) → (b : Ref sig .tc) → Buf (Elt Ideal) ((c : Thread nD τ).loc b))

/-- The index maps over the grid: the activations' and the output's windows are at row block t, every other
    block index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has four points. -/
theorem lt_four (t : Fin cfg0.N) : t.val < 4 := by
  have h := t.isLt
  have hN : cfg0.N = 4 := N_0
  omega

/-- The activations' block at point t is rows 256 t … 256 t + 255 of the array. -/
theorem iblk0_0_apply (c : Dev nD) (t : Fin cfg0.N) (p : Fin 256) (e : Fin 1024) (n : Fin 1024)
    (hn : n.val = t.val * 256 + p.val) :
    (iblk0 (F := Ideal) V c 0 t : Vec Ideal S256x1024 .f32) (ix2 p e)
      = (V c main_arg0 : S1024x1024.Idx → EReal) (ix2 n e) := by
  obtain ⟨e00, e01, -⟩ := idx_facts0 t
  unfold iblk0
  rw [View.read_apply]
  show V c main_arg0 _ = V c main_arg0 _
  congr 1
  funext a
  apply Fin.ext
  match a with
  | ⟨0, _⟩ => show win0_0.index t (0 : Fin 2) * 256 + 1 * p.val = n.val; omega
  | ⟨1, _⟩ => show win0_0.index t (1 : Fin 2) * 1024 + 1 * e.val = e.val; omega

/-- The weights' block at every point is the whole matrix. -/
theorem iblk0_1_apply (c : Dev nD) (t : Fin cfg0.N) (e : Fin 1024) (q : Fin 3072) :
    (iblk0 (F := Ideal) V c 1 t : Vec Ideal S1024x3072 .f32) (ix2 e q)
      = (V c main_v3 : S1024x3072.Idx → EReal) (ix2 e q) := by
  obtain ⟨-, -, e10, e11, -⟩ := idx_facts0 t
  unfold iblk0
  rw [View.read_apply]
  show V c main_v3 _ = V c main_v3 _
  congr 1
  funext a
  apply Fin.ext
  match a with
  | ⟨0, _⟩ => show win0_1.index t (0 : Fin 2) * 1024 + 1 * e.val = e.val; omega
  | ⟨1, _⟩ => show win0_1.index t (1 : Fin 2) * 3072 + 1 * q.val = q.val; omega

/-- The bias row's block at every point is the whole row. -/
theorem iblk0_2_apply (c : Dev nD) (t : Fin cfg0.N) (z : Fin 1) (q : Fin 3072) :
    (iblk0 (F := Ideal) V c 2 t : Vec Ideal S1x3072 .f32) (ix2 z q)
      = (V c main_v5 : S1x3072.Idx → EReal) (ix2 z q) := by
  obtain ⟨-, -, -, -, e20, e21, -⟩ := idx_facts0 t
  unfold iblk0
  rw [View.read_apply]
  show V c main_v5 _ = V c main_v5 _
  congr 1
  funext a
  apply Fin.ext
  match a with
  | ⟨0, _⟩ => show win0_2.index t (0 : Fin 2) * 1 + 1 * z.val = z.val; omega
  | ⟨1, _⟩ => show win0_2.index t (1 : Fin 2) * 3072 + 1 * q.val = q.val; omega

/-- What point t writes back is block t of the projection of the arrays as the region finds them. -/
theorem flushed0_eq (c : Dev nD) (t : Fin cfg0.N) :
    (dat0 (F := Ideal) V c).flushed 3 t
      = ((cfg0.win 3).blk t).view.read (Elt Ideal) (G0 (V c main_arg0) (V c main_v3) (V c main_v5)) := by
  show (cfg0.win 3).cut (grid0.coords t) ((dat0 (F := Ideal) V c).after 3 t) = _
  rw [after0_3]
  unfold out0_3
  rw [View.canon_unit_zero hz2]
  simp only [View.ld_unit_zero (S := S256x1024) hz2, View.ld_unit_zero (S := S1024x3072) hz2,
    View.ld_unit_zero (S := S1x3072) hz2]
  obtain ⟨-, -, -, -, -, -, e30, e31⟩ := idx_facts0 t
  have ht := lt_four t
  funext y
  obtain ⟨p, q, rfl⟩ : ∃ (p : Fin 256) (q : Fin 3072), y = ix2 p q := ⟨y 0, y 1, eq_ix2 y⟩
  rw [View.read_apply]
  have hemb : ((cfg0.win 3).blk t).view.emb (ix2 p q)
      = ix2 (⟨t.val * 256 + p.val, by have := p.isLt; omega⟩ : Fin 1024) q :=
    funext fun a => Fin.ext (by
      match a with
      | ⟨0, _⟩ => show win0_3.index t (0 : Fin 2) * 256 + 1 * p.val = t.val * 256 + p.val; omega
      | ⟨1, _⟩ => show win0_3.index t (1 : Fin 2) * 3072 + 1 * q.val = q.val; omega)
  show k0_pay1 (F := Ideal) (iblk0 V c 0 t) (iblk0 V c 1 t) (iblk0 V c 2 t) (ix2 p q)
    = G0 (V c main_arg0) (V c main_v3) (V c main_v5) (((cfg0.win 3).blk t).view.emb (ix2 p q))
  rw [hemb, G0_apply]
  refine (k0_pay1_apply _ _ _ p q).trans ?_
  refine congrArg₂ (fun a b : EReal => a + b) (Finset.sum_congr rfl fun e _ => ?_) (iblk0_2_apply V c t 0 q)
  exact congrArg₂ (fun a b : EReal => a * b) (iblk0_0_apply V c t p e _ rfl) (iblk0_1_apply V c t e q)

/-- An index of the output array is in point t's block iff its row is among the block's 256 rows. -/
theorem mem_blk0 (t : Fin cfg0.N) (i : S1024x3072.Idx) :
    i ∈ ((cfg0.win 3).blk t).view.set
      ↔ ∀ a : Fin 2, win0_3.index t a * S256x3072.size a ≤ (i a).val
          ∧ (i a).val < win0_3.index t a * S256x3072.size a + S256x3072.size a := by
  show i ∈ ((View.whole main_v6).slice (win0_3.rect t)).set ↔ _
  rw [View.set_slice_whole, Rect.mem_set_unit]
  exact Iff.rfl

/-- Every index of the output array is in the block of the point its row falls in: row n is in block n / 256. -/
theorem cover0 (i : S1024x3072.Idx) :
    ∃ t : Fin cfg0.N, (cfg0.win 3).flush t = true ∧ i ∈ ((cfg0.win 3).blk t).view.set := by
  have hi0 : (i 0).val < 1024 := (i 0).isLt
  have hi1 : (i 1).val < 3072 := (i 1).isLt
  have hN : cfg0.N = 4 := N_0
  let t : Fin cfg0.N := ⟨(i 0).val / 256, by omega⟩
  obtain ⟨-, -, -, -, -, -, e30, e31⟩ := idx_facts0 t
  have htv : t.val = (i 0).val / 256 := rfl
  refine ⟨t, flush0_3 t, ?_⟩
  rw [mem_blk0]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 3072 ≤ (i 1).val ∧ (i 1).val < win0_3.index t (1 : Fin 2) * 3072 + 3072
    omega

/-- The output array after the region: the projection of the three arrays the region reads, at every index. -/
theorem final0 (c : Dev nD) :
    (dat0 (F := Ideal) V c).arrAt 3 cfg0.N = G0 (V c main_arg0) (V c main_v3) (V c main_v5) :=
  (dat0 (F := Ideal) V c).arrAt_eq_of_cover 3 (G0 (V c main_arg0) (V c main_v3) (V c main_v5))
    (fun t _ => flushed0_eq V c t) cover0

end Cert.KernelIdeal.Hand

end
-- ==== Proof.RefSpec.lean ====
/-
  The result of multi-head attention with a geometry bias, as ONE function of the twelve argument arrays, entry by
  entry, over the extended reals.

  N = 1024 rows, 16 heads of 64 lanes each, model width 1024 = 16 · 64. For a row n, a head h and a lane d the
  projections q, k, v are rows of x against rows of the weight matrices, column h · 64 + d, plus the bias there. The
  geometry bias g h i j is the logarithm of the pair embedding pe(i, j, ·) against row h of Wg, plus bg h, clamped
  below at zero and then at a small positive constant. The scores are q · k + g; each row of scores is turned into
  weights by a softmax around the row maximum M: e = exp (sc − M), Z = Σ e, w = e / Z. The heads' outputs
  y h n d = Σ_m w h n m · v h m d are laid side by side (column e is head e / 64, lane e % 64), projected by Wy, given
  the bias, and added to x.

  Every sum is a finite sum over a literal index range, every product, maximum, exponential, logarithm and division is
  the extended reals' (the division and the two transcendental functions with the corner values of the ideal float
  instance). Nothing here mentions a program.
-/
import Idealize.ShloMosaic.PureOps.Ideal
import Idealize.ShloMosaic.Lib.ValueIdx

noncomputable section

open scoped BigOperators

namespace Cert.Spec

open Idealize.ShloMosaic Idealize.ShloMosaic.ValueIdx

/-- A 1024 × 1024 array of extended reals: x, and the weight matrices Wq, Wk, Wv, Wy. -/
abbrev A1024x1024 : Type := (⟨2, ![1024, 1024]⟩ : Shape).Idx → EReal
/-- A vector of 1024 extended reals: the biases bq, bk, bv and the output bias. -/
abbrev A1024 : Type := (⟨1, ![1024]⟩ : Shape).Idx → EReal
/-- The pair embedding, 1024 × 1024 × 64. -/
abbrev A1024x1024x64 : Type := (⟨3, ![1024, 1024, 64]⟩ : Shape).Idx → EReal
/-- The geometry weights, one row of 64 per head. -/
abbrev A16x64 : Type := (⟨2, ![16, 64]⟩ : Shape).Idx → EReal
/-- The geometry bias's bias, one entry per head. -/
abbrev A16 : Type := (⟨1, ![16]⟩ : Shape).Idx → EReal

/-- Column h · 64 + d of a projection: head h, lane d. -/
abbrev col (h : Fin 16) (d : Fin 64) : Fin 1024 :=
  ⟨h.val * 64 + d.val, by have := h.isLt; have := d.isLt; omega⟩
/-- The head a column of the side-by-side layout belongs to. -/
abbrev headOf (e : Fin 1024) : Fin 16 := ⟨e.val / 64, by have := e.isLt; omega⟩
/-- The lane of a column inside its head. -/
abbrev laneOf (e : Fin 1024) : Fin 64 := ⟨e.val % 64, Nat.mod_lt _ (by decide)⟩

/-- The lower clamp under the logarithm: the f32 word of 1e-6, kept as that word. -/
def c6 : EReal := Ideal.ofBits .f32 0x358637BD#32

/-- A projection at head h, row n, lane d: row n of x against row h · 64 + d of W, plus the bias there. -/
def proj (x W : A1024x1024) (b : A1024) (h : Fin 16) (n : Fin 1024) (d : Fin 64) : EReal :=
  (∑ e : Fin 1024, x (ix2 n e) * W (ix2 (col h d) e)) + b (ix1 (col h d))

/-- The geometry bias at head h for the pair (i, j). -/
def g (pe : A1024x1024x64) (Wg : A16x64) (bg : A16) (h : Fin 16) (i j : Fin 1024) : EReal :=
  Ideal.log (max (max ((∑ d : Fin 64, Wg (ix2 h d) * pe (ix3 i j d)) + bg (ix1 h)) 0) c6)

section
variable (x : A1024x1024) (pe : A1024x1024x64) (Wq : A1024x1024) (bq : A1024) (Wk : A1024x1024) (bk : A1024)
  (Wv : A1024x1024) (bv : A1024) (Wg : A16x64) (bg : A16) (Wy : A1024x1024) (bo : A1024)

/-- The score of row n against row m at head h. -/
def sc (h : Fin 16) (n m : Fin 1024) : EReal :=
  (∑ d : Fin 64, proj x Wq bq h n d * proj x Wk bk h m d) + g pe Wg bg h n m

/-- The maximum of row n's scores at head h, taken from −∞ (and once more against −∞). -/
def M (h : Fin 16) (n : Fin 1024) : EReal :=
  max ⊥ ((Finset.univ : Finset (Fin 1024)).fold max ⊥ (fun m => sc x pe Wq bq Wk bk Wg bg h n m))

/-- The exponential of a score less its row's maximum. -/
def e (h : Fin 16) (n m : Fin 1024) : EReal :=
  Ideal.exp (sc x pe Wq bq Wk bk Wg bg h n m - M x pe Wq bq Wk bk Wg bg h n)

/-- The row's normaliser. -/
def Z (h : Fin 16) (n : Fin 1024) : EReal :=
  ∑ m : Fin 1024, e x pe Wq bq Wk bk Wg bg h n m

/-- The softmax weight. -/
def w (h : Fin 16) (n m : Fin 1024) : EReal :=
  Ideal.div (e x pe Wq bq Wk bk Wg bg h n m) (Z x pe Wq bq Wk bk Wg bg h n)

/-- Head h's output at row n, lane d. -/
def y (h : Fin 16) (n : Fin 1024) (d : Fin 64) : EReal :=
  ∑ m : Fin 1024, w x pe Wq bq Wk bk Wg bg h n m * proj x Wv bv h m d

/-- The result at row n, column c: x plus the output projection of the heads laid side by side. -/
def out (n c : Fin 1024) : EReal :=
  x (ix2 n c)
    + ((∑ e : Fin 1024, y x pe Wq bq Wk bk Wv bv Wg bg (headOf e) n (laneOf e) * Wy (ix2 c e)) + bo (ix1 c))

end

end Cert.Spec

end
-- ==== Proof.IdealGlue.lean ====
/-
  The host operations between the kernel program's three regions, read at an index over the extended reals.

  The program runs three stretches of layout operations around its regions: before the first, the three projection
  weight matrices are transposed and laid side by side into one 1024 × 3072 matrix and the three biases end to end
  into one row of 3072; before the second, the fused projection's columns are cut back into q, k and v, each reshaped
  to 16 heads of 64 lanes and transposed to head-major, and the geometry bias's bias becomes a 16 × 1 × 1 array;
  before the third, the heads' outputs are transposed back and laid side by side, the output weights are transposed
  and the output bias becomes a row. None of them computes: each result entry is ONE entry of an operand (a change of
  float format is the identity on extended reals). Each lemma below says which, for an arbitrary valuation of the
  buffers the stretch starts from, at explicit coordinates: column p · 1024 + h · 64 + d of the fused matrices is
  column h · 64 + d of projection p, and column e of the side-by-side layout is head e / 64, lane e % 64.
-/
import proofs.«153090_j59820304499077_2_alg».proof.Proof.Gen.KernelIdeal.Launch
import proofs.«153090_j59820304499077_2_alg».proof.Proof.RefSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.ShloMosaic.StableHlo Idealize.ShloMosaic.ValueIdx
open Idealize.SL.Sem

/-- Column c of projection p (0, 1, 2 for q, k, v) in the fused 3072-column layout. -/
abbrev fcol (p : Fin 3) (c : Fin 1024) : Fin 3072 :=
  ⟨p.val * 1024 + c.val, by have := p.isLt; have := c.isLt; omega⟩

/-! ## The stretch before the first region: the three weight matrices transposed and laid side by side, the three
    biases end to end as one row

The stretch is cut after its three transposes: what the two concatenations and the reshape make of ANY valuation is
read first, then what the transposes made of the launch contents. -/

theorem hostOps0_split (W : Valuation τ sig (Elt Ideal)) :
    after (hostOps0 (F := Ideal)) W
      = after ((hostOps0 (F := Ideal)).drop 3) (after ((hostOps0 (F := Ideal)).take 3) W) := rfl

theorem tail0_v3 (X : Valuation τ sig (Elt Ideal)) :
    (after ((hostOps0 (F := Ideal)).drop 3) X (Proc.devRef .tc main_v3) : (⟨S1024x3072, .f32⟩ : BufTy).Contents (Elt Ideal))
      = concatenate S1024x3072 1 [⟨S1024x1024, (X (Proc.devRef .tc main_v0) : (⟨S1024x1024, .f32⟩ : BufTy).Contents (Elt Ideal))⟩,
          ⟨S1024x1024, (X (Proc.devRef .tc main_v1) : (⟨S1024x1024, .f32⟩ : BufTy).Contents (Elt Ideal))⟩,
          ⟨S1024x1024, (X (Proc.devRef .tc main_v2) : (⟨S1024x1024, .f32⟩ : BufTy).Contents (Elt Ideal))⟩]
          concatenates_S1024x1024_S1024x1024_S1024x1024_S1024x3072_d1 := by
  simp only [hostOps0, List.drop_succ_cons, List.drop_zero]
  after_results
  rfl

theorem tail0_v5 (X : Valuation τ sig (Elt Ideal)) :
    (after ((hostOps0 (F := Ideal)).drop 3) X (Proc.devRef .tc main_v5) : (⟨S1x3072, .f32⟩ : BufTy).Contents (Elt Ideal))
      = shapeCast S1x3072 (concatenate S3072 0 [⟨S1024, (X (Proc.devRef .tc main_arg3) : (⟨S1024, .f32⟩ : BufTy).Contents (Elt Ideal))⟩,
          ⟨S1024, (X (Proc.devRef .tc main_arg5) : (⟨S1024, .f32⟩ : BufTy).Contents (Elt Ideal))⟩,
          ⟨S1024, (X (Proc.devRef .tc main_arg7) : (⟨S1024, .f32⟩ : BufTy).Contents (Elt Ideal))⟩]
          concatenates_S1024_S1024_S1024_S3072_d0) shapeCasts_S3072_S1x3072 := by
  simp only [hostOps0, List.drop_succ_cons, List.drop_zero]
  after_results
  rfl

theorem head0_v0 (W : Valuation τ sig (Elt Ideal)) :
    (after ((hostOps0 (F := Ideal)).take 3) W (Proc.devRef .tc main_v0) : (⟨S1024x1024, .f32⟩ : BufTy).Contents (Elt Ideal))
      = transpose S1024x1024 [1, 0] (W (Proc.devRef .tc main_arg2) : (⟨S1024x1024, .f32⟩ : BufTy).Contents (Elt Ideal))
          transposes_S1024x1024_S1024x1024_1_0 := by
  simp only [hostOps0, List.take_succ_cons, List.take_zero]
  after_results

theorem head0_v1 (W : Valuation τ sig (Elt Ideal)) :
    (after ((hostOps0 (F := Ideal)).take 3) W (Proc.devRef .tc main_v1) : (⟨S1024x1024, .f32⟩ : BufTy).Contents (Elt Ideal))
      = transpose S1024x1024 [1, 0] (W (Proc.devRef .tc main_arg4) : (⟨S1024x1024, .f32⟩ : BufTy).Contents (Elt Ideal))
          transposes_S1024x1024_S1024x1024_1_0 := by
  simp only [hostOps0, List.take_succ_cons, List.take_zero]
  after_results

theorem head0_v2 (W : Valuation τ sig (Elt Ideal)) :
    (after ((hostOps0 (F := Ideal)).take 3) W (Proc.devRef .tc main_v2) : (⟨S1024x1024, .f32⟩ : BufTy).Contents (Elt Ideal))
      = transpose S1024x1024 [1, 0] (W (Proc.devRef .tc main_arg6) : (⟨S1024x1024, .f32⟩ : BufTy).Contents (Elt Ideal))
          transposes_S1024x1024_S1024x1024_1_0 := by
  simp only [hostOps0, List.take_succ_cons, List.take_zero]
  after_results

theorem head0_arg3 (W : Valuation τ sig (Elt Ideal)) :
    after ((hostOps0 (F := Ideal)).take 3) W (Proc.devRef .tc main_arg3) = W (Proc.devRef .tc main_arg3) := by
  simp only [hostOps0, List.take_succ_cons, List.take_zero]
  after_results

theorem head0_arg5 (W : Valuation τ sig (Elt Ideal)) :
    after ((hostOps0 (F := Ideal)).take 3) W (Proc.devRef .tc main_arg5) = W (Proc.devRef .tc main_arg5) := by
  simp only [hostOps0, List.take_succ_cons, List.take_zero]
  after_results

theorem head0_arg7 (W : Valuation τ sig (Elt Ideal)) :
    after ((hostOps0 (F := Ideal)).take 3) W (Proc.devRef .tc main_arg7) = W (Proc.devRef .tc main_arg7) := by
  simp only [hostOps0, List.take_succ_cons, List.take_zero]
  after_results

/-! ### A concatenation of three equal pieces read at an index -/

theorem cat_cols_0 (x0 x1 x2 : (⟨S1024x1024, .f32⟩ : BufTy).Contents (Elt Ideal)) (e c : Fin 1024) :
    concatenate S1024x3072 1 [⟨S1024x1024, x0⟩, ⟨S1024x1024, x1⟩, ⟨S1024x1024, x2⟩]
        concatenates_S1024x1024_S1024x1024_S1024x1024_S1024x3072_d1 (ix2 e (fcol 0 c)) = x0 (ix2 e c) :=
  concatenate_apply_piece (t := S1024x3072) (1 : Fin 2) [⟨S1024x1024, x0⟩, ⟨S1024x1024, x1⟩, ⟨S1024x1024, x2⟩]
    concatenates_S1024x1024_S1024x1024_S1024x1024_S1024x3072_d1
    (ix2 e (fcol 0 c)) 0 (by show 0 < 3; omega) S1024x1024 x0 rfl rfl 0 rfl (ix2 e c)
    (fun b hb => match b, hb with
      | ⟨0, _⟩, _ => rfl
      | ⟨1, _⟩, hb => absurd rfl hb)
    (by show 0 + c.val = 0 * 1024 + c.val; omega)

theorem cat_cols_1 (x0 x1 x2 : (⟨S1024x1024, .f32⟩ : BufTy).Contents (Elt Ideal)) (e c : Fin 1024) :
    concatenate S1024x3072 1 [⟨S1024x1024, x0⟩, ⟨S1024x1024, x1⟩, ⟨S1024x1024, x2⟩]
        concatenates_S1024x1024_S1024x1024_S1024x1024_S1024x3072_d1 (ix2 e (fcol 1 c)) = x1 (ix2 e c) :=
  concatenate_apply_piece (t := S1024x3072) (1 : Fin 2) [⟨S1024x1024, x0⟩, ⟨S1024x1024, x1⟩, ⟨S1024x1024, x2⟩]
    concatenates_S1024x1024_S1024x1024_S1024x1024_S1024x3072_d1
    (ix2 e (fcol 1 c)) 1 (by show 1 < 3; omega) S1024x1024 x1 rfl rfl 1024 rfl (ix2 e c)
    (fun b hb => match b, hb with
      | ⟨0, _⟩, _ => rfl
      | ⟨1, _⟩, hb => absurd rfl hb)
    (by show 1024 + c.val = 1 * 1024 + c.val; omega)

theorem cat_cols_2 (x0 x1 x2 : (⟨S1024x1024, .f32⟩ : BufTy).Contents (Elt Ideal)) (e c : Fin 1024) :
    concatenate S1024x3072 1 [⟨S1024x1024, x0⟩, ⟨S1024x1024, x1⟩, ⟨S1024x1024, x2⟩]
        concatenates_S1024x1024_S1024x1024_S1024x1024_S1024x3072_d1 (ix2 e (fcol 2 c)) = x2 (ix2 e c) :=
  concatenate_apply_piece (t := S1024x3072) (1 : Fin 2) [⟨S1024x1024, x0⟩, ⟨S1024x1024, x1⟩, ⟨S1024x1024, x2⟩]
    concatenates_S1024x1024_S1024x1024_S1024x1024_S1024x3072_d1
    (ix2 e (fcol 2 c)) 2 (by show 2 < 3; omega) S1024x1024 x2 rfl rfl 2048 rfl (ix2 e c)
    (fun b hb => match b, hb with
      | ⟨0, _⟩, _ => rfl
      | ⟨1, _⟩, hb => absurd rfl hb)
    (by show 2048 + c.val = 2 * 1024 + c.val; omega)

theorem cat_row_0 (x0 x1 x2 : (⟨S1024, .f32⟩ : BufTy).Contents (Elt Ideal)) (c : Fin 1024) :
    concatenate S3072 0 [⟨S1024, x0⟩, ⟨S1024, x1⟩, ⟨S1024, x2⟩]
        concatenates_S1024_S1024_S1024_S3072_d0 (ix1 (fcol 0 c)) = x0 (ix1 c) :=
  concatenate_apply_piece (t := S3072) (0 : Fin 1) [⟨S1024, x0⟩, ⟨S1024, x1⟩, ⟨S1024, x2⟩]
    concatenates_S1024_S1024_S1024_S3072_d0
    (ix1 (fcol 0 c)) 0 (by show 0 < 3; omega) S1024 x0 rfl rfl 0 rfl (ix1 c)
    (fun b hb => match b, hb with
      | ⟨0, _⟩, hb => absurd rfl hb)
    (by show 0 + c.val = 0 * 1024 + c.val; omega)

theorem cat_row_1 (x0 x1 x2 : (⟨S1024, .f32⟩ : BufTy).Contents (Elt Ideal)) (c : Fin 1024) :
    concatenate S3072 0 [⟨S1024, x0⟩, ⟨S1024, x1⟩, ⟨S1024, x2⟩]
        concatenates_S1024_S1024_S1024_S3072_d0 (ix1 (fcol 1 c)) = x1 (ix1 c) :=
  concatenate_apply_piece (t := S3072) (0 : Fin 1) [⟨S1024, x0⟩, ⟨S1024, x1⟩, ⟨S1024, x2⟩]
    concatenates_S1024_S1024_S1024_S3072_d0
    (ix1 (fcol 1 c)) 1 (by show 1 < 3; omega) S1024 x1 rfl rfl 1024 rfl (ix1 c)
    (fun b hb => match b, hb with
      | ⟨0, _⟩, hb => absurd rfl hb)
    (by show 1024 + c.val = 1 * 1024 + c.val; omega)

theorem cat_row_2 (x0 x1 x2 : (⟨S1024, .f32⟩ : BufTy).Contents (Elt Ideal)) (c : Fin 1024) :
    concatenate S3072 0 [⟨S1024, x0⟩, ⟨S1024, x1⟩, ⟨S1024, x2⟩]
        concatenates_S1024_S1024_S1024_S3072_d0 (ix1 (fcol 2 c)) = x2 (ix1 c) :=
  concatenate_apply_piece (t := S3072) (0 : Fin 1) [⟨S1024, x0⟩, ⟨S1024, x1⟩, ⟨S1024, x2⟩]
    concatenates_S1024_S1024_S1024_S3072_d0
    (ix1 (fcol 2 c)) 2 (by show 2 < 3; omega) S1024 x2 rfl rfl 2048 rfl (ix1 c)
    (fun b hb => match b, hb with
      | ⟨0, _⟩, hb => absurd rfl hb)
    (by show 2048 + c.val = 2 * 1024 + c.val; omega)

/-! ### The fused weights and biases at an index -/

/-- Columns [0, 0 + 1024) of the fused weight matrix are the transposed q weights. -/
theorem g0_wq (W : Valuation τ sig (Elt Ideal)) (e c : Fin 1024) :
    (after (hostOps0 (F := Ideal)) W (Proc.devRef .tc main_v3) : (⟨S1024x3072, .f32⟩ : BufTy).Contents (Elt Ideal)) (ix2 e (fcol 0 c))
      = (W (Proc.devRef .tc main_arg2) : (⟨S1024x1024, .f32⟩ : BufTy).Contents (Elt Ideal)) (ix2 c e) := by
  refine (congrFun (congrFun (hostOps0_split W) (Proc.devRef .tc main_v3)) (ix2 e (fcol 0 c))).trans ?_
  refine (congrFun (tail0_v3 _) (ix2 e (fcol 0 c))).trans ?_
  refine (cat_cols_0 _ _ _ e c).trans ?_
  refine (congrFun (head0_v0 W) (ix2 e c)).trans ?_
  exact transpose_apply [1, 0] _ transposes_S1024x1024_S1024x1024_1_0 (ix2 e c) (ix2 c e)
    (fun b => match b with | ⟨0, _⟩ => rfl | ⟨1, _⟩ => rfl)

/-- Columns [1024, 1024 + 1024) of the fused weight matrix are the transposed k weights. -/
theorem g0_wk (W : Valuation τ sig (Elt Ideal)) (e c : Fin 1024) :
    (after (hostOps0 (F := Ideal)) W (Proc.devRef .tc main_v3) : (⟨S1024x3072, .f32⟩ : BufTy).Contents (Elt Ideal)) (ix2 e (fcol 1 c))
      = (W (Proc.devRef .tc main_arg4) : (⟨S1024x1024, .f32⟩ : BufTy).Contents (Elt Ideal)) (ix2 c e) := by
  refine (congrFun (congrFun (hostOps0_split W) (Proc.devRef .tc main_v3)) (ix2 e (fcol 1 c))).trans ?_
  refine (congrFun (tail0_v3 _) (ix2 e (fcol 1 c))).trans ?_
  refine (cat_cols_1 _ _ _ e c).trans ?_
  refine (congrFun (head0_v1 W) (ix2 e c)).trans ?_
  exact transpose_apply [1, 0] _ transposes_S1024x1024_S1024x1024_1_0 (ix2 e c) (ix2 c e)
    (fun b => match b with | ⟨0, _⟩ => rfl | ⟨1, _⟩ => rfl)

/-- Columns [2048, 2048 + 1024) of the fused weight matrix are the transposed v weights. -/
theorem g0_wv (W : Valuation τ sig (Elt Ideal)) (e c : Fin 1024) :
    (after (hostOps0 (F := Ideal)) W (Proc.devRef .tc main_v3) : (⟨S1024x3072, .f32⟩ : BufTy).Contents (Elt Ideal)) (ix2 e (fcol 2 c))
      = (W (Proc.devRef .tc main_arg6) : (⟨S1024x1024, .f32⟩ : BufTy).Contents (Elt Ideal)) (ix2 c e) := by
  refine (congrFun (congrFun (hostOps0_split W) (Proc.devRef .tc main_v3)) (ix2 e (fcol 2 c))).trans ?_
  refine (congrFun (tail0_v3 _) (ix2 e (fcol 2 c))).trans ?_
  refine (cat_cols_2 _ _ _ e c).trans ?_
  refine (congrFun (head0_v2 W) (ix2 e c)).trans ?_
  exact transpose_apply [1, 0] _ transposes_S1024x1024_S1024x1024_1_0 (ix2 e c) (ix2 c e)
    (fun b => match b with | ⟨0, _⟩ => rfl | ⟨1, _⟩ => rfl)

/-- Entries [0, 0 + 1024) of the fused bias row are the q bias. -/
theorem g0_bq (W : Valuation τ sig (Elt Ideal)) (c : Fin 1024) :
    (after (hostOps0 (F := Ideal)) W (Proc.devRef .tc main_v5) : (⟨S1x3072, .f32⟩ : BufTy).Contents (Elt Ideal)) (ix2 (0 : Fin 1) (fcol 0 c))
      = (W (Proc.devRef .tc main_arg3) : (⟨S1024, .f32⟩ : BufTy).Contents (Elt Ideal)) (ix1 c) := by
  refine (congrFun (congrFun (hostOps0_split W) (Proc.devRef .tc main_v5)) (ix2 (0 : Fin 1) (fcol 0 c))).trans ?_
  refine (congrFun (tail0_v5 _) (ix2 (0 : Fin 1) (fcol 0 c))).trans ?_
  refine (shapeCast_apply _ shapeCasts_S3072_S1x3072 (ix2 (0 : Fin 1) (fcol 0 c)) (ix1 (fcol 0 c)) ?_).trans ?_
  · rewrite [Shape.rowMajor_val_one, Shape.rowMajor_val_two]
    show 0 * 1024 + c.val = 0 * 3072 + (0 * 1024 + c.val)
    omega
  refine (cat_row_0 _ _ _ c).trans ?_
  exact congrFun (head0_arg3 W) (ix1 c)

/-- Entries [1024, 1024 + 1024) of the fused bias row are the k bias. -/
theorem g0_bk (W : Valuation τ sig (Elt Ideal)) (c : Fin 1024) :
    (after (hostOps0 (F := Ideal)) W (Proc.devRef .tc main_v5) : (⟨S1x3072, .f32⟩ : BufTy).Contents (Elt Ideal)) (ix2 (0 : Fin 1) (fcol 1 c))
      = (W (Proc.devRef .tc main_arg5) : (⟨S1024, .f32⟩ : BufTy).Contents (Elt Ideal)) (ix1 c) := by
  refine (congrFun (congrFun (hostOps0_split W) (Proc.devRef .tc main_v5)) (ix2 (0 : Fin 1) (fcol 1 c))).trans ?_
  refine (congrFun (tail0_v5 _) (ix2 (0 : Fin 1) (fcol 1 c))).trans ?_
  refine (shapeCast_apply _ shapeCasts_S3072_S1x3072 (ix2 (0 : Fin 1) (fcol 1 c)) (ix1 (fcol 1 c)) ?_).trans ?_
  · rewrite [Shape.rowMajor_val_one, Shape.rowMajor_val_two]
    show 1 * 1024 + c.val = 0 * 3072 + (1 * 1024 + c.val)
    omega
  refine (cat_row_1 _ _ _ c).trans ?_
  exact congrFun (head0_arg5 W) (ix1 c)

/-- Entries [2048, 2048 + 1024) of the fused bias row are the v bias. -/
theorem g0_bv (W : Valuation τ sig (Elt Ideal)) (c : Fin 1024) :
    (after (hostOps0 (F := Ideal)) W (Proc.devRef .tc main_v5) : (⟨S1x3072, .f32⟩ : BufTy).Contents (Elt Ideal)) (ix2 (0 : Fin 1) (fcol 2 c))
      = (W (Proc.devRef .tc main_arg7) : (⟨S1024, .f32⟩ : BufTy).Contents (Elt Ideal)) (ix1 c) := by
  refine (congrFun (congrFun (hostOps0_split W) (Proc.devRef .tc main_v5)) (ix2 (0 : Fin 1) (fcol 2 c))).trans ?_
  refine (congrFun (tail0_v5 _) (ix2 (0 : Fin 1) (fcol 2 c))).trans ?_
  refine (shapeCast_apply _ shapeCasts_S3072_S1x3072 (ix2 (0 : Fin 1) (fcol 2 c)) (ix1 (fcol 2 c)) ?_).trans ?_
  · rewrite [Shape.rowMajor_val_one, Shape.rowMajor_val_two]
    show 2 * 1024 + c.val = 0 * 3072 + (2 * 1024 + c.val)
    omega
  refine (cat_row_2 _ _ _ c).trans ?_
  exact congrFun (head0_arg7 W) (ix1 c)

/-- The stretch leaves the arguments the regions read where they were. -/
theorem g0_keep_arg0 (W : Valuation τ sig (Elt Ideal)) :
    after (hostOps0 (F := Ideal)) W (Proc.devRef .tc main_arg0) = W (Proc.devRef .tc main_arg0) := by after_results
theorem g0_keep_arg1 (W : Valuation τ sig (Elt Ideal)) :
    after (hostOps0 (F := Ideal)) W (Proc.devRef .tc main_arg1) = W (Proc.devRef .tc main_arg1) := by after_results
theorem g0_keep_arg8 (W : Valuation τ sig (Elt Ideal)) :
    after (hostOps0 (F := Ideal)) W (Proc.devRef .tc main_arg8) = W (Proc.devRef .tc main_arg8) := by after_results
theorem g0_keep_arg9 (W : Valuation τ sig (Elt Ideal)) :
    after (hostOps0 (F := Ideal)) W (Proc.devRef .tc main_arg9) = W (Proc.devRef .tc main_arg9) := by after_results
theorem g0_keep_arg10 (W : Valuation τ sig (Elt Ideal)) :
    after (hostOps0 (F := Ideal)) W (Proc.devRef .tc main_arg10) = W (Proc.devRef .tc main_arg10) := by after_results
theorem g0_keep_arg11 (W : Valuation τ sig (Elt Ideal)) :
    after (hostOps0 (F := Ideal)) W (Proc.devRef .tc main_arg11) = W (Proc.devRef .tc main_arg11) := by after_results

/-! ## The stretch before the second region: the fused projection cut back into q, k, v, head-major -/

theorem g1_q (W : Valuation τ sig (Elt Ideal)) (h : Fin 16) (n : Fin 1024) (d : Fin 64) :
    (after (hostOps1 (F := Ideal)) W (Proc.devRef .tc main_v9) : (⟨S16x1024x64, .f32⟩ : BufTy).Contents (Elt Ideal)) (ix3 h n d)
      = (W (Proc.devRef .tc main_v6) : (⟨S1024x3072, .f32⟩ : BufTy).Contents (Elt Ideal)) (ix2 n (fcol 0 (Cert.Spec.col h d))) := by
  have ht : (after (hostOps1 (F := Ideal)) W (Proc.devRef .tc main_v9) : (⟨S16x1024x64, .f32⟩ : BufTy).Contents (Elt Ideal))
      = transpose S16x1024x64 [1, 0, 2] (shapeCast S1024x16x64 (extractStridedSlice S1024x1024 ![0, 0]
          (W (Proc.devRef .tc main_v6) : (⟨S1024x3072, .f32⟩ : BufTy).Contents (Elt Ideal)) slices_S1024x3072_S1024x1024_0_0) shapeCasts_S1024x1024_S1024x16x64)
          transposes_S1024x16x64_S16x1024x64_1_0_2 := by
    after_results; rfl
  refine (congrFun ht _).trans ?_
  refine (transpose_apply [1, 0, 2] _ transposes_S1024x16x64_S16x1024x64_1_0_2 (ix3 h n d) (ix3 n h d)
    (fun b => match b with | ⟨0, _⟩ => rfl | ⟨1, _⟩ => rfl | ⟨2, _⟩ => rfl)).trans ?_
  refine (shapeCast_apply _ shapeCasts_S1024x1024_S1024x16x64 (ix3 n h d) (ix2 n (Cert.Spec.col h d)) ?_).trans ?_
  · rewrite [Shape.rowMajor_val_two, Shape.rowMajor_val_three]
    have := h.isLt; have := n.isLt; have := d.isLt
    show n.val * 1024 + (h.val * 64 + d.val) = (n.val * 16 + h.val) * 64 + d.val
    omega
  · exact extractStridedSlice_apply ![0, 0] _ slices_S1024x3072_S1024x1024_0_0 (ix2 n (Cert.Spec.col h d))
      (ix2 n (fcol 0 (Cert.Spec.col h d))) (fun a => match a with
        | ⟨0, _⟩ => by show n.val = 0 + n.val; omega
        | ⟨1, _⟩ => by show 0 * 1024 + (h.val * 64 + d.val) = 0 + (h.val * 64 + d.val); omega)

theorem g1_k (W : Valuation τ sig (Elt Ideal)) (h : Fin 16) (n : Fin 1024) (d : Fin 64) :
    (after (hostOps1 (F := Ideal)) W (Proc.devRef .tc main_v12) : (⟨S16x1024x64, .f32⟩ : BufTy).Contents (Elt Ideal)) (ix3 h n d)
      = (W (Proc.devRef .tc main_v6) : (⟨S1024x3072, .f32⟩ : BufTy).Contents (Elt Ideal)) (ix2 n (fcol 1 (Cert.Spec.col h d))) := by
  have ht : (after (hostOps1 (F := Ideal)) W (Proc.devRef .tc main_v12) : (⟨S16x1024x64, .f32⟩ : BufTy).Contents (Elt Ideal))
      = transpose S16x1024x64 [1, 0, 2] (shapeCast S1024x16x64 (extractStridedSlice S1024x1024 ![0, 1024]
          (W (Proc.devRef .tc main_v6) : (⟨S1024x3072, .f32⟩ : BufTy).Contents (Elt Ideal)) slices_S1024x3072_S1024x1024_0_1024) shapeCasts_S1024x1024_S1024x16x64)
          transposes_S1024x16x64_S16x1024x64_1_0_2 := by
    after_results; rfl
  refine (congrFun ht _).trans ?_
  refine (transpose_apply [1, 0, 2] _ transposes_S1024x16x64_S16x1024x64_1_0_2 (ix3 h n d) (ix3 n h d)
    (fun b => match b with | ⟨0, _⟩ => rfl | ⟨1, _⟩ => rfl | ⟨2, _⟩ => rfl)).trans ?_
  refine (shapeCast_apply _ shapeCasts_S1024x1024_S1024x16x64 (ix3 n h d) (ix2 n (Cert.Spec.col h d)) ?_).trans ?_
  · rewrite [Shape.rowMajor_val_two, Shape.rowMajor_val_three]
    have := h.isLt; have := n.isLt; have := d.isLt
    show n.val * 1024 + (h.val * 64 + d.val) = (n.val * 16 + h.val) * 64 + d.val
    omega
  · exact extractStridedSlice_apply ![0, 1024] _ slices_S1024x3072_S1024x1024_0_1024 (ix2 n (Cert.Spec.col h d))
      (ix2 n (fcol 1 (Cert.Spec.col h d))) (fun a => match a with
        | ⟨0, _⟩ => by show n.val = 0 + n.val; omega
        | ⟨1, _⟩ => by show 1 * 1024 + (h.val * 64 + d.val) = 1024 + (h.val * 64 + d.val); omega)

theorem g1_v (W : Valuation τ sig (Elt Ideal)) (h : Fin 16) (n : Fin 1024) (d : Fin 64) :
    (after (hostOps1 (F := Ideal)) W (Proc.devRef .tc main_v16) : (⟨S16x1024x64, .bf16⟩ : BufTy).Contents (Elt Ideal)) (ix3 h n d)
      = (W (Proc.devRef .tc main_v6) : (⟨S1024x3072, .f32⟩ : BufTy).Contents (Elt Ideal)) (ix2 n (fcol 2 (Cert.Spec.col h d))) := by
  have ht : (after (hostOps1 (F := Ideal)) W (Proc.devRef .tc main_v16) : (⟨S16x1024x64, .bf16⟩ : BufTy).Contents (Elt Ideal))
      = truncf (F := Ideal) .bf16 (transpose S16x1024x64 [1, 0, 2] (shapeCast S1024x16x64 (extractStridedSlice S1024x1024 ![0, 2048]
          (W (Proc.devRef .tc main_v6) : (⟨S1024x3072, .f32⟩ : BufTy).Contents (Elt Ideal)) slices_S1024x3072_S1024x1024_0_2048) shapeCasts_S1024x1024_S1024x16x64)
          transposes_S1024x16x64_S16x1024x64_1_0_2) bitsLt_bf16_f32 := by
    after_results; rfl
  refine (congrFun ht _).trans ?_
  refine (truncf_apply (φ := .f32) (ψ := .bf16) _ bitsLt_bf16_f32 _).trans ?_
  refine (transpose_apply [1, 0, 2] _ transposes_S1024x16x64_S16x1024x64_1_0_2 (ix3 h n d) (ix3 n h d)
    (fun b => match b with | ⟨0, _⟩ => rfl | ⟨1, _⟩ => rfl | ⟨2, _⟩ => rfl)).trans ?_
  refine (shapeCast_apply _ shapeCasts_S1024x1024_S1024x16x64 (ix3 n h d) (ix2 n (Cert.Spec.col h d)) ?_).trans ?_
  · rewrite [Shape.rowMajor_val_two, Shape.rowMajor_val_three]
    have := h.isLt; have := n.isLt; have := d.isLt
    show n.val * 1024 + (h.val * 64 + d.val) = (n.val * 16 + h.val) * 64 + d.val
    omega
  · exact extractStridedSlice_apply ![0, 2048] _ slices_S1024x3072_S1024x1024_0_2048 (ix2 n (Cert.Spec.col h d))
      (ix2 n (fcol 2 (Cert.Spec.col h d))) (fun a => match a with
        | ⟨0, _⟩ => by show n.val = 0 + n.val; omega
        | ⟨1, _⟩ => by show 2 * 1024 + (h.val * 64 + d.val) = 2048 + (h.val * 64 + d.val); omega)

/-- The geometry bias's bias as a 16 × 1 × 1 array. -/
theorem g1_bg (W : Valuation τ sig (Elt Ideal)) (h : Fin 16) :
    (after (hostOps1 (F := Ideal)) W (Proc.devRef .tc main_v17) : (⟨S16x1x1, .f32⟩ : BufTy).Contents (Elt Ideal)) (ix3 h (0 : Fin 1) (0 : Fin 1))
      = (W (Proc.devRef .tc main_arg9) : (⟨S16, .f32⟩ : BufTy).Contents (Elt Ideal)) (ix1 h) := by
  have ht : (after (hostOps1 (F := Ideal)) W (Proc.devRef .tc main_v17) : (⟨S16x1x1, .f32⟩ : BufTy).Contents (Elt Ideal))
      = shapeCast S16x1x1 (W (Proc.devRef .tc main_arg9)) shapeCasts_S16_S16x1x1 := by
    after_results; rfl
  refine (congrFun ht _).trans ?_
  refine shapeCast_apply _ shapeCasts_S16_S16x1x1 (ix3 h (0 : Fin 1) (0 : Fin 1)) (ix1 h) ?_
  rewrite [Shape.rowMajor_val_one, Shape.rowMajor_val_three]
  show h.val = (h.val * 1 + 0) * 1 + 0
  omega

/-- The stretch leaves the arguments the later regions read where they were. -/
theorem g1_keep_arg0 (W : Valuation τ sig (Elt Ideal)) :
    after (hostOps1 (F := Ideal)) W (Proc.devRef .tc main_arg0) = W (Proc.devRef .tc main_arg0) := by after_results
theorem g1_keep_arg1 (W : Valuation τ sig (Elt Ideal)) :
    after (hostOps1 (F := Ideal)) W (Proc.devRef .tc main_arg1) = W (Proc.devRef .tc main_arg1) := by after_results
theorem g1_keep_arg8 (W : Valuation τ sig (Elt Ideal)) :
    after (hostOps1 (F := Ideal)) W (Proc.devRef .tc main_arg8) = W (Proc.devRef .tc main_arg8) := by after_results
theorem g1_keep_arg10 (W : Valuation τ sig (Elt Ideal)) :
    after (hostOps1 (F := Ideal)) W (Proc.devRef .tc main_arg10) = W (Proc.devRef .tc main_arg10) := by after_results
theorem g1_keep_arg11 (W : Valuation τ sig (Elt Ideal)) :
    after (hostOps1 (F := Ideal)) W (Proc.devRef .tc main_arg11) = W (Proc.devRef .tc main_arg11) := by after_results

/-! ## The stretch before the third region: the heads' outputs laid side by side, the output weights transposed, the
    output bias as a row -/

/-- Row n, column e of the side-by-side array is head e / 64, row n, lane e % 64 of the head-major one. -/
theorem g2_y (W : Valuation τ sig (Elt Ideal)) (n e : Fin 1024) :
    (after (hostOps2 (F := Ideal)) W (Proc.devRef .tc main_v20) : (⟨S1024x1024, .bf16⟩ : BufTy).Contents (Elt Ideal)) (ix2 n e)
      = (W (Proc.devRef .tc main_v18) : (⟨S16x1024x64, .bf16⟩ : BufTy).Contents (Elt Ideal)) (ix3 (Cert.Spec.headOf e) n (Cert.Spec.laneOf e)) := by
  have ht : (after (hostOps2 (F := Ideal)) W (Proc.devRef .tc main_v20) : (⟨S1024x1024, .bf16⟩ : BufTy).Contents (Elt Ideal))
      = shapeCast S1024x1024 (transpose S1024x16x64 [1, 0, 2] (W (Proc.devRef .tc main_v18))
          transposes_S16x1024x64_S1024x16x64_1_0_2) shapeCasts_S1024x16x64_S1024x1024 := by
    after_results; rfl
  refine (congrFun ht _).trans ?_
  refine (shapeCast_apply _ shapeCasts_S1024x16x64_S1024x1024 (ix2 n e)
    (ix3 n (Cert.Spec.headOf e) (Cert.Spec.laneOf e)) ?_).trans ?_
  · rewrite [Shape.rowMajor_val_three, Shape.rowMajor_val_two]
    have := n.isLt; have := e.isLt
    show (n.val * 16 + e.val / 64) * 64 + e.val % 64 = n.val * 1024 + e.val
    omega
  · exact transpose_apply [1, 0, 2] _ transposes_S16x1024x64_S1024x16x64_1_0_2
      (ix3 n (Cert.Spec.headOf e) (Cert.Spec.laneOf e)) (ix3 (Cert.Spec.headOf e) n (Cert.Spec.laneOf e))
      (fun b => match b with | ⟨0, _⟩ => rfl | ⟨1, _⟩ => rfl | ⟨2, _⟩ => rfl)

/-- The transposed output weights (the change of format is the identity on extended reals). -/
theorem g2_wy (W : Valuation τ sig (Elt Ideal)) (e c' : Fin 1024) :
    (after (hostOps2 (F := Ideal)) W (Proc.devRef .tc main_v22) : (⟨S1024x1024, .bf16⟩ : BufTy).Contents (Elt Ideal)) (ix2 e c')
      = (W (Proc.devRef .tc main_arg10) : (⟨S1024x1024, .f32⟩ : BufTy).Contents (Elt Ideal)) (ix2 c' e) := by
  have ht : (after (hostOps2 (F := Ideal)) W (Proc.devRef .tc main_v22) : (⟨S1024x1024, .bf16⟩ : BufTy).Contents (Elt Ideal))
      = truncf (F := Ideal) .bf16 (transpose S1024x1024 [1, 0] (W (Proc.devRef .tc main_arg10) : (⟨S1024x1024, .f32⟩ : BufTy).Contents (Elt Ideal))
          transposes_S1024x1024_S1024x1024_1_0) bitsLt_bf16_f32 := by
    after_results
  refine (congrFun ht _).trans ?_
  refine (truncf_apply (φ := .f32) (ψ := .bf16) _ bitsLt_bf16_f32 _).trans ?_
  exact transpose_apply [1, 0] _ transposes_S1024x1024_S1024x1024_1_0 (ix2 e c') (ix2 c' e)
    (fun b => match b with | ⟨0, _⟩ => rfl | ⟨1, _⟩ => rfl)

/-- The output bias as a one-row matrix. -/
theorem g2_bo (W : Valuation τ sig (Elt Ideal)) (c' : Fin 1024) :
    (after (hostOps2 (F := Ideal)) W (Proc.devRef .tc main_v23) : (⟨S1x1024, .f32⟩ : BufTy).Contents (Elt Ideal)) (ix2 (0 : Fin 1) c')
      = (W (Proc.devRef .tc main_arg11) : (⟨S1024, .f32⟩ : BufTy).Contents (Elt Ideal)) (ix1 c') := by
  have ht : (after (hostOps2 (F := Ideal)) W (Proc.devRef .tc main_v23) : (⟨S1x1024, .f32⟩ : BufTy).Contents (Elt Ideal))
      = shapeCast S1x1024 (W (Proc.devRef .tc main_arg11)) shapeCasts_S1024_S1x1024 := by
    after_results; rfl
  refine (congrFun ht _).trans ?_
  refine shapeCast_apply _ shapeCasts_S1024_S1x1024 (ix2 (0 : Fin 1) c') (ix1 c') ?_
  rewrite [Shape.rowMajor_val_one, Shape.rowMajor_val_two]
  show c'.val = 0 * 1024 + c'.val
  omega

/-- The stretch leaves x where it was. -/
theorem g2_keep_arg0 (W : Valuation τ sig (Elt Ideal)) :
    after (hostOps2 (F := Ideal)) W (Proc.devRef .tc main_arg0) = W (Proc.devRef .tc main_arg0) := by
  after_results

end Cert.KernelIdeal.Glue
end
-- ==== Proof.IdealValueIn.lean ====
/-
  What the attention region finds in its input arrays, in terms of the launch arguments: the three head-major
  projections (the fused projection kernel's result, cut into its three column blocks, split into heads and
  transposed), the pair embedding and the geometry weights untouched, and the geometry bias as a column.
-/
import proofs.«153090_j59820304499077_2_alg».proof.Proof.IdealArgs
import proofs.«153090_j59820304499077_2_alg».proof.Proof.IdealFinal0
import proofs.«153090_j59820304499077_2_alg».proof.Proof.IdealGlue
import proofs.«153090_j59820304499077_2_alg».proof.Proof.RefSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelIdeal.Glue (fcol)

variable (m : (ℓ : Loc nD τ sig) → Buf (Elt Ideal) ℓ) (ρ : Dev nD → PrngReg) (c : Dev nD)

/-- The q array the attention region finds is the q projection of the launch arguments: the fused projection's
    column block 0, cut out, split into heads and transposed. -/
theorem q_eq (h : Fin 16) (n : Fin 1024) (d : Fin 64) :
    (Vw3 m ρ c main_v9 : (⟨S16x1024x64, .f32⟩ : BufTy).Contents (Elt Ideal)) (ix3 h n d)
      = Cert.Spec.proj (m ((c : Thread nD τ).loc main_arg0)) (m ((c : Thread nD τ).loc main_arg2)) (m ((c : Thread nD τ).loc main_arg3)) h n d := by
  refine (Glue.g1_q (W2 m ρ c) h n d).trans ?_
  rw [show (W2 m ρ c (Proc.devRef .tc main_v6)) = (dat0 (Vw1 m ρ) c).arrAt 3 cfg0.N from W2_arr m ρ c 3]
  rw [final0 (Vw1 m ρ) c, G0_apply]
  unfold Cert.Spec.proj
  congr 1
  · refine Finset.sum_congr rfl fun e _ => ?_
    exact congrArg₂ (· * ·) (congrFun (W1_main_arg0 m ρ c) (ix2 n e)) (Glue.g0_wq (W0 m ρ c) e (Cert.Spec.col h d))
  · exact Glue.g0_bq (W0 m ρ c) (Cert.Spec.col h d)

/-- The k array the attention region finds is the k projection of the launch arguments: the fused projection's
    column block 1, cut out, split into heads and transposed. -/
theorem k_eq (h : Fin 16) (n : Fin 1024) (d : Fin 64) :
    (Vw3 m ρ c main_v12 : (⟨S16x1024x64, .f32⟩ : BufTy).Contents (Elt Ideal)) (ix3 h n d)
      = Cert.Spec.proj (m ((c : Thread nD τ).loc main_arg0)) (m ((c : Thread nD τ).loc main_arg4)) (m ((c : Thread nD τ).loc main_arg5)) h n d := by
  refine (Glue.g1_k (W2 m ρ c) h n d).trans ?_
  rw [show (W2 m ρ c (Proc.devRef .tc main_v6)) = (dat0 (Vw1 m ρ) c).arrAt 3 cfg0.N from W2_arr m ρ c 3]
  rw [final0 (Vw1 m ρ) c, G0_apply]
  unfold Cert.Spec.proj
  congr 1
  · refine Finset.sum_congr rfl fun e _ => ?_
    exact congrArg₂ (· * ·) (congrFun (W1_main_arg0 m ρ c) (ix2 n e)) (Glue.g0_wk (W0 m ρ c) e (Cert.Spec.col h d))
  · exact Glue.g0_bk (W0 m ρ c) (Cert.Spec.col h d)

/-- The v array the attention region finds is the v projection of the launch arguments: the fused projection's
    column block 2, cut out, split into heads and transposed. -/
theorem v_eq (h : Fin 16) (n : Fin 1024) (d : Fin 64) :
    (Vw3 m ρ c main_v16 : (⟨S16x1024x64, .bf16⟩ : BufTy).Contents (Elt Ideal)) (ix3 h n d)
      = Cert.Spec.proj (m ((c : Thread nD τ).loc main_arg0)) (m ((c : Thread nD τ).loc main_arg6)) (m ((c : Thread nD τ).loc main_arg7)) h n d := by
  refine (Glue.g1_v (W2 m ρ c) h n d).trans ?_
  rw [show (W2 m ρ c (Proc.devRef .tc main_v6)) = (dat0 (Vw1 m ρ) c).arrAt 3 cfg0.N from W2_arr m ρ c 3]
  rw [final0 (Vw1 m ρ) c, G0_apply]
  unfold Cert.Spec.proj
  congr 1
  · refine Finset.sum_congr rfl fun e _ => ?_
    exact congrArg₂ (· * ·) (congrFun (W1_main_arg0 m ρ c) (ix2 n e)) (Glue.g0_wv (W0 m ρ c) e (Cert.Spec.col h d))
  · exact Glue.g0_bv (W0 m ρ c) (Cert.Spec.col h d)

/-- The pair embedding and the geometry weights reach the attention region as launched. -/
theorem pe_eq : Vw3 m ρ c main_arg1 = m ((c : Thread nD τ).loc main_arg1) := W3_main_arg1 m ρ c
theorem wg_eq : Vw3 m ρ c main_arg8 = m ((c : Thread nD τ).loc main_arg8) := W3_main_arg8 m ρ c
/-- The geometry bias reaches it as a 16 × 1 × 1 column of the launched vector. -/
theorem bg_eq (h : Fin 16) :
    (Vw3 m ρ c main_v17 : (⟨S16x1x1, .f32⟩ : BufTy).Contents (Elt Ideal)) (ix3 h (0 : Fin 1) (0 : Fin 1))
      = (m ((c : Thread nD τ).loc main_arg9) : (⟨S16, .f32⟩ : BufTy).Contents (Elt Ideal)) (ix1 h) := by
  refine (Glue.g1_bg (W2 m ρ c) h).trans ?_
  exact congrFun (W2_main_arg9 m ρ c) (ix1 h)

end Cert.KernelIdeal.Hand

end
-- ==== Proof.IdealPieces1.lean ====
/-
  The attention kernel's scratch buffers and stored output block after one point, as the body's named arithmetic of
  the point's input blocks and of what the scratch buffers held: the pieces the whole-body runs found, opened. Stated
  at any float instance.
-/
import proofs.«153090_j59820304499077_2_alg».proof.Proof.IdealRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; fin_cases a <;> rfl
theorem hz2b : (![0, 0] : Fin 2 → Nat) = fun _ => 0 := by funext a; fin_cases a <;> rfl

/-- Scratch buffer 0 after the body at a first key block: the new running maximum of the point's blocks from the reset statistics. -/
theorem sout1_A_0_eq (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) :
    sout1_A_0 c i arg2 harg2 arg3 harg3 arg4 harg4 arg5 harg5 arg6 harg6 arg7 harg7 arg8 harg8 arg9 harg9 arg10 harg10 arg11 harg11 hc0 hc1 x0 x1 x2 x3 x4 x5 = k1_pay5 (k1_pay12 x0 x1 x3 x4 x5 (k1_pay7 (F := F))) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_words
  rw [View.canon_cons_unit_zero hz3]
  simp only [View.readAt_eq_ld, harg2.read_unread, harg3.read_unread, harg4.read_unread, harg5.read_unread, harg6.read_unread, harg7.read_unread, harg9.read_unread, harg10.read_unread, harg11.read_unread, View.ld_unit_zero (S := S16x128x64) hz3, View.ld_unit_zero (S := S128x128x64) hz3, View.ld_unit_zero (S := S16x1x1) hz3, View.ld_unit_zero (S := S16x128x1) hz3, View.ld_unit_zero (S := S16x64) hz2b, View.readCov_unit_zero (S := S16x128x1) _ hz3, View.readCov_unit_zero (S := S16x128x64) _ hz3]

/-- Scratch buffer 1 after the body at a first key block: the new running sum of the point's blocks from the reset statistics. -/
theorem sout1_A_1_eq (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) :
    sout1_A_1 c i arg2 harg2 arg3 harg3 arg4 harg4 arg5 harg5 arg6 harg6 arg7 harg7 arg8 harg8 arg9 harg9 arg10 harg10 arg11 harg11 hc0 hc1 x0 x1 x2 x3 x4 x5 = k1_pay3 (k1_pay11 x0 x1 x3 x4 x5) (k1_pay12 x0 x1 x3 x4 x5 (k1_pay7 (F := F))) (k1_pay7 (F := F)) (k1_pay8 (F := F)) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_words
  rw [View.canon_cons_unit_zero hz3]
  simp only [View.readAt_eq_ld, harg2.read_unread, harg3.read_unread, harg4.read_unread, harg5.read_unread, harg6.read_unread, harg7.read_unread, harg9.read_unread, harg10.read_unread, harg11.read_unread, View.ld_unit_zero (S := S16x128x64) hz3, View.ld_unit_zero (S := S128x128x64) hz3, View.ld_unit_zero (S := S16x1x1) hz3, View.ld_unit_zero (S := S16x128x1) hz3, View.ld_unit_zero (S := S16x64) hz2b, View.readCov_unit_zero (S := S16x128x1) _ hz3, View.readCov_unit_zero (S := S16x128x64) _ hz3]

/-- Scratch buffer 2 after the body at a first key block: the new running weighted sum of the point's blocks from the reset statistics. -/
theorem sout1_A_2_eq (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) :
    sout1_A_2 c i arg2 harg2 arg3 harg3 arg4 harg4 arg5 harg5 arg6 harg6 arg7 harg7 arg8 harg8 arg9 harg9 arg10 harg10 arg11 harg11 hc0 hc1 x0 x1 x2 x3 x4 x5 = k1_pay4 (k1_pay10 x2) (k1_pay11 x0 x1 x3 x4 x5) (k1_pay12 x0 x1 x3 x4 x5 (k1_pay7 (F := F))) (k1_pay7 (F := F)) (k1_pay9 (F := F)) := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_words
  rw [View.canon_cons_unit_zero hz3]
  simp only [View.readAt_eq_ld, harg2.read_unread, harg3.read_unread, harg4.read_unread, harg5.read_unread, harg6.read_unread, harg7.read_unread, harg9.read_unread, harg10.read_unread, harg11.read_unread, View.ld_unit_zero (S := S16x128x64) hz3, View.ld_unit_zero (S := S128x128x64) hz3, View.ld_unit_zero (S := S16x1x1) hz3, View.ld_unit_zero (S := S16x128x1) hz3, View.ld_unit_zero (S := S16x64) hz2b, View.readCov_unit_zero (S := S16x128x1) _ hz3, View.readCov_unit_zero (S := S16x128x64) _ hz3]

/-- Scratch buffer 0 after the body at a middle key block: the new running maximum of the point's blocks and what the point before left. -/
theorem sout1_B_0_eq (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) :
    sout1_B_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay5 (k1_pay12 x0 x1 x3 x4 x5 xs0) := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_B
  dsimp only
  sl_unfold_words
  rw [View.canon_cons_unit_zero hz3]
  simp only [View.readAt_eq_ld, harg2.read_unread, harg3.read_unread, harg4.read_unread, harg5.read_unread, harg6.read_unread, harg7.read_unread, harg9.read_unread, harg10.read_unread, harg11.read_unread, View.ld_unit_zero (S := S16x128x64) hz3, View.ld_unit_zero (S := S128x128x64) hz3, View.ld_unit_zero (S := S16x1x1) hz3, View.ld_unit_zero (S := S16x128x1) hz3, View.ld_unit_zero (S := S16x64) hz2b, View.readCov_unit_zero (S := S16x128x1) _ hz3, View.readCov_unit_zero (S := S16x128x64) _ hz3]

/-- Scratch buffer 1 after the body at a middle key block: the new running sum of the point's blocks and what the point before left. -/
theorem sout1_B_1_eq (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) :
    sout1_B_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay3 (k1_pay11 x0 x1 x3 x4 x5) (k1_pay12 x0 x1 x3 x4 x5 xs0) xs0 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_B
  dsimp only
  sl_unfold_words
  rw [View.canon_cons_unit_zero hz3]
  simp only [View.readAt_eq_ld, harg2.read_unread, harg3.read_unread, harg4.read_unread, harg5.read_unread, harg6.read_unread, harg7.read_unread, harg9.read_unread, harg10.read_unread, harg11.read_unread, View.ld_unit_zero (S := S16x128x64) hz3, View.ld_unit_zero (S := S128x128x64) hz3, View.ld_unit_zero (S := S16x1x1) hz3, View.ld_unit_zero (S := S16x128x1) hz3, View.ld_unit_zero (S := S16x64) hz2b, View.readCov_unit_zero (S := S16x128x1) _ hz3, View.readCov_unit_zero (S := S16x128x64) _ hz3]

/-- Scratch buffer 2 after the body at a middle key block: the new running weighted sum of the point's blocks and what the point before left. -/
theorem sout1_B_2_eq (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : ¬cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) :
    sout1_B_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay4 (k1_pay10 x2) (k1_pay11 x0 x1 x3 x4 x5) (k1_pay12 x0 x1 x3 x4 x5 xs0) xs0 xs2 := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_B
  dsimp only
  sl_unfold_words
  rw [View.canon_cons_unit_zero hz3]
  simp only [View.readAt_eq_ld, harg2.read_unread, harg3.read_unread, harg4.read_unread, harg5.read_unread, harg6.read_unread, harg7.read_unread, harg9.read_unread, harg10.read_unread, harg11.read_unread, View.ld_unit_zero (S := S16x128x64) hz3, View.ld_unit_zero (S := S128x128x64) hz3, View.ld_unit_zero (S := S16x1x1) hz3, View.ld_unit_zero (S := S16x128x1) hz3, View.ld_unit_zero (S := S16x64) hz2b, View.readCov_unit_zero (S := S16x128x1) _ hz3, View.readCov_unit_zero (S := S16x128x64) _ hz3]

/-- Scratch buffer 0 after the body at a last key block: the new running maximum of the point's blocks and what the point before left. -/
theorem sout1_C_0_eq (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) :
    sout1_C_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay5 (k1_pay12 x0 x1 x3 x4 x5 xs0) := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_C
  dsimp only
  sl_unfold_words
  rw [View.canon_cons_unit_zero hz3]
  simp only [View.readAt_eq_ld, harg2.read_unread, harg3.read_unread, harg4.read_unread, harg5.read_unread, harg6.read_unread, harg7.read_unread, harg9.read_unread, harg10.read_unread, harg11.read_unread, View.ld_unit_zero (S := S16x128x64) hz3, View.ld_unit_zero (S := S128x128x64) hz3, View.ld_unit_zero (S := S16x1x1) hz3, View.ld_unit_zero (S := S16x128x1) hz3, View.ld_unit_zero (S := S16x64) hz2b, View.readCov_unit_zero (S := S16x128x1) _ hz3, View.readCov_unit_zero (S := S16x128x64) _ hz3]

/-- Scratch buffer 1 after the body at a last key block: the new running sum of the point's blocks and what the point before left. -/
theorem sout1_C_1_eq (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) :
    sout1_C_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay3 (k1_pay11 x0 x1 x3 x4 x5) (k1_pay12 x0 x1 x3 x4 x5 xs0) xs0 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_C
  dsimp only
  sl_unfold_words
  rw [View.canon_cons_unit_zero hz3]
  simp only [View.readAt_eq_ld, harg2.read_unread, harg3.read_unread, harg4.read_unread, harg5.read_unread, harg6.read_unread, harg7.read_unread, harg9.read_unread, harg10.read_unread, harg11.read_unread, View.ld_unit_zero (S := S16x128x64) hz3, View.ld_unit_zero (S := S128x128x64) hz3, View.ld_unit_zero (S := S16x1x1) hz3, View.ld_unit_zero (S := S16x128x1) hz3, View.ld_unit_zero (S := S16x64) hz2b, View.readCov_unit_zero (S := S16x128x1) _ hz3, View.readCov_unit_zero (S := S16x128x64) _ hz3]

/-- Scratch buffer 2 after the body at a last key block: the new running weighted sum of the point's blocks and what the point before left. -/
theorem sout1_C_2_eq (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) :
    sout1_C_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay4 (k1_pay10 x2) (k1_pay11 x0 x1 x3 x4 x5) (k1_pay12 x0 x1 x3 x4 x5 xs0) xs0 xs2 := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_C
  dsimp only
  sl_unfold_words
  rw [View.canon_cons_unit_zero hz3]
  simp only [View.readAt_eq_ld, harg2.read_unread, harg3.read_unread, harg4.read_unread, harg5.read_unread, harg6.read_unread, harg7.read_unread, harg9.read_unread, harg10.read_unread, harg11.read_unread, View.ld_unit_zero (S := S16x128x64) hz3, View.ld_unit_zero (S := S128x128x64) hz3, View.ld_unit_zero (S := S16x1x1) hz3, View.ld_unit_zero (S := S16x128x1) hz3, View.ld_unit_zero (S := S16x64) hz2b, View.readCov_unit_zero (S := S16x128x1) _ hz3, View.readCov_unit_zero (S := S16x128x64) _ hz3]

/-- The output block stored at a last key block: the new weighted sum divided by the new sum. -/
theorem out1_C_6_eq (c : Dev nD) (i : grid1.Coords) (arg2 : Memref sig .tc .vmem S16x128x64 .f32) (harg2 : arg2.IsWhole) (arg3 : Memref sig .tc .vmem S16x128x64 .f32) (harg3 : arg3.IsWhole) (arg4 : Memref sig .tc .vmem S16x128x64 .bf16) (harg4 : arg4.IsWhole) (arg5 : Memref sig .tc .vmem S128x128x64 .f32) (harg5 : arg5.IsWhole) (arg6 : Memref sig .tc .vmem S16x64 .f32) (harg6 : arg6.IsWhole) (arg7 : Memref sig .tc .vmem S16x1x1 .f32) (harg7 : arg7.IsWhole) (arg8 : Memref sig .tc .vmem S16x128x64 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x64 .f32) (harg11 : arg11.IsWhole) (hc0 : ¬cond1_0 i) (hc1 : cond1_1 i)
    (x0 : Vec F S16x128x64 .f32) (x1 : Vec F S16x128x64 .f32) (x2 : Vec F S16x128x64 .bf16) (x3 : Vec F S128x128x64 .f32) (x4 : Vec F S16x64 .f32) (x5 : Vec F S16x1x1 .f32) (xs0 : Vec F S16x128x1 .f32) (xs1 : Vec F S16x128x1 .f32) (xs2 : Vec F S16x128x64 .f32) :
    out1_C_6 c i arg2 harg2 arg3 harg3 arg4 harg4 arg5 harg5 arg6 harg6 arg7 harg7 arg8 harg8 arg9 harg9 arg10 harg10 arg11 harg11 hc0 hc1 x0 x1 x2 x3 x4 x5 xs0 xs1 xs2
      = k1_pay6 (k1_pay4 (k1_pay10 x2) (k1_pay11 x0 x1 x3 x4 x5) (k1_pay12 x0 x1 x3 x4 x5 xs0) xs0 xs2) (k1_pay3 (k1_pay11 x0 x1 x3 x4 x5) (k1_pay12 x0 x1 x3 x4 x5 xs0) xs0 xs1) := by
  unfold out1_C_6
  rw [View.read_writes_eq_canon _ _ _ (cover1_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun1_C
  dsimp only
  sl_unfold_words
  rw [View.canon_unit_zero hz3]
  simp only [View.readAt_eq_ld, harg2.read_unread, harg3.read_unread, harg4.read_unread, harg5.read_unread, harg6.read_unread, harg7.read_unread, harg9.read_unread, harg10.read_unread, harg11.read_unread, View.ld_unit_zero (S := S16x128x64) hz3, View.ld_unit_zero (S := S128x128x64) hz3, View.ld_unit_zero (S := S16x1x1) hz3, View.ld_unit_zero (S := S16x128x1) hz3, View.ld_unit_zero (S := S16x64) hz2b, View.readCov_unit_zero (S := S16x128x1) _ hz3, View.readCov_unit_zero (S := S16x128x64) _ hz3]

end Cert.KernelIdeal.Hand

end
-- ==== Proof.IdealBlocks1.lean ====
/-
  The attention kernel's blocks. The grid is 8 × 8: point t works on query block t / 8 (128 query
  rows) and key block t % 8 (128 keys), the key block innermost. Each input window's block at a point
  is the named rows of its array; the output window's block at a point is the query block's 128 rows,
  written back at a query block's last key block only, and those blocks tile the output's 1024 rows.
-/
import proofs.«153090_j59820304499077_2_alg».proof.Proof.IdealRegion1Base
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The index maps over the 64 grid points: the queries' and the output's windows are at row block t / 8, the
    keys' and the values' at row block t % 8, the geometry's at (t / 8, t % 8); every other block index is 0. -/
theorem idx_facts1 : ∀ t : Fin cfg1.N,
    (win1_0.index t (0 : Fin 3) = 0 ∧ win1_0.index t (1 : Fin 3) = t.val / 8 ∧ win1_0.index t (2 : Fin 3) = 0)
    ∧ (win1_1.index t (0 : Fin 3) = 0 ∧ win1_1.index t (1 : Fin 3) = t.val % 8 ∧ win1_1.index t (2 : Fin 3) = 0)
    ∧ (win1_2.index t (0 : Fin 3) = 0 ∧ win1_2.index t (1 : Fin 3) = t.val % 8 ∧ win1_2.index t (2 : Fin 3) = 0)
    ∧ (win1_3.index t (0 : Fin 3) = t.val / 8 ∧ win1_3.index t (1 : Fin 3) = t.val % 8 ∧ win1_3.index t (2 : Fin 3) = 0)
    ∧ (win1_4.index t (0 : Fin 2) = 0 ∧ win1_4.index t (1 : Fin 2) = 0)
    ∧ (win1_5.index t (0 : Fin 3) = 0 ∧ win1_5.index t (1 : Fin 3) = 0 ∧ win1_5.index t (2 : Fin 3) = 0)
    ∧ (win1_6.index t (0 : Fin 3) = 0 ∧ win1_6.index t (1 : Fin 3) = t.val / 8 ∧ win1_6.index t (2 : Fin 3) = 0) :=
  (by decide +kernel : ∀ t : Fin grid1.N, _)

/-- The grid has 64 points. -/
theorem lt_sixtyfour (t : Fin cfg1.N) : t.val < 64 := by
  have h := t.isLt
  have hN : cfg1.N = 64 := N_1
  omega

/-! ### The input blocks read at coordinates -/

/-- The queries' block at point t is rows 128 (t / 8) … of every head. -/
theorem iblk1_0_apply (c : Dev nD) (t : Fin cfg1.N) (h : Fin 16) (r : Fin 128) (d : Fin 64) (n : Fin 1024)
    (hn : n.val = (t.val / 8) * 128 + r.val) :
    (iblk1 (F := Ideal) V c 0 t : Vec Ideal S16x128x64 .f32) (ix3 h r d)
      = (V c main_v9 : S16x1024x64.Idx → EReal) (ix3 h n d) := by
  obtain ⟨⟨e0, e1, e2⟩, -⟩ := idx_facts1 t
  unfold iblk1
  rw [View.read_apply]
  show V c main_v9 _ = V c main_v9 _
  congr 1
  funext a
  apply Fin.ext
  match a with
  | ⟨0, _⟩ => show win1_0.index t (0 : Fin 3) * 16 + 1 * h.val = h.val; omega
  | ⟨1, _⟩ => show win1_0.index t (1 : Fin 3) * 128 + 1 * r.val = n.val; omega
  | ⟨2, _⟩ => show win1_0.index t (2 : Fin 3) * 64 + 1 * d.val = d.val; omega

/-- The keys' block at point t is rows 128 (t % 8) … of every head. -/
theorem iblk1_1_apply (c : Dev nD) (t : Fin cfg1.N) (h : Fin 16) (k : Fin 128) (d : Fin 64) (m : Fin 1024)
    (hm : m.val = (t.val % 8) * 128 + k.val) :
    (iblk1 (F := Ideal) V c 1 t : Vec Ideal S16x128x64 .f32) (ix3 h k d)
      = (V c main_v12 : S16x1024x64.Idx → EReal) (ix3 h m d) := by
  obtain ⟨-, ⟨e0, e1, e2⟩, -⟩ := idx_facts1 t
  unfold iblk1
  rw [View.read_apply]
  show V c main_v12 _ = V c main_v12 _
  congr 1
  funext a
  apply Fin.ext
  match a with
  | ⟨0, _⟩ => show win1_1.index t (0 : Fin 3) * 16 + 1 * h.val = h.val; omega
  | ⟨1, _⟩ => show win1_1.index t (1 : Fin 3) * 128 + 1 * k.val = m.val; omega
  | ⟨2, _⟩ => show win1_1.index t (2 : Fin 3) * 64 + 1 * d.val = d.val; omega

/-- The values' block at point t is rows 128 (t % 8) … of every head. -/
theorem iblk1_2_apply (c : Dev nD) (t : Fin cfg1.N) (h : Fin 16) (k : Fin 128) (d : Fin 64) (m : Fin 1024)
    (hm : m.val = (t.val % 8) * 128 + k.val) :
    (iblk1 (F := Ideal) V c 2 t : Vec Ideal S16x128x64 .bf16) (ix3 h k d)
      = (V c main_v16 : S16x1024x64.Idx → EReal) (ix3 h m d) := by
  obtain ⟨-, -, ⟨e0, e1, e2⟩, -⟩ := idx_facts1 t
  unfold iblk1
  rw [View.read_apply]
  show V c main_v16 _ = V c main_v16 _
  congr 1
  funext a
  apply Fin.ext
  match a with
  | ⟨0, _⟩ => show win1_2.index t (0 : Fin 3) * 16 + 1 * h.val = h.val; omega
  | ⟨1, _⟩ => show win1_2.index t (1 : Fin 3) * 128 + 1 * k.val = m.val; omega
  | ⟨2, _⟩ => show win1_2.index t (2 : Fin 3) * 64 + 1 * d.val = d.val; omega

/-- The geometry's block at point t is query rows 128 (t / 8) … by key rows 128 (t % 8) …. -/
theorem iblk1_3_apply (c : Dev nD) (t : Fin cfg1.N) (r k : Fin 128) (d : Fin 64) (n m : Fin 1024)
    (hn : n.val = (t.val / 8) * 128 + r.val) (hm : m.val = (t.val % 8) * 128 + k.val) :
    (iblk1 (F := Ideal) V c 3 t : Vec Ideal S128x128x64 .f32) (ix3 r k d)
      = (V c main_arg1 : S1024x1024x64.Idx → EReal) (ix3 n m d) := by
  obtain ⟨-, -, -, ⟨e0, e1, e2⟩, -⟩ := idx_facts1 t
  unfold iblk1
  rw [View.read_apply]
  show V c main_arg1 _ = V c main_arg1 _
  congr 1
  funext a
  apply Fin.ext
  match a with
  | ⟨0, _⟩ => show win1_3.index t (0 : Fin 3) * 128 + 1 * r.val = n.val; omega
  | ⟨1, _⟩ => show win1_3.index t (1 : Fin 3) * 128 + 1 * k.val = m.val; omega
  | ⟨2, _⟩ => show win1_3.index t (2 : Fin 3) * 64 + 1 * d.val = d.val; omega

/-- The geometry weights' block at every point is the whole matrix. -/
theorem iblk1_4_apply (c : Dev nD) (t : Fin cfg1.N) (h : Fin 16) (d : Fin 64) :
    (iblk1 (F := Ideal) V c 4 t : Vec Ideal S16x64 .f32) (ix2 h d)
      = (V c main_arg8 : S16x64.Idx → EReal) (ix2 h d) := by
  obtain ⟨-, -, -, -, ⟨e0, e1⟩, -⟩ := idx_facts1 t
  unfold iblk1
  rw [View.read_apply]
  show V c main_arg8 _ = V c main_arg8 _
  congr 1
  funext a
  apply Fin.ext
  match a with
  | ⟨0, _⟩ => show win1_4.index t (0 : Fin 2) * 16 + 1 * h.val = h.val; omega
  | ⟨1, _⟩ => show win1_4.index t (1 : Fin 2) * 64 + 1 * d.val = d.val; omega

/-- The geometry bias column's block at every point is the whole column. -/
theorem iblk1_5_apply (c : Dev nD) (t : Fin cfg1.N) (h : Fin 16) (z z' : Fin 1) :
    (iblk1 (F := Ideal) V c 5 t : Vec Ideal S16x1x1 .f32) (ix3 h z z')
      = (V c main_v17 : S16x1x1.Idx → EReal) (ix3 h z z') := by
  obtain ⟨-, -, -, -, -, ⟨e0, e1, e2⟩, -⟩ := idx_facts1 t
  unfold iblk1
  rw [View.read_apply]
  show V c main_v17 _ = V c main_v17 _
  congr 1
  funext a
  apply Fin.ext
  match a with
  | ⟨0, _⟩ => show win1_5.index t (0 : Fin 3) * 16 + 1 * h.val = h.val; omega
  | ⟨1, _⟩ => show win1_5.index t (1 : Fin 3) * 1 + 1 * z.val = z.val; omega
  | ⟨2, _⟩ => show win1_5.index t (2 : Fin 3) * 1 + 1 * z'.val = z'.val; omega

/-! ### The output window -/

/-- A block index (h, r, d) of the output's block at point t sits at (h, 128 (t / 8) + r, d) of the array. -/
theorem emb1_6 (t : Fin cfg1.N) (h : Fin 16) (r : Fin 128) (d : Fin 64) (n : Fin 1024)
    (hn : n.val = (t.val / 8) * 128 + r.val) :
    ((cfg1.win 6).blk t).view.emb (ix3 h r d) = ix3 h n d := by
  obtain ⟨-, -, -, -, -, -, ⟨e0, e1, e2⟩⟩ := idx_facts1 t
  funext a
  apply Fin.ext
  match a with
  | ⟨0, _⟩ => show win1_6.index t (0 : Fin 3) * 16 + 1 * h.val = h.val; omega
  | ⟨1, _⟩ => show win1_6.index t (1 : Fin 3) * 128 + 1 * r.val = n.val; omega
  | ⟨2, _⟩ => show win1_6.index t (2 : Fin 3) * 64 + 1 * d.val = d.val; omega

/-- An index of the output array is in point t's block iff each coordinate is in the block's range on its axis. -/
theorem mem_blk1 (t : Fin cfg1.N) (i : S16x1024x64.Idx) :
    i ∈ ((cfg1.win 6).blk t).view.set
      ↔ ∀ a : Fin 3, win1_6.index t a * S16x128x64.size a ≤ (i a).val
          ∧ (i a).val < win1_6.index t a * S16x128x64.size a + S16x128x64.size a := by
  show i ∈ ((View.whole main_v18).slice (win1_6.rect t)).set ↔ _
  rw [View.set_slice_whole, Rect.mem_set_unit]
  exact Iff.rfl

/-- … that is, iff its row is among the 128 rows of query block t / 8. -/
theorem mem_blk1_iff (t : Fin cfg1.N) (i : S16x1024x64.Idx) :
    i ∈ ((cfg1.win 6).blk t).view.set
      ↔ (t.val / 8) * 128 ≤ (i 1).val ∧ (i 1).val < (t.val / 8) * 128 + 128 := by
  obtain ⟨-, -, -, -, -, -, ⟨e0, e1, e2⟩⟩ := idx_facts1 t
  have hi0 : (i 0).val < 16 := (i 0).isLt
  have hi2 : (i 2).val < 64 := (i 2).isLt
  rw [mem_blk1]
  constructor
  · intro hi
    have b1 : win1_6.index t (1 : Fin 3) * 128 ≤ (i 1).val ∧ (i 1).val < win1_6.index t (1 : Fin 3) * 128 + 128 := hi 1
    omega
  · intro hi a
    match a with
    | ⟨0, _⟩ =>
      show win1_6.index t (0 : Fin 3) * 16 ≤ (i 0).val ∧ (i 0).val < win1_6.index t (0 : Fin 3) * 16 + 16
      omega
    | ⟨1, _⟩ =>
      show win1_6.index t (1 : Fin 3) * 128 ≤ (i 1).val ∧ (i 1).val < win1_6.index t (1 : Fin 3) * 128 + 128
      omega
    | ⟨2, _⟩ =>
      show win1_6.index t (2 : Fin 3) * 64 ≤ (i 2).val ∧ (i 2).val < win1_6.index t (2 : Fin 3) * 64 + 64
      omega

/-- The point that writes row n back: the last key block of query block n / 128. -/
def lastPoint (i : S16x1024x64.Idx) : Fin cfg1.N :=
  ⟨8 * ((i 1).val / 128) + 7, by
    have hi1 : (i 1).val < 1024 := (i 1).isLt
    have hN : cfg1.N = 64 := N_1
    omega⟩

theorem lastPoint_val (i : S16x1024x64.Idx) : (lastPoint i).val = 8 * ((i 1).val / 128) + 7 := rfl

/-- Every index of the output array is in the block of a point that writes its block back: row n in the block of the
    last key block of query block n / 128. -/
theorem cover1 (i : S16x1024x64.Idx) :
    ∃ t : Fin cfg1.N, (cfg1.win 6).flush t = true ∧ i ∈ ((cfg1.win 6).blk t).view.set := by
  have hi1 : (i 1).val < 1024 := (i 1).isLt
  have hv := lastPoint_val i
  refine ⟨lastPoint i, (flush1_6 (lastPoint i)).2 (by omega), ?_⟩
  rw [mem_blk1_iff]
  omega

end Cert.KernelIdeal.Hand

end
-- ==== Proof.LibOnlineSoftmax.lean ====
/-
  The streaming ("online") softmax of a flash-attention sweep equals the two-pass softmax,
  at the extended reals.

  A row of scores is cut into blocks j = 0, 1, …, n-1 of keys k : K. The sweep keeps a running
  maximum m, a running normaliser l and a running weighted sum acc d; at each block it raises the
  maximum, rescales l and acc by exp (old maximum - new maximum) and adds the block's terms
  exp (s j k - new maximum) (times v j k d for acc). At the end the output is acc d / l. The two-pass
  form takes the maximum M of all the scores, the weights exp (s - M) / Σ exp (s - M), and the
  weighted sum of the values. For finite scores and values and at least one block the two agree:
  both are (Σ exp (s - c) · v) / (Σ exp (s - c)) for any real shift c, because
  exp (s - c) = exp (c' - c) · exp (s - c') and the common factor cancels.

  The operations are the ones of the extended-real reading of a float program: +, -, * and max are
  EReal's, the exponential is Ideal.exp (exp ⊥ = 0) and the quotient is Ideal.div.
-/
import Idealize.ShloMosaic.PureOps.Ideal

noncomputable section

namespace Cert.Lib.OnlineSoftmax

open Idealize.ShloMosaic
open scoped BigOperators

/-! ### Finite sums and finite maxima of coerced reals -/

/-- The coercion of a finite sum of reals is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The fold of max from ⊥ over a nonempty finite family of finite extended reals is finite. -/
theorem fold_max_finite {ι : Type*} (S : Finset ι) (hS : S.Nonempty) (f : ι → EReal)
    (hf : ∀ i ∈ S, f i ≠ ⊤ ∧ f i ≠ ⊥) : S.fold max ⊥ f ≠ ⊤ ∧ S.fold max ⊥ f ≠ ⊥ := by
  obtain ⟨i0, hi0⟩ := hS
  exact ⟨ne_of_lt ((Finset.fold_max_lt _).2 ⟨bot_lt_top, fun i hi => lt_top_iff_ne_top.2 (hf i hi).1⟩),
    ne_of_gt ((Finset.lt_fold_max _).2 (Or.inr ⟨i0, hi0, bot_lt_iff_ne_bot.2 (hf i0 hi0).2⟩))⟩

/-- So the fold of max from ⊥ over a nonempty finite family of coerced reals is a coerced real. -/
theorem exists_fold_max_coe {ι : Type*} (S : Finset ι) (hS : S.Nonempty) (f : ι → ℝ) :
    ∃ ρ : ℝ, S.fold max ⊥ (fun i => (f i : EReal)) = (ρ : EReal) := by
  obtain ⟨h1, h2⟩ := fold_max_finite S hS (fun i => (f i : EReal))
    (fun i _ => ⟨EReal.coe_ne_top _, EReal.coe_ne_bot _⟩)
  exact ⟨_, (EReal.coe_toReal h1 h2).symm⟩

/-! ### The real identities: changing the shift rescales every term by one factor -/

/-- exp (μ - μ') · Σ exp (f i - μ) · g i = Σ exp (f i - μ') · g i. -/
theorem rescale_sum_mul {ι : Type*} (S : Finset ι) (f g : ι → ℝ) (μ μ' : ℝ) :
    Real.exp (μ - μ') * ∑ i ∈ S, Real.exp (f i - μ) * g i = ∑ i ∈ S, Real.exp (f i - μ') * g i := by
  rw [Finset.mul_sum]
  refine Finset.sum_congr rfl fun i _ => ?_
  rw [← mul_assoc, ← Real.exp_add]
  congr 2
  ring

/-- exp (μ - μ') · Σ exp (f i - μ) = Σ exp (f i - μ'). -/
theorem rescale_sum {ι : Type*} (S : Finset ι) (f : ι → ℝ) (μ μ' : ℝ) :
    Real.exp (μ - μ') * ∑ i ∈ S, Real.exp (f i - μ) = ∑ i ∈ S, Real.exp (f i - μ') := by
  simpa using rescale_sum_mul S f (fun _ => 1) μ μ'

/-- A sum of exponentials over a nonempty finite set is positive. -/
theorem sum_exp_pos {ι : Type*} (S : Finset ι) (hS : S.Nonempty) (f : ι → ℝ) :
    0 < ∑ i ∈ S, Real.exp (f i) :=
  Finset.sum_pos (fun i _ => Real.exp_pos _) hS

/-- The softmax-weighted ratio does not depend on the shift: for any two real shifts μ and c,
    (Σ exp (s - μ) · g) / (Σ exp (s - μ)) = (Σ exp (s - c) · g) / (Σ exp (s - c)). -/
theorem ratio_shift {ι : Type*} (S : Finset ι) (s g : ι → ℝ) (μ c : ℝ) :
    (∑ i ∈ S, Real.exp (s i - μ) * g i) / (∑ i ∈ S, Real.exp (s i - μ))
      = (∑ i ∈ S, Real.exp (s i - c) * g i) / (∑ i ∈ S, Real.exp (s i - c)) := by
  rw [← rescale_sum_mul S s g c μ, ← rescale_sum S s c μ, mul_div_mul_left _ _ (Real.exp_ne_zero _)]

/-- The same for sums over blocks j ∈ B and keys k ∈ T. -/
theorem ratio_shift₂ {ι κ : Type*} (B : Finset ι) (T : Finset κ) (s g : ι → κ → ℝ) (μ c : ℝ) :
    (∑ j ∈ B, ∑ k ∈ T, Real.exp (s j k - μ) * g j k) / (∑ j ∈ B, ∑ k ∈ T, Real.exp (s j k - μ))
      = (∑ j ∈ B, ∑ k ∈ T, Real.exp (s j k - c) * g j k)
          / (∑ j ∈ B, ∑ k ∈ T, Real.exp (s j k - c)) := by
  simp only [← Finset.sum_product']
  exact ratio_shift (B ×ˢ T) (fun p => s p.1 p.2) (fun p => g p.1 p.2) μ c

/-- The ratio as the sum of the normalised weights times g:
    (Σ exp (s - M) · g) / (Σ exp (s - M)) = Σ (exp (s - M) · (1 / Σ exp (s - M))) · g. -/
theorem ratio_eq_sum_weights {ι : Type*} (S : Finset ι) (s g : ι → ℝ) (M : ℝ) :
    (∑ i ∈ S, Real.exp (s i - M) * g i) / (∑ i ∈ S, Real.exp (s i - M))
      = ∑ i ∈ S, Real.exp (s i - M) * (1 / ∑ i' ∈ S, Real.exp (s i' - M)) * g i := by
  rw [Finset.sum_div]
  refine Finset.sum_congr rfl fun i _ => ?_
  ring

/-- The coercion of the maximum of two reals is the maximum of the coercions. -/
theorem coe_max (x y : ℝ) : ((max x y : ℝ) : EReal) = max (x : EReal) (y : EReal) :=
  EReal.coe_strictMono.monotone.map_max

/-! ### The sweep -/

/-- The running state of the sweep for one row of scores: the running maximum m, the running
    normaliser l and, for each output coordinate d, the running weighted sum acc d. -/
structure State (D : Type*) where
  m : EReal
  l : EReal
  acc : D → EReal

/-- The state before the first block: m = -∞, l = 0, acc = 0. -/
def init (D : Type*) : State D := ⟨⊥, 0, fun _ => 0⟩

@[simp] theorem init_m (D : Type*) : (init D).m = ⊥ := rfl
@[simp] theorem init_l (D : Type*) : (init D).l = 0 := rfl
@[simp] theorem init_acc (D : Type*) (d : D) : (init D).acc d = 0 := rfl

variable {K : Type*} [Fintype K] {D : Type*}

/-- One block with scores sj k and values vj k d. The block maximum is the fold of max from ⊥ over
    the block's keys; the new maximum is m' = max m (block maximum); with alpha = exp (m - m') (old minus
    new) and p k = exp (sj k - m'), the new normaliser is alpha · l + Σ p k and the new weighted sum is
    alpha · acc d + Σ p k · vj k d. -/
def step (sj : K → EReal) (vj : K → D → EReal) (st : State D) : State D where
  m := max st.m (Finset.univ.fold max ⊥ sj)
  l := Ideal.exp (st.m - max st.m (Finset.univ.fold max ⊥ sj)) * st.l
        + ∑ k, Ideal.exp (sj k - max st.m (Finset.univ.fold max ⊥ sj))
  acc := fun d => Ideal.exp (st.m - max st.m (Finset.univ.fold max ⊥ sj)) * st.acc d
        + ∑ k, Ideal.exp (sj k - max st.m (Finset.univ.fold max ⊥ sj)) * vj k d

theorem step_m (sj : K → EReal) (vj : K → D → EReal) (st : State D) :
    (step sj vj st).m = max st.m (Finset.univ.fold max ⊥ sj) := rfl

theorem step_l (sj : K → EReal) (vj : K → D → EReal) (st : State D) :
    (step sj vj st).l = Ideal.exp (st.m - max st.m (Finset.univ.fold max ⊥ sj)) * st.l
        + ∑ k, Ideal.exp (sj k - max st.m (Finset.univ.fold max ⊥ sj)) := rfl

theorem step_acc (sj : K → EReal) (vj : K → D → EReal) (st : State D) (d : D) :
    (step sj vj st).acc d = Ideal.exp (st.m - max st.m (Finset.univ.fold max ⊥ sj)) * st.acc d
        + ∑ k, Ideal.exp (sj k - max st.m (Finset.univ.fold max ⊥ sj)) * vj k d := rfl

/-- The state after the blocks j < t of the scores s j k and values v j k d. -/
def run (s : ℕ → K → EReal) (v : ℕ → K → D → EReal) : ℕ → State D
  | 0 => init D
  | t + 1 => step (s t) (v t) (run s v t)

@[simp] theorem run_zero (s : ℕ → K → EReal) (v : ℕ → K → D → EReal) : run s v 0 = init D := rfl

theorem run_succ (s : ℕ → K → EReal) (v : ℕ → K → D → EReal) (t : ℕ) :
    run s v (t + 1) = step (s t) (v t) (run s v t) := rfl

/-- The output of the sweep over the blocks j < n: the weighted sum divided by the normaliser. -/
def out (s : ℕ → K → EReal) (v : ℕ → K → D → EReal) (n : ℕ) (d : D) : EReal :=
  Ideal.div ((run s v n).acc d) (run s v n).l

/-- The sweep reads only the blocks j < n. -/
theorem run_congr {s s' : ℕ → K → EReal} {v v' : ℕ → K → D → EReal} (n : ℕ)
    (hs : ∀ j < n, s j = s' j) (hv : ∀ j < n, v j = v' j) : run s v n = run s' v' n := by
  induction n with
  | zero => rfl
  | succ t ih =>
    rw [run_succ, run_succ, hs t (Nat.lt_succ_self t), hv t (Nat.lt_succ_self t),
      ih (fun j hj => hs j (Nat.lt_succ_of_lt hj)) (fun j hj => hv j (Nat.lt_succ_of_lt hj))]

/-- The running maximum after the blocks j < t is the fold of max from ⊥ over those blocks' maxima. -/
theorem run_m (s : ℕ → K → EReal) (v : ℕ → K → D → EReal) (t : ℕ) :
    (run s v t).m = (Finset.range t).fold max ⊥ (fun j => Finset.univ.fold max ⊥ (s j)) := by
  induction t with
  | zero => rfl
  | succ t ih =>
    rw [run_succ, step_m, ih, Finset.range_add_one, Finset.fold_insert Finset.notMem_range_self, max_comm]

/-! ### One block on a state of coerced reals -/

/-- The new normaliser, when the new maximum is the real μ', the rescaling factor the real a and
    the old normaliser the real L: a · L + Σ exp (sj k - μ'). -/
theorem step_l_coe (sj : K → ℝ) (vj : K → D → EReal) (st : State D) (μ' a L : ℝ)
    (hm : max st.m (Finset.univ.fold max ⊥ fun k => (sj k : EReal)) = (μ' : EReal))
    (ha : Ideal.exp (st.m - (μ' : EReal)) = (a : EReal)) (hl : st.l = (L : EReal)) :
    (step (fun k => (sj k : EReal)) vj st).l
      = ((a * L + ∑ k, Real.exp (sj k - μ') : ℝ) : EReal) := by
  rw [step_l, hm, ha, hl]
  simp only [← EReal.coe_sub, Ideal.exp_coe, ← EReal.coe_mul, ← coe_sum, ← EReal.coe_add]

/-- The new weighted sum likewise: a · A + Σ exp (sj k - μ') · vj k d. -/
theorem step_acc_coe (sj : K → ℝ) (vj : K → D → ℝ) (st : State D) (μ' a A : ℝ) (d : D)
    (hm : max st.m (Finset.univ.fold max ⊥ fun k => (sj k : EReal)) = (μ' : EReal))
    (ha : Ideal.exp (st.m - (μ' : EReal)) = (a : EReal)) (hacc : st.acc d = (A : EReal)) :
    (step (fun k => (sj k : EReal)) (fun k d => (vj k d : EReal)) st).acc d
      = ((a * A + ∑ k, Real.exp (sj k - μ') * vj k d : ℝ) : EReal) := by
  rw [step_acc, hm, ha, hacc]
  simp only [← EReal.coe_sub, Ideal.exp_coe, ← EReal.coe_mul, ← coe_sum, ← EReal.coe_add]

/-! ### The invariant -/

section Invariant

variable [Nonempty K] (s : ℕ → K → ℝ) (v : ℕ → K → D → ℝ)

/-- After t + 1 blocks of finite scores and values the state is a state of reals: the running
    maximum is a real μ (the maximum of the scores so far, see run_m), the normaliser is the sum of
    exp (s j k - μ) over the blocks j < t + 1 (Finset.range) and their keys k, and the weighted sum
    is the sum of exp (s j k - μ) · v j k d over the same. -/
theorem run_succ_coe (t : ℕ) :
    ∃ μ : ℝ,
      (run (fun j k => (s j k : EReal)) (fun j k d => (v j k d : EReal)) (t + 1)).m = (μ : EReal) ∧
      (run (fun j k => (s j k : EReal)) (fun j k d => (v j k d : EReal)) (t + 1)).l
        = ((∑ j ∈ Finset.range (t + 1), ∑ k, Real.exp (s j k - μ) : ℝ) : EReal) ∧
      ∀ d, (run (fun j k => (s j k : EReal)) (fun j k d => (v j k d : EReal)) (t + 1)).acc d
        = ((∑ j ∈ Finset.range (t + 1), ∑ k, Real.exp (s j k - μ) * v j k d : ℝ) : EReal) := by
  induction t with
  | zero =>
    obtain ⟨ρ, hρ⟩ := exists_fold_max_coe Finset.univ Finset.univ_nonempty (s 0)
    have hm : max (init D).m (Finset.univ.fold max ⊥ fun k => (s 0 k : EReal)) = (ρ : EReal) := by
      rw [hρ, init_m, max_bot_left]
    have ha : Ideal.exp ((init D).m - (ρ : EReal)) = ((0 : ℝ) : EReal) := by
      rw [init_m, EReal.bot_sub, Ideal.exp_bot, EReal.coe_zero]
    refine ⟨ρ, hm, ?_, fun d => ?_⟩
    · rw [run_succ, run_zero, step_l_coe (s 0) _ _ ρ 0 0 hm ha (by rw [init_l, EReal.coe_zero])]
      simp
    · rw [run_succ, run_zero,
        step_acc_coe (s 0) (v 0) _ ρ 0 0 d hm ha (by rw [init_acc, EReal.coe_zero])]
      simp
  | succ t ih =>
    obtain ⟨μ, hμ, hl, hacc⟩ := ih
    obtain ⟨ρ, hρ⟩ := exists_fold_max_coe Finset.univ Finset.univ_nonempty (s (t + 1))
    have hm : max (run (fun j k => (s j k : EReal)) (fun j k d => (v j k d : EReal)) (t + 1)).m
        (Finset.univ.fold max ⊥ fun k => (s (t + 1) k : EReal)) = ((max μ ρ : ℝ) : EReal) := by
      rw [hμ, hρ, coe_max]
    have ha : Ideal.exp ((run (fun j k => (s j k : EReal)) (fun j k d => (v j k d : EReal)) (t + 1)).m
        - ((max μ ρ : ℝ) : EReal)) = ((Real.exp (μ - max μ ρ) : ℝ) : EReal) := by
      rw [hμ, ← EReal.coe_sub, Ideal.exp_coe]
    refine ⟨max μ ρ, hm, ?_, fun d => ?_⟩
    · rw [run_succ, step_l_coe (s (t + 1)) _ _ _ _ _ hm ha hl, Finset.sum_range_succ _ (t + 1),
        Finset.mul_sum]
      congr 2
      exact Finset.sum_congr rfl fun j _ => rescale_sum _ _ _ _
    · rw [run_succ, step_acc_coe (s (t + 1)) (v (t + 1)) _ _ _ _ d hm ha (hacc d),
        Finset.sum_range_succ _ (t + 1), Finset.mul_sum]
      congr 2
      exact Finset.sum_congr rfl fun j _ => rescale_sum_mul _ _ _ _ _

end Invariant

/-! ### The output of the sweep and the two-pass reference -/

/-- The two-pass softmax-weighted sum over a finite index type I: with M the fold of max from ⊥ over
    all the scores, e i = exp (s i - M), Z = Σ e i and w i = e i / Z, the sum of w i · v i d. -/
def refOut {I : Type*} [Fintype I] (s : I → EReal) (v : I → D → EReal) (d : D) : EReal :=
  ∑ i, Ideal.div (Ideal.exp (s i - Finset.univ.fold max ⊥ s))
      (∑ i', Ideal.exp (s i' - Finset.univ.fold max ⊥ s)) * v i d

/-- The two-pass sum does not depend on how the keys are indexed. -/
theorem refOut_equiv {I J : Type*} [Fintype I] [Fintype J] (e : I ≃ J) (s : J → EReal)
    (v : J → D → EReal) (d : D) :
    refOut (fun i => s (e i)) (fun i => v (e i)) d = refOut s v d := by
  have hM : Finset.univ.fold max ⊥ (fun i => s (e i)) = Finset.univ.fold max ⊥ s := by
    rw [← Finset.map_univ_equiv e, Finset.fold_map]; rfl
  unfold refOut
  rw [hM, Equiv.sum_comp e (fun j => Ideal.exp (s j - Finset.univ.fold max ⊥ s))]
  exact Equiv.sum_comp e (fun j => Ideal.div (Ideal.exp (s j - Finset.univ.fold max ⊥ s))
    (∑ i', Ideal.exp (s i' - Finset.univ.fold max ⊥ s)) * v j d)

/-- At finite scores and values over a nonempty index type the two-pass sum is the real
    (Σ exp (s i - c) · v i d) / (Σ exp (s i - c)), for any real shift c. -/
theorem refOut_coe {I : Type*} [Fintype I] [Nonempty I] (s : I → ℝ) (v : I → D → ℝ) (c : ℝ) (d : D) :
    refOut (fun i => (s i : EReal)) (fun i d => (v i d : EReal)) d
      = (((∑ i, Real.exp (s i - c) * v i d) / (∑ i, Real.exp (s i - c)) : ℝ) : EReal) := by
  obtain ⟨M, hM⟩ := exists_fold_max_coe Finset.univ Finset.univ_nonempty s
  have hZ : (∑ i, Real.exp (s i - M)) ≠ 0 :=
    (sum_exp_pos Finset.univ Finset.univ_nonempty fun i => s i - M).ne'
  unfold refOut
  rw [hM]
  simp only [← EReal.coe_sub, Ideal.exp_coe, ← coe_sum]
  simp only [Ideal.div_coe hZ, ← EReal.coe_mul, ← coe_sum]
  rw [ratio_shift Finset.univ s (fun i => v i d) c M, ratio_eq_sum_weights]

section Main

variable [Nonempty K]

/-- At finite scores and values and at least one block the output of the sweep is the real
    (Σ exp (s j k - c) · v j k d) / (Σ exp (s j k - c)), the sums over the blocks j < n
    (Finset.range n) and their keys k, for any real shift c. -/
theorem out_coe (s : ℕ → K → ℝ) (v : ℕ → K → D → ℝ) (n : ℕ) (hn : 0 < n) (c : ℝ) (d : D) :
    out (fun j k => (s j k : EReal)) (fun j k d => (v j k d : EReal)) n d
      = (((∑ j ∈ Finset.range n, ∑ k, Real.exp (s j k - c) * v j k d)
          / (∑ j ∈ Finset.range n, ∑ k, Real.exp (s j k - c)) : ℝ) : EReal) := by
  obtain ⟨t, rfl⟩ : ∃ t, n = t + 1 := Nat.exists_eq_succ_of_ne_zero hn.ne'
  obtain ⟨μ, -, hl, hacc⟩ := run_succ_coe s v t
  have hL : (∑ j ∈ Finset.range (t + 1), ∑ k, Real.exp (s j k - μ)) ≠ 0 :=
    (Finset.sum_pos (fun j _ => sum_exp_pos Finset.univ Finset.univ_nonempty fun k => s j k - μ)
      Finset.nonempty_range_add_one).ne'
  unfold out
  rw [hl, hacc d, Ideal.div_coe hL, ← EReal.coe_mul, mul_one_div,
    ratio_shift₂ (Finset.range (t + 1)) Finset.univ s (fun j k => v j k d) μ c]

/-- The sweep over n ≥ 1 blocks of finite (coerced real) scores and values computes the two-pass
    softmax-weighted sum over all the keys (j, k), j : Fin n, k : K. -/
theorem out_coe_eq_refOut (s : ℕ → K → ℝ) (v : ℕ → K → D → ℝ) (n : ℕ) (hn : 0 < n) (d : D) :
    out (fun j k => (s j k : EReal)) (fun j k d => (v j k d : EReal)) n d
      = refOut (fun p : Fin n × K => (s p.1 p.2 : EReal)) (fun p d => (v p.1 p.2 d : EReal)) d := by
  haveI : Nonempty (Fin n × K) := ⟨(⟨0, hn⟩, Classical.arbitrary K)⟩
  rw [out_coe s v n hn 0 d, refOut_coe (fun p : Fin n × K => s p.1 p.2) (fun p d => v p.1 p.2 d) 0 d,
    Finset.sum_range, Finset.sum_range]
  congr 2
  · exact (Fintype.sum_prod_type' fun (j : Fin n) k => Real.exp (s j k - 0) * v j k d).symm
  · exact (Fintype.sum_prod_type' fun (j : Fin n) k => Real.exp (s j k - 0)).symm

/-- THE THEOREM. For n ≥ 1 blocks, scores s j k and values v j k d that are finite (neither ⊤ nor
    ⊥) at the blocks j < n: the output of the sweep, acc d / l after the n-th block, is the two-pass
    softmax-weighted sum over all the keys (j, k) with j : Fin n and k : K. -/
theorem out_eq_refOut (s : ℕ → K → EReal) (v : ℕ → K → D → EReal) (n : ℕ) (hn : 0 < n)
    (hs : ∀ j < n, ∀ k, s j k ≠ ⊤ ∧ s j k ≠ ⊥) (hv : ∀ j < n, ∀ k d, v j k d ≠ ⊤ ∧ v j k d ≠ ⊥)
    (d : D) :
    out s v n d = refOut (fun p : Fin n × K => s p.1 p.2) (fun p d => v p.1 p.2 d) d := by
  have hs' : ∀ j < n, (fun k => (((s j k).toReal : ℝ) : EReal)) = s j := fun j hj =>
    funext fun k => EReal.coe_toReal (hs j hj k).1 (hs j hj k).2
  have hv' : ∀ j < n, (fun k d => (((v j k d).toReal : ℝ) : EReal)) = v j := fun j hj =>
    funext fun k => funext fun d => EReal.coe_toReal (hv j hj k d).1 (hv j hj k d).2
  have e1 : out (fun j k => (((s j k).toReal : ℝ) : EReal))
      (fun j k d => (((v j k d).toReal : ℝ) : EReal)) n d = out s v n d := by
    unfold out
    rw [run_congr n hs' hv']
  have e2 : refOut (fun p : Fin n × K => (((s p.1 p.2).toReal : ℝ) : EReal))
      (fun p d => (((v p.1 p.2 d).toReal : ℝ) : EReal)) d
      = refOut (fun p : Fin n × K => s p.1 p.2) (fun p d => v p.1 p.2 d) d := by
    congr 1
    · exact funext fun p => congrFun (hs' p.1 p.1.isLt) p.2
    · exact funext fun p => congrFun (hv' p.1 p.1.isLt) p.2
  rw [← e1, out_coe_eq_refOut (fun j k => (s j k).toReal) (fun j k d => (v j k d).toReal) n hn d, e2]

end Main

/-! ### Blocks indexed by Fin n, and keys indexed flat -/

/-- A family indexed by Fin n read at every natural number: its value at j < n, zero past the end
    (the sweep over n blocks never reads there, run_congr). -/
def ofFin {n : ℕ} {α : Type*} [Zero α] (f : Fin n → α) (j : ℕ) : α :=
  if h : j < n then f ⟨j, h⟩ else 0

theorem ofFin_of_lt {n : ℕ} {α : Type*} [Zero α] (f : Fin n → α) {j : ℕ} (h : j < n) :
    ofFin f j = f ⟨j, h⟩ := dif_pos h

@[simp] theorem ofFin_val {n : ℕ} {α : Type*} [Zero α] (f : Fin n → α) (j : Fin n) :
    ofFin f (j : ℕ) = f j := dif_pos j.isLt

theorem out_def (s : ℕ → K → EReal) (v : ℕ → K → D → EReal) (n : ℕ) (d : D) :
    out s v n d = Ideal.div ((run s v n).acc d) (run s v n).l := rfl

theorem refOut_def {I : Type*} [Fintype I] (s : I → EReal) (v : I → D → EReal) (d : D) :
    refOut s v d = ∑ i, Ideal.div (Ideal.exp (s i - Finset.univ.fold max ⊥ s))
      (∑ i', Ideal.exp (s i' - Finset.univ.fold max ⊥ s)) * v i d := rfl

section Variants

variable [Nonempty K]

/-- The theorem for blocks indexed by Fin n: the sweep over the n ≥ 1 blocks s j, v j (j : Fin n) of
    finite scores and values computes the two-pass softmax-weighted sum over the keys (j, k). -/
theorem out_ofFin_eq_refOut {n : ℕ} (s : Fin n → K → EReal) (v : Fin n → K → D → EReal) (hn : 0 < n)
    (hs : ∀ j k, s j k ≠ ⊤ ∧ s j k ≠ ⊥) (hv : ∀ j k d, v j k d ≠ ⊤ ∧ v j k d ≠ ⊥) (d : D) :
    out (ofFin s) (ofFin v) n d
      = refOut (fun p : Fin n × K => s p.1 p.2) (fun p d => v p.1 p.2 d) d := by
  rw [out_eq_refOut (ofFin s) (ofFin v) n hn
    (fun j hj k => by rw [ofFin_of_lt s hj]; exact hs _ k)
    (fun j hj k d => by rw [ofFin_of_lt v hj]; exact hv _ k d) d]
  simp only [ofFin_val]

end Variants

/-- The theorem with the keys indexed flat: n ≥ 1 blocks of m ≥ 1 keys each, key k of block j at the
    flat position k + m · j of Fin (n * m) (finProdFinEquiv). The sweep over the blocks computes the
    two-pass softmax-weighted sum over Fin (n * m). -/
theorem out_flat_eq_refOut {n m : ℕ} (s : Fin (n * m) → EReal) (v : Fin (n * m) → D → EReal)
    (hn : 0 < n) (hm : 0 < m) (hs : ∀ i, s i ≠ ⊤ ∧ s i ≠ ⊥) (hv : ∀ i d, v i d ≠ ⊤ ∧ v i d ≠ ⊥)
    (d : D) :
    out (ofFin fun (j : Fin n) (k : Fin m) => s (finProdFinEquiv (j, k)))
        (ofFin fun (j : Fin n) (k : Fin m) => v (finProdFinEquiv (j, k))) n d
      = refOut s v d := by
  haveI : Nonempty (Fin m) := ⟨⟨0, hm⟩⟩
  rw [out_ofFin_eq_refOut _ _ hn (fun j k => hs _) (fun j k d => hv _ d) d]
  exact refOut_equiv finProdFinEquiv s v d

end Cert.Lib.OnlineSoftmax

end
-- ==== Proof.IdealFinal1.lean ====
/-
  The attention kernel's output array. For head h and query row n the kernel sweeps the eight key
  blocks of 128 keys with the streaming softmax — scores q·k plus the logarithm of the clamped
  geometry gate, values v — and stores the weighted sum divided by the normaliser. So the output at
  (h, n, d) is the streaming-softmax output over the blocks j = 0 … 7, key 128 j + k of block j.
-/
import proofs.«153090_j59820304499077_2_alg».proof.Proof.IdealRegion1
import proofs.«153090_j59820304499077_2_alg».proof.Proof.IdealPieces1
import proofs.«153090_j59820304499077_2_alg».proof.Proof.IdealBlocks1
import proofs.«153090_j59820304499077_2_alg».proof.Proof.IdealPayloads
import proofs.«153090_j59820304499077_2_alg».proof.Proof.LibOnlineSoftmax
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Payloads
open Idealize.ShloMosaic Idealize.ShloMosaic.TcCoe Idealize.ShloMosaic.ValueIdx
open Idealize.SL.Sem
open Idealize.ShloMosaic.Pipeline (Dat Cfg Window)
open Cert.Lib.OnlineSoftmax
open scoped BigOperators

/-- The score of query row n against key m in head h: q · k plus the logarithm of the geometry gate (the head's gate
    weights times the geometry row (n, m), plus the head's bias) clamped from below by the constant 0x358637BD. -/
def score (Q K : S16x1024x64.Idx → EReal) (pe : S1024x1024x64.Idx → EReal) (wg : S16x64.Idx → EReal)
    (bg3 : S16x1x1.Idx → EReal) (h : Fin 16) (n m : Fin 1024) : EReal :=
  (∑ d : Fin 64, Q (ix3 h n d) * K (ix3 h m d))
    + Ideal.log (max ((∑ d : Fin 64, wg (ix2 h d) * pe (ix3 n m d)) + bg3 (ix3 h (0 : Fin 1) (0 : Fin 1)))
        (Ideal.ofBits .f32 0x358637BD#32))

/-- Key k of key block j is key k + 128 j of the 1024 (the flat position of the pair (j, k)). -/
def keyIdx (j : Fin 8) (k : Fin 128) : Fin 1024 := finProdFinEquiv (j, k)

theorem keyIdx_val (j : Fin 8) (k : Fin 128) : (keyIdx j k).val = k.val + 128 * j.val := rfl

/-- The block scores and values of head h and query row n, by key block and key. -/
def sBlocks (Q K : S16x1024x64.Idx → EReal) (pe : S1024x1024x64.Idx → EReal) (wg : S16x64.Idx → EReal)
    (bg3 : S16x1x1.Idx → EReal) (h : Fin 16) (n : Fin 1024) : ℕ → Fin 128 → EReal :=
  ofFin fun (j : Fin 8) (k : Fin 128) => score Q K pe wg bg3 h n (keyIdx j k)

def vBlocks (Vv : S16x1024x64.Idx → EReal) (h : Fin 16) : ℕ → Fin 128 → Fin 64 → EReal :=
  ofFin fun (j : Fin 8) (k : Fin 128) (d' : Fin 64) => Vv (ix3 h (keyIdx j k) d')

/-- The attention output: at (h, n, d) the streaming-softmax output over the eight key blocks. -/
def G1 (Q K Vv : S16x1024x64.Idx → EReal) (pe : S1024x1024x64.Idx → EReal) (wg : S16x64.Idx → EReal)
    (bg3 : S16x1x1.Idx → EReal) : S16x1024x64.Idx → EReal :=
  fun i => out
    (sBlocks Q K pe wg bg3 (⟨(i 0).val, (i 0).isLt⟩ : Fin 16) (⟨(i 1).val, (i 1).isLt⟩ : Fin 1024))
    (vBlocks Vv (⟨(i 0).val, (i 0).isLt⟩ : Fin 16)) 8 (⟨(i 2).val, (i 2).isLt⟩ : Fin 64)

theorem G1_apply (Q K Vv : S16x1024x64.Idx → EReal) (pe : S1024x1024x64.Idx → EReal) (wg : S16x64.Idx → EReal)
    (bg3 : S16x1x1.Idx → EReal) (h : Fin 16) (n : Fin 1024) (d : Fin 64) :
    G1 Q K Vv pe wg bg3 (ix3 h n d) = out (sBlocks Q K pe wg bg3 h n) (vBlocks Vv h) 8 d := rfl

/-- With finite scores and values the attention output is the two-pass softmax over all 1024 keys. -/
theorem G1_eq_refOut (Q K Vv : S16x1024x64.Idx → EReal) (pe : S1024x1024x64.Idx → EReal) (wg : S16x64.Idx → EReal)
    (bg3 : S16x1x1.Idx → EReal) (h : Fin 16) (n : Fin 1024) (d : Fin 64)
    (hs : ∀ m : Fin 1024, score Q K pe wg bg3 h n m ≠ ⊤ ∧ score Q K pe wg bg3 h n m ≠ ⊥)
    (hv : ∀ (m : Fin 1024) (d' : Fin 64), Vv (ix3 h m d') ≠ ⊤ ∧ Vv (ix3 h m d') ≠ ⊥) :
    G1 Q K Vv pe wg bg3 (ix3 h n d)
      = refOut (fun m : Fin 1024 => score Q K pe wg bg3 h n m) (fun (m : Fin 1024) (d' : Fin 64) => Vv (ix3 h m d')) d :=
  out_flat_eq_refOut (n := 8) (m := 128) (fun m : Fin 1024 => score Q K pe wg bg3 h n m)
    (fun (m : Fin 1024) (d' : Fin 64) => Vv (ix3 h m d')) (by decide) (by decide) hs hv d

/-- A sequence of states that starts with the step from the initial state and continues by steps is the sweep. -/
theorem run_of_steps {K D : Type*} [Fintype K] (s : ℕ → K → EReal) (v : ℕ → K → D → EReal) (stt : ℕ → State D) (n : ℕ)
    (h0 : stt 0 = step (s 0) (v 0) (init D))
    (hs : ∀ j, j + 1 < n → stt (j + 1) = step (s (j + 1)) (v (j + 1)) (stt j)) :
    ∀ j, j < n → stt j = run s v (j + 1) := by
  intro j
  induction j with
  | zero => intro _; rw [h0]; rfl
  | succ j ih =>
    intro hj
    rw [hs j hj, ih (Nat.lt_of_succ_lt hj)]
    rfl

/-! ### The scratch statistics after a point -/

variable (V : (c : Dev nD) → (b : Ref sig .tc) → Buf (Elt Ideal) ((c : Thread nD τ).loc b))

/-- Two states with the same fields are equal. -/
theorem State_ext {D : Type*} {a b : State D} (hm : a.m = b.m) (hl : a.l = b.l) (hacc : ∀ d, a.acc d = b.acc d) :
    a = b := by
  cases a; cases b
  simp only [State.mk.injEq]
  exact ⟨hm, hl, funext hacc⟩

/-- The three running statistics (maximum, normaliser, weighted sum) after point t. -/
def scrAt (c : Dev nD) (t : Fin cfg1.N) : Scr Ideal := (outsAt1 (F := Ideal) V c t.val t.isLt).2

/-- One block's update of the statistics p from the point's six blocks. -/
def upd (x0 x1 : Vec Ideal S16x128x64 .f32) (x2 : Vec Ideal S16x128x64 .bf16) (x3 : Vec Ideal S128x128x64 .f32)
    (x4 : Vec Ideal S16x64 .f32) (x5 : Vec Ideal S16x1x1 .f32) (p : Scr Ideal) : Scr Ideal :=
  (k1_pay5 (F := Ideal) (k1_pay12 (F := Ideal) x0 x1 x3 x4 x5 p.1),
    k1_pay3 (F := Ideal) (k1_pay11 (F := Ideal) x0 x1 x3 x4 x5) (k1_pay12 (F := Ideal) x0 x1 x3 x4 x5 p.1) p.1 p.2.1,
    k1_pay4 (F := Ideal) (k1_pay10 (F := Ideal) x2) (k1_pay11 (F := Ideal) x0 x1 x3 x4 x5)
      (k1_pay12 (F := Ideal) x0 x1 x3 x4 x5 p.1) p.1 p.2.2)

/-- The statistics as the kernel resets them at a query block's first key block. -/
def resetScr : Scr Ideal := (k1_pay7 (F := Ideal), k1_pay8 (F := Ideal), k1_pay9 (F := Ideal))

/-- At a query block's first key block the statistics are the update of the reset ones, whatever came before. -/
theorem scrAt_first (c : Dev nD) (t : Fin cfg1.N) (h0 : t.val % 8 = 0) :
    scrAt V c t = upd (iblk1 V c 0 t) (iblk1 V c 1 t) (iblk1 V c 2 t) (iblk1 V c 3 t) (iblk1 V c 4 t) (iblk1 V c 5 t)
      resetScr := by
  have hstep : ∀ p : Scr Ideal, (stepAt1 (F := Ideal) V c t p).2
      = upd (iblk1 V c 0 t) (iblk1 V c 1 t) (iblk1 V c 2 t) (iblk1 V c 3 t) (iblk1 V c 4 t) (iblk1 V c 5 t) resetScr :=
    fun p => by
      rw [stepAt1_A V c t h0 p, sout1_A_0_eq, sout1_A_1_eq, sout1_A_2_eq]
      rfl
  unfold scrAt
  by_cases hz : t.val = 0
  · rw [outsAt1_zero V c t hz]; exact hstep _
  · rw [outsAt1_pos V c t hz]; exact hstep _

/-- At any other key block they are the update of the statistics the point before left. -/
theorem scrAt_next (c : Dev nD) (t t' : Fin cfg1.N) (h0 : ¬t.val % 8 = 0) (ht' : t'.val + 1 = t.val) :
    scrAt V c t = upd (iblk1 V c 0 t) (iblk1 V c 1 t) (iblk1 V c 2 t) (iblk1 V c 3 t) (iblk1 V c 4 t) (iblk1 V c 5 t)
      (scrAt V c t') := by
  obtain ⟨tv, htv⟩ := t
  obtain ⟨tv', htv'⟩ := t'
  have e : tv = tv' + 1 := ht'.symm
  subst e
  unfold scrAt
  show (stepAt1 (F := Ideal) V c ⟨tv' + 1, htv⟩ (outsAt1 (F := Ideal) V c tv' htv').2).2 = _
  by_cases h7 : (tv' + 1) % 8 = 7
  · rw [stepAt1_C V c ⟨tv' + 1, htv⟩ h0 h7, sout1_C_0_eq, sout1_C_1_eq, sout1_C_2_eq]
    rfl
  · rw [stepAt1_B V c ⟨tv' + 1, htv⟩ h0 h7, sout1_B_0_eq, sout1_B_1_eq, sout1_B_2_eq]
    rfl

/-- At a query block's last key block the output block is the new weighted sum divided by the new normaliser. -/
theorem outAt_last (c : Dev nD) (t : Fin cfg1.N) (h7 : t.val % 8 = 7) :
    (outsAt1 (F := Ideal) V c t.val t.isLt).1
      = k1_pay6 (F := Ideal) (scrAt V c t).2.2 (scrAt V c t).2.1 := by
  have h0 : ¬t.val % 8 = 0 := by omega
  obtain ⟨tv, htv⟩ := t
  cases tv with
  | zero => exact absurd rfl h0
  | succ tv' =>
    unfold scrAt
    show (stepAt1 (F := Ideal) V c ⟨tv' + 1, htv⟩ (outsAt1 (F := Ideal) V c tv' (Nat.lt_of_succ_lt htv)).2).1
      = k1_pay6 (F := Ideal)
          (stepAt1 (F := Ideal) V c ⟨tv' + 1, htv⟩ (outsAt1 (F := Ideal) V c tv' (Nat.lt_of_succ_lt htv)).2).2.2.2
          (stepAt1 (F := Ideal) V c ⟨tv' + 1, htv⟩ (outsAt1 (F := Ideal) V c tv' (Nat.lt_of_succ_lt htv)).2).2.2.1
    rw [stepAt1_C V c ⟨tv' + 1, htv⟩ h0 h7, out1_C_6_eq, sout1_C_1_eq, sout1_C_2_eq]

/-! ### The statistics of one query row as a streaming-softmax state -/

/-- The state of head h and block row r read from the three statistics. -/
def stateAt (S : Scr Ideal) (h : Fin 16) (r : Fin 128) : State (Fin 64) :=
  ⟨S.1 (ix3 h r (0 : Fin 1)), S.2.1 (ix3 h r (0 : Fin 1)), fun d => S.2.2 (ix3 h r d)⟩

/-- The update of the statistics is, row by row, the streaming-softmax step with the block's scores and values. -/
theorem stateAt_upd (x0 x1 : Vec Ideal S16x128x64 .f32) (x2 : Vec Ideal S16x128x64 .bf16)
    (x3 : Vec Ideal S128x128x64 .f32) (x4 : Vec Ideal S16x64 .f32) (x5 : Vec Ideal S16x1x1 .f32) (p : Scr Ideal)
    (h : Fin 16) (r : Fin 128) :
    stateAt (upd x0 x1 x2 x3 x4 x5 p) h r
      = step (fun k : Fin 128 => k1_pay11 (F := Ideal) x0 x1 x3 x4 x5 (ix3 h r k))
          (fun (k : Fin 128) (d : Fin 64) => x2 (ix3 h k d)) (stateAt p h r) :=
  State_ext (stored_max_apply x0 x1 x3 x4 x5 p.1 h r) (stored_sum_apply x0 x1 x3 x4 x5 p.1 p.2.1 h r)
    (fun d => stored_acc_apply x0 x1 x2 x3 x4 x5 p.1 p.2.2 h r d)

/-- The reset statistics are the initial state. -/
theorem stateAt_reset (h : Fin 16) (r : Fin 128) : stateAt resetScr h r = init (Fin 64) :=
  State_ext (k1_pay7_apply (ix3 h r (0 : Fin 1))) (k1_pay8_apply (ix3 h r (0 : Fin 1))) (fun d => k1_pay9_apply (ix3 h r d))

/-! ### The blocks' scores and values are the arrays' -/

/-- The block's score at (h, r, k) at point t is the score of query row n against key m of the arrays. -/
theorem blockScore_eq (c : Dev nD) (t : Fin cfg1.N) (h : Fin 16) (r k : Fin 128) (n m : Fin 1024)
    (hn : n.val = (t.val / 8) * 128 + r.val) (hm : m.val = (t.val % 8) * 128 + k.val) :
    k1_pay11 (F := Ideal) (iblk1 V c 0 t) (iblk1 V c 1 t) (iblk1 V c 3 t) (iblk1 V c 4 t) (iblk1 V c 5 t) (ix3 h r k)
      = score (V c main_v9) (V c main_v12) (V c main_arg1) (V c main_arg8) (V c main_v17) h n m := by
  refine (k1_pay11_apply _ _ _ _ _ h r k).trans ?_
  unfold score
  refine congrArg₂ (fun a b : EReal => a + b)
    (Finset.sum_congr rfl fun d _ => congrArg₂ (fun a b : EReal => a * b)
      (iblk1_0_apply V c t h r d n hn) (iblk1_1_apply V c t h k d m hm)) ?_
  refine congrArg (fun s : EReal => Ideal.log (max s (Ideal.ofBits .f32 0x358637BD#32))) ?_
  exact congrArg₂ (fun a b : EReal => a + b)
    (Finset.sum_congr rfl fun d _ => congrArg₂ (fun a b : EReal => a * b)
      (iblk1_4_apply V c t h d) (iblk1_3_apply V c t r k d n m hn hm)) (iblk1_5_apply V c t h 0 0)

/-- So the block's scores of row (h, r) at point t are key block t % 8 of the row's scores, -/
theorem blockScores_eq (c : Dev nD) (t : Fin cfg1.N) (h : Fin 16) (r : Fin 128) (n : Fin 1024)
    (hn : n.val = (t.val / 8) * 128 + r.val) :
    (fun k : Fin 128 => k1_pay11 (F := Ideal) (iblk1 V c 0 t) (iblk1 V c 1 t) (iblk1 V c 3 t) (iblk1 V c 4 t)
        (iblk1 V c 5 t) (ix3 h r k))
      = sBlocks (V c main_v9) (V c main_v12) (V c main_arg1) (V c main_arg8) (V c main_v17) h n (t.val % 8) := by
  have hj : t.val % 8 < 8 := Nat.mod_lt _ (by decide)
  funext k
  unfold sBlocks
  rw [ofFin_of_lt _ hj]
  exact blockScore_eq V c t h r k n (keyIdx ⟨t.val % 8, hj⟩ k) hn (by rw [keyIdx_val]; show k.val + 128 * (t.val % 8) = t.val % 8 * 128 + k.val; omega)

/-- and the block's values of head h are key block t % 8 of the head's values. -/
theorem blockValues_eq (c : Dev nD) (t : Fin cfg1.N) (h : Fin 16) :
    (fun (k : Fin 128) (d : Fin 64) => (iblk1 (F := Ideal) V c 2 t : Vec Ideal S16x128x64 .bf16) (ix3 h k d))
      = vBlocks (V c main_v16) h (t.val % 8) := by
  have hj : t.val % 8 < 8 := Nat.mod_lt _ (by decide)
  funext k d
  unfold vBlocks
  rw [ofFin_of_lt _ hj]
  exact iblk1_2_apply V c t h k d (keyIdx ⟨t.val % 8, hj⟩ k) (by rw [keyIdx_val]; show k.val + 128 * (t.val % 8) = t.val % 8 * 128 + k.val; omega)

/-! ### The accumulation over a query block's key blocks -/

/-- THE ACCUMULATION. After point t = 8 qi + kj the statistics of row (h, r) are the streaming-softmax state after the
    key blocks 0 … kj of query row n = 128 qi + r. -/
theorem stateAt_scrAt (c : Dev nD) (h : Fin 16) (r : Fin 128) :
    ∀ (tv : ℕ) (ht : tv < cfg1.N) (n : Fin 1024), n.val = (tv / 8) * 128 + r.val →
      stateAt (scrAt V c ⟨tv, ht⟩) h r
        = run (sBlocks (V c main_v9) (V c main_v12) (V c main_arg1) (V c main_arg8) (V c main_v17) h n)
            (vBlocks (V c main_v16) h) (tv % 8 + 1) := by
  have first : ∀ (t : Fin cfg1.N) (n : Fin 1024), t.val % 8 = 0 → n.val = (t.val / 8) * 128 + r.val →
      stateAt (scrAt V c t) h r
        = run (sBlocks (V c main_v9) (V c main_v12) (V c main_arg1) (V c main_arg8) (V c main_v17) h n)
            (vBlocks (V c main_v16) h) (t.val % 8 + 1) := by
    intro t n h0 hn
    rw [scrAt_first V c t h0, stateAt_upd, stateAt_reset, blockScores_eq V c t h r n hn, blockValues_eq V c t h, h0]
    rfl
  intro tv
  induction tv with
  | zero => intro ht n hn; exact first ⟨0, ht⟩ n rfl hn
  | succ tv ih =>
    intro ht n hn
    by_cases h0 : (tv + 1) % 8 = 0
    · exact first ⟨tv + 1, ht⟩ n h0 hn
    · have htv : tv < cfg1.N := Nat.lt_of_succ_lt ht
      have hprev := ih htv n (by omega)
      have e : tv % 8 + 1 = (tv + 1) % 8 := by omega
      rw [e] at hprev
      rw [scrAt_next V c ⟨tv + 1, ht⟩ ⟨tv, htv⟩ h0 rfl, stateAt_upd, hprev,
        blockScores_eq V c ⟨tv + 1, ht⟩ h r n hn, blockValues_eq V c ⟨tv + 1, ht⟩ h]
      rfl

/-! ### The output array -/

/-- What a flushing point t writes back is block t of the attention output of the arrays as the region finds them. -/
theorem flushed1_eq (c : Dev nD) (t : Fin cfg1.N) (hf : (cfg1.win 6).flush t = true) :
    (dat1 (F := Ideal) V c).flushed 6 t
      = ((cfg1.win 6).blk t).view.read (Elt Ideal)
          (G1 (V c main_v9) (V c main_v12) (V c main_v16) (V c main_arg1) (V c main_arg8) (V c main_v17)) := by
  have h7 : t.val % 8 = 7 := (flush1_6 t).1 hf
  have ht := lt_sixtyfour t
  show (cfg1.win 6).cut (grid1.coords t) ((dat1 (F := Ideal) V c).after 6 t) = _
  rw [after1_6, outAt_last V c t h7]
  funext y
  obtain ⟨h, r, d, rfl⟩ : ∃ (h : Fin 16) (r : Fin 128) (d : Fin 64), y = ix3 h r d := ⟨y 0, y 1, y 2, eq_ix3 y⟩
  rw [View.read_apply]
  have hemb := emb1_6 t h r d (⟨(t.val / 8) * 128 + r.val, by have := r.isLt; omega⟩ : Fin 1024) rfl
  show k1_pay6 (F := Ideal) (scrAt V c t).2.2 (scrAt V c t).2.1 (ix3 h r d)
    = G1 (V c main_v9) (V c main_v12) (V c main_v16) (V c main_arg1) (V c main_arg8) (V c main_v17)
        (((cfg1.win 6).blk t).view.emb (ix3 h r d))
  rw [hemb, G1_apply]
  refine (k1_pay6_apply _ _ h r d).trans ?_
  have hst := stateAt_scrAt V c h r t.val t.isLt
    (⟨(t.val / 8) * 128 + r.val, by have := r.isLt; omega⟩ : Fin 1024) rfl
  rw [h7] at hst
  rw [out_def, ← hst]
  rfl

/-- The output array after the region: the attention output of the six arrays the region reads, at every index. -/
theorem final1 (c : Dev nD) :
    (dat1 (F := Ideal) V c).arrAt 6 cfg1.N
      = G1 (V c main_v9) (V c main_v12) (V c main_v16) (V c main_arg1) (V c main_arg8) (V c main_v17) :=
  (dat1 (F := Ideal) V c).arrAt_eq_of_cover 6
    (G1 (V c main_v9) (V c main_v12) (V c main_v16) (V c main_arg1) (V c main_arg8) (V c main_v17))
    (fun t hf => flushed1_eq V c t hf) cover1

end Cert.KernelIdeal.Hand

end
-- ==== Proof.IdealFinal2.lean ====
/-
  The output-projection kernel's output array. The kernel's four grid points each write one 256-row
  block of the output; the blocks tile the 1024 rows. Row by row the output is the residual row plus
  the attention output's row times the weight matrix plus the bias row: one function of the four
  arrays the region reads, index by index, whatever the block a row falls in.
-/
import proofs.«153090_j59820304499077_2_alg».proof.Proof.IdealRegion2
import proofs.«153090_j59820304499077_2_alg».proof.Proof.IdealPayloads
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Payloads
open Idealize.ShloMosaic Idealize.ShloMosaic.TcCoe Idealize.ShloMosaic.ValueIdx
open Idealize.SL.Sem
open Idealize.ShloMosaic.Pipeline (Dat Cfg Window)
open scoped BigOperators

/-- The output projection with its residual: at (n, j) the residual at (n, j) plus the row n of Y times the column j
    of Wt, plus the bias at j. -/
def G2 (x : S1024x1024.Idx → EReal) (Y : S1024x1024.Idx → EReal) (Wt : S1024x1024.Idx → EReal)
    (b : S1x1024.Idx → EReal) : S1024x1024.Idx → EReal :=
  fun i => x i
    + ((∑ e : Fin 1024, Y (ix2 (⟨(i 0).val, (i 0).isLt⟩ : Fin 1024) e) * Wt (ix2 e (⟨(i 1).val, (i 1).isLt⟩ : Fin 1024)))
      + b (ix2 (0 : Fin 1) (⟨(i 1).val, (i 1).isLt⟩ : Fin 1024)))

theorem G2_apply (x : S1024x1024.Idx → EReal) (Y : S1024x1024.Idx → EReal) (Wt : S1024x1024.Idx → EReal)
    (b : S1x1024.Idx → EReal) (n : Fin 1024) (j : Fin 1024) :
    G2 x Y Wt b (ix2 n j)
      = x (ix2 n j) + ((∑ e : Fin 1024, Y (ix2 n e) * Wt (ix2 e j)) + b (ix2 (0 : Fin 1) j)) := rfl

variable (V : (c : Dev nD) → (b : Ref sig .tc) → Buf (Elt Ideal) ((c : Thread nD τ).loc b))

/-- The index maps over the grid: the residual's, the attention output's and the output's windows are at row
    block t, every other block index is 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The grid has four points. -/
theorem lt_four2 (t : Fin cfg2.N) : t.val < 4 := by
  have h := t.isLt
  have hN : cfg2.N = 4 := N_2
  omega

/-- The residual's block at point t is rows 256 t … 256 t + 255 of the array. -/
theorem iblk2_0_apply (c : Dev nD) (t : Fin cfg2.N) (p : Fin 256) (e : Fin 1024) (n : Fin 1024)
    (hn : n.val = t.val * 256 + p.val) :
    (iblk2 (F := Ideal) V c 0 t : Vec Ideal S256x1024 .f32) (ix2 p e)
      = (V c main_arg0 : S1024x1024.Idx → EReal) (ix2 n e) := by
  obtain ⟨e00, e01, -⟩ := idx_facts2 t
  unfold iblk2
  rw [View.read_apply]
  show V c main_arg0 _ = V c main_arg0 _
  congr 1
  funext a
  apply Fin.ext
  match a with
  | ⟨0, _⟩ => show win2_0.index t (0 : Fin 2) * 256 + 1 * p.val = n.val; omega
  | ⟨1, _⟩ => show win2_0.index t (1 : Fin 2) * 1024 + 1 * e.val = e.val; omega

/-- The attention output's block at point t is rows 256 t … 256 t + 255 of the array. -/
theorem iblk2_1_apply (c : Dev nD) (t : Fin cfg2.N) (p : Fin 256) (e : Fin 1024) (n : Fin 1024)
    (hn : n.val = t.val * 256 + p.val) :
    (iblk2 (F := Ideal) V c 1 t : Vec Ideal S256x1024 .bf16) (ix2 p e)
      = (V c main_v20 : S1024x1024.Idx → EReal) (ix2 n e) := by
  obtain ⟨-, -, e10, e11, -⟩ := idx_facts2 t
  unfold iblk2
  rw [View.read_apply]
  show V c main_v20 _ = V c main_v20 _
  congr 1
  funext a
  apply Fin.ext
  match a with
  | ⟨0, _⟩ => show win2_1.index t (0 : Fin 2) * 256 + 1 * p.val = n.val; omega
  | ⟨1, _⟩ => show win2_1.index t (1 : Fin 2) * 1024 + 1 * e.val = e.val; omega

/-- The weights' block at every point is the whole matrix. -/
theorem iblk2_2_apply (c : Dev nD) (t : Fin cfg2.N) (e : Fin 1024) (q : Fin 1024) :
    (iblk2 (F := Ideal) V c 2 t : Vec Ideal S1024x1024 .bf16) (ix2 e q)
      = (V c main_v22 : S1024x1024.Idx → EReal) (ix2 e q) := by
  obtain ⟨-, -, -, -, e20, e21, -⟩ := idx_facts2 t
  unfold iblk2
  rw [View.read_apply]
  show V c main_v22 _ = V c main_v22 _
  congr 1
  funext a
  apply Fin.ext
  match a with
  | ⟨0, _⟩ => show win2_2.index t (0 : Fin 2) * 1024 + 1 * e.val = e.val; omega
  | ⟨1, _⟩ => show win2_2.index t (1 : Fin 2) * 1024 + 1 * q.val = q.val; omega

/-- The bias row's block at every point is the whole row. -/
theorem iblk2_3_apply (c : Dev nD) (t : Fin cfg2.N) (z : Fin 1) (q : Fin 1024) :
    (iblk2 (F := Ideal) V c 3 t : Vec Ideal S1x1024 .f32) (ix2 z q)
      = (V c main_v23 : S1x1024.Idx → EReal) (ix2 z q) := by
  obtain ⟨-, -, -, -, -, -, e30, e31, -⟩ := idx_facts2 t
  unfold iblk2
  rw [View.read_apply]
  show V c main_v23 _ = V c main_v23 _
  congr 1
  funext a
  apply Fin.ext
  match a with
  | ⟨0, _⟩ => show win2_3.index t (0 : Fin 2) * 1 + 1 * z.val = z.val; omega
  | ⟨1, _⟩ => show win2_3.index t (1 : Fin 2) * 1024 + 1 * q.val = q.val; omega

/-- What point t writes back is block t of the output projection of the arrays as the region finds them. -/
theorem flushed2_eq (c : Dev nD) (t : Fin cfg2.N) :
    (dat2 (F := Ideal) V c).flushed 4 t
      = ((cfg2.win 4).blk t).view.read (Elt Ideal)
          (G2 (V c main_arg0) (V c main_v20) (V c main_v22) (V c main_v23)) := by
  show (cfg2.win 4).cut (grid2.coords t) ((dat2 (F := Ideal) V c).after 4 t) = _
  rw [after2_4]
  unfold out2_4
  rw [View.canon_unit_zero hz2']
  simp only [View.ld_unit_zero (S := S256x1024) hz2', View.ld_unit_zero (S := S1024x1024) hz2',
    View.ld_unit_zero (S := S1x1024) hz2']
  obtain ⟨-, -, -, -, -, -, -, -, e40, e41⟩ := idx_facts2 t
  have ht := lt_four2 t
  funext y
  obtain ⟨p, q, rfl⟩ : ∃ (p : Fin 256) (q : Fin 1024), y = ix2 p q := ⟨y 0, y 1, eq_ix2 y⟩
  rw [View.read_apply]
  have hemb : ((cfg2.win 4).blk t).view.emb (ix2 p q)
      = ix2 (⟨t.val * 256 + p.val, by have := p.isLt; omega⟩ : Fin 1024) q :=
    funext fun a => Fin.ext (by
      match a with
      | ⟨0, _⟩ => show win2_4.index t (0 : Fin 2) * 256 + 1 * p.val = t.val * 256 + p.val; omega
      | ⟨1, _⟩ => show win2_4.index t (1 : Fin 2) * 1024 + 1 * q.val = q.val; omega)
  show k2_pay1 (F := Ideal) (iblk2 V c 0 t) (iblk2 V c 1 t) (iblk2 V c 2 t) (iblk2 V c 3 t) (ix2 p q)
    = G2 (V c main_arg0) (V c main_v20) (V c main_v22) (V c main_v23) (((cfg2.win 4).blk t).view.emb (ix2 p q))
  rw [hemb, G2_apply]
  refine (k2_pay1_apply _ _ _ _ p q).trans ?_
  refine congrArg₂ (fun a b : EReal => a + b) (iblk2_0_apply V c t p q _ rfl) ?_
  refine congrArg₂ (fun a b : EReal => a + b) (Finset.sum_congr rfl fun e _ => ?_) (iblk2_3_apply V c t 0 q)
  exact congrArg₂ (fun a b : EReal => a * b) (iblk2_1_apply V c t p e _ rfl) (iblk2_2_apply V c t e q)

/-- An index of the output array is in point t's block iff its row is among the block's 256 rows. -/
theorem mem_blk2 (t : Fin cfg2.N) (i : S1024x1024.Idx) :
    i ∈ ((cfg2.win 4).blk t).view.set
      ↔ ∀ a : Fin 2, win2_4.index t a * S256x1024.size a ≤ (i a).val
          ∧ (i a).val < win2_4.index t a * S256x1024.size a + S256x1024.size a := by
  show i ∈ ((View.whole main_v24).slice (win2_4.rect t)).set ↔ _
  rw [View.set_slice_whole, Rect.mem_set_unit]
  exact Iff.rfl

/-- Every index of the output array is in the block of the point its row falls in: row n is in block n / 256. -/
theorem cover2 (i : S1024x1024.Idx) :
    ∃ t : Fin cfg2.N, (cfg2.win 4).flush t = true ∧ i ∈ ((cfg2.win 4).blk t).view.set := by
  have hi0 : (i 0).val < 1024 := (i 0).isLt
  have hi1 : (i 1).val < 1024 := (i 1).isLt
  have hN : cfg2.N = 4 := N_2
  let t : Fin cfg2.N := ⟨(i 0).val / 256, by omega⟩
  obtain ⟨-, -, -, -, -, -, -, -, e40, e41⟩ := idx_facts2 t
  have htv : t.val = (i 0).val / 256 := rfl
  refine ⟨t, flush2_4 t, ?_⟩
  rw [mem_blk2]
  intro a
  match a with
  | ⟨0, _⟩ =>
    show win2_4.index t (0 : Fin 2) * 256 ≤ (i 0).val ∧ (i 0).val < win2_4.index t (0 : Fin 2) * 256 + 256
    omega
  | ⟨1, _⟩ =>
    show win2_4.index t (1 : Fin 2) * 1024 ≤ (i 1).val ∧ (i 1).val < win2_4.index t (1 : Fin 2) * 1024 + 1024
    omega

/-- The output array after the region: the output projection of the four arrays the region reads, at every index. -/
theorem final2 (c : Dev nD) :
    (dat2 (F := Ideal) V c).arrAt 4 cfg2.N
      = G2 (V c main_arg0) (V c main_v20) (V c main_v22) (V c main_v23) :=
  (dat2 (F := Ideal) V c).arrAt_eq_of_cover 4 (G2 (V c main_arg0) (V c main_v20) (V c main_v22) (V c main_v23))
    (fun t _ => flushed2_eq V c t) cover2

end Cert.KernelIdeal.Hand

end
-- ==== Proof.LibClamp.lean ====
/-
  The clamp constant. The f32 word 0x358637BD denotes the positive real 8796093 · 2⁻⁴³ (about 10⁻⁶).
  Clamping from below by a positive real absorbs a clamp by 0, and the logarithm of a clamped value
  that is not +∞ is a finite number: the clamped value is a positive real.
-/
import Idealize.ShloMosaic.PureOps.Ideal

noncomputable section

namespace Cert.Lib.Clamp

open Idealize.ShloMosaic

/-- The word 0x358637BD read as an f32 is (2²³ + 407485) · 2^(107 - 127 - 23) = 8796093 · 2⁻⁴³. The one place
    the word is evaluated. -/
theorem clamp_eq_coe :
    Ideal.ofBits .f32 0x358637BD#32 = (((8796093 : ℝ) * (2 : ℝ) ^ (-43 : ℤ) : ℝ) : EReal) := by
  simp [Ideal.ofBits, Ideal.ieee, -EReal.coe_mul]

/-- The clamp constant is a positive real. -/
theorem clamp_pos_real : ∃ r : ℝ, 0 < r ∧ Ideal.ofBits .f32 0x358637BD#32 = (r : EReal) :=
  ⟨_, by positivity, clamp_eq_coe⟩

/-- The clamp constant is positive. -/
theorem clamp_pos : (0 : EReal) < Ideal.ofBits .f32 0x358637BD#32 := by
  obtain ⟨r, hr, e⟩ := clamp_pos_real
  rw [e]
  exact EReal.coe_pos.2 hr

/-- The clamp constant is finite. -/
theorem clamp_finite :
    Ideal.ofBits .f32 0x358637BD#32 ≠ ⊤ ∧ Ideal.ofBits .f32 0x358637BD#32 ≠ ⊥ := by
  obtain ⟨r, -, e⟩ := clamp_pos_real
  rw [e]
  exact ⟨EReal.coe_ne_top r, EReal.coe_ne_bot r⟩

/-- A clamp by 0 followed by the clamp by the constant is the clamp by the constant: max (max x 0) c = max x c. -/
theorem max_max_zero_clamp (x : EReal) :
    max (max x 0) (Ideal.ofBits .f32 0x358637BD#32) = max x (Ideal.ofBits .f32 0x358637BD#32) := by
  rw [max_assoc, max_eq_right clamp_pos.le]

/-- The logarithm of a positive real is the real logarithm, coerced. -/
theorem log_coe_of_pos {t : ℝ} (ht : 0 < t) : Ideal.log (t : EReal) = ((Real.log t : ℝ) : EReal) := by
  rw [Ideal.log_coe, if_neg (not_le.2 ht)]

/-- A value that is not +∞, clamped from below by the constant, is a positive real. -/
theorem max_clamp_pos_real {x : EReal} (hx : x ≠ ⊤) :
    ∃ t : ℝ, 0 < t ∧ max x (Ideal.ofBits .f32 0x358637BD#32) = (t : EReal) := by
  obtain ⟨r, hr, e⟩ := clamp_pos_real
  rw [e]
  induction x using EReal.rec with
  | bot => exact ⟨r, hr, max_bot_left _⟩
  | coe y => exact ⟨max y r, lt_max_of_lt_right hr, (EReal.coe_strictMono.monotone.map_max).symm⟩
  | top => exact absurd rfl hx

/-- So its logarithm is finite: for x ≠ ⊤, log (max x c) is neither ⊤ nor ⊥. -/
theorem log_max_clamp_finite {x : EReal} (hx : x ≠ ⊤) :
    Ideal.log (max x (Ideal.ofBits .f32 0x358637BD#32)) ≠ ⊤
      ∧ Ideal.log (max x (Ideal.ofBits .f32 0x358637BD#32)) ≠ ⊥ := by
  obtain ⟨t, ht, e⟩ := max_clamp_pos_real hx
  rw [e, log_coe_of_pos ht]
  exact ⟨EReal.coe_ne_top _, EReal.coe_ne_bot _⟩

end Cert.Lib.Clamp

end
-- ==== Proof.LibFinite.lean ====
/-
  Finite extended reals are closed under the arithmetic of a float program. An extended real that
  is neither ⊤ nor ⊥ is the coercion of a real; sums, differences, products, maxima, finite sums and
  finite sums of products of such numbers are again such numbers; the exponential of one is a
  positive finite number; a finite sum over a nonempty set of positive finite numbers is positive and
  finite; and the quotient of a finite number by a positive finite number is finite.
-/
import Idealize.ShloMosaic.PureOps.Ideal

noncomputable section

namespace Cert.Lib.Finite

open Idealize.ShloMosaic
open scoped BigOperators

/-- A finite extended real is the coercion of a real. -/
theorem exists_coe_of_finite {x : EReal} (h : x ≠ ⊤ ∧ x ≠ ⊥) : ∃ r : ℝ, x = (r : EReal) :=
  ⟨x.toReal, (EReal.coe_toReal h.1 h.2).symm⟩

/-- The coercion of a real is finite. -/
theorem coe_finite (r : ℝ) : (r : EReal) ≠ ⊤ ∧ (r : EReal) ≠ ⊥ :=
  ⟨EReal.coe_ne_top r, EReal.coe_ne_bot r⟩

/-- Zero is finite. -/
theorem zero_finite : (0 : EReal) ≠ ⊤ ∧ (0 : EReal) ≠ ⊥ := coe_finite 0

/-- finite + finite is finite. -/
theorem add_finite {x y : EReal} (hx : x ≠ ⊤ ∧ x ≠ ⊥) (hy : y ≠ ⊤ ∧ y ≠ ⊥) : x + y ≠ ⊤ ∧ x + y ≠ ⊥ := by
  obtain ⟨a, rfl⟩ := exists_coe_of_finite hx
  obtain ⟨b, rfl⟩ := exists_coe_of_finite hy
  rw [← EReal.coe_add]
  exact coe_finite _

/-- finite - finite is finite. -/
theorem sub_finite {x y : EReal} (hx : x ≠ ⊤ ∧ x ≠ ⊥) (hy : y ≠ ⊤ ∧ y ≠ ⊥) : x - y ≠ ⊤ ∧ x - y ≠ ⊥ := by
  obtain ⟨a, rfl⟩ := exists_coe_of_finite hx
  obtain ⟨b, rfl⟩ := exists_coe_of_finite hy
  rw [← EReal.coe_sub]
  exact coe_finite _

/-- finite · finite is finite. -/
theorem mul_finite {x y : EReal} (hx : x ≠ ⊤ ∧ x ≠ ⊥) (hy : y ≠ ⊤ ∧ y ≠ ⊥) : x * y ≠ ⊤ ∧ x * y ≠ ⊥ := by
  obtain ⟨a, rfl⟩ := exists_coe_of_finite hx
  obtain ⟨b, rfl⟩ := exists_coe_of_finite hy
  rw [← EReal.coe_mul]
  exact coe_finite _

/-- The maximum of two finite numbers is finite. -/
theorem max_finite {x y : EReal} (hx : x ≠ ⊤ ∧ x ≠ ⊥) (hy : y ≠ ⊤ ∧ y ≠ ⊥) : max x y ≠ ⊤ ∧ max x y ≠ ⊥ := by
  rcases max_cases x y with h | h <;> rw [h.1] <;> assumption

/-- A finite sum of finite numbers is finite. -/
theorem sum_finite {ι : Type*} (S : Finset ι) (f : ι → EReal) (hf : ∀ i ∈ S, f i ≠ ⊤ ∧ f i ≠ ⊥) :
    (∑ i ∈ S, f i) ≠ ⊤ ∧ (∑ i ∈ S, f i) ≠ ⊥ := by
  classical
  induction S using Finset.induction_on with
  | empty => rw [Finset.sum_empty]; exact zero_finite
  | insert a S ha ih =>
    rw [Finset.sum_insert ha]
    exact add_finite (hf a (Finset.mem_insert_self a S)) (ih fun i hi => hf i (Finset.mem_insert_of_mem hi))

/-- A finite sum of products of finite numbers is finite. -/
theorem sum_mul_finite {ι : Type*} [Fintype ι] (f g : ι → EReal) (hf : ∀ i, f i ≠ ⊤ ∧ f i ≠ ⊥)
    (hg : ∀ i, g i ≠ ⊤ ∧ g i ≠ ⊥) : (∑ i, f i * g i) ≠ ⊤ ∧ (∑ i, f i * g i) ≠ ⊥ :=
  sum_finite _ _ fun i _ => mul_finite (hf i) (hg i)

/-- The exponential of a finite number is a positive finite number. -/
theorem exp_finite {x : EReal} (hx : x ≠ ⊤ ∧ x ≠ ⊥) :
    0 < Ideal.exp x ∧ Ideal.exp x ≠ ⊤ ∧ Ideal.exp x ≠ ⊥ := by
  obtain ⟨a, rfl⟩ := exists_coe_of_finite hx
  rw [Ideal.exp_coe]
  exact ⟨EReal.coe_pos.2 (Real.exp_pos a), coe_finite _⟩

/-- A positive number that is not ⊤ is finite. -/
theorem finite_of_pos {y : EReal} (hy : 0 < y) (hy' : y ≠ ⊤) : y ≠ ⊤ ∧ y ≠ ⊥ :=
  ⟨hy', fun h => absurd (h ▸ hy) (not_lt_of_ge bot_le)⟩

/-- A sum over a nonempty finite set of positive numbers that are not ⊤ is positive and not ⊤. -/
theorem sum_pos_finite {ι : Type*} (S : Finset ι) (hS : S.Nonempty) (f : ι → EReal)
    (hf : ∀ i ∈ S, 0 < f i ∧ f i ≠ ⊤) : 0 < ∑ i ∈ S, f i ∧ (∑ i ∈ S, f i) ≠ ⊤ := by
  classical
  refine ⟨?_, (sum_finite S f fun i hi => finite_of_pos (hf i hi).1 (hf i hi).2).1⟩
  induction hS using Finset.Nonempty.cons_induction with
  | singleton a => rw [Finset.sum_singleton]; exact (hf a (Finset.mem_singleton_self a)).1
  | cons a S ha hS ih =>
    rw [Finset.sum_cons]
    have h1 := (hf a (Finset.mem_cons_self a S)).1
    have h2 := ih fun i hi => hf i (Finset.mem_cons.2 (Or.inr hi))
    calc (0 : EReal) = 0 + 0 := (add_zero 0).symm
      _ < f a + ∑ i ∈ S, f i := EReal.add_lt_add h1 h2

/-- The quotient of a finite number by a positive number that is not ⊤ is finite. -/
theorem div_finite {x y : EReal} (hx : x ≠ ⊤ ∧ x ≠ ⊥) (hy : 0 < y) (hy' : y ≠ ⊤) :
    Ideal.div x y ≠ ⊤ ∧ Ideal.div x y ≠ ⊥ := by
  obtain ⟨b, rfl⟩ := exists_coe_of_finite (finite_of_pos hy hy')
  have hb : b ≠ 0 := (EReal.coe_pos.1 hy).ne'
  rw [Ideal.div_coe hb]
  exact mul_finite hx (coe_finite _)

end Cert.Lib.Finite

end
-- ==== Proof.SpecBridge.lean ====
/-
  The specification of the attention output, restated in the forms the kernel's side meets.

  A head's output is a softmax-weighted sum: with M the largest score of a row, e = exp (score − M), Z = Σ e, the
  output is Σ (e / Z) · v. That is the two-pass form of the streaming softmax's result, so the specification's y is
  that form over the specification's scores and v projection. The geometry bias clamps a linear form at zero and then
  at a positive constant c before the logarithm; since 0 < c the first clamp is absorbed: max (max s 0) c = max s c.
  When every entry of the argument arrays is finite (neither ⊤ nor ⊥), so is every projection, every geometry bias
  (max s c is then a positive real, and its logarithm a real) and every score. Last, the same statements over
  head-major arrays Q, K, V, a 16 × 1 × 1 gate bias and copies of the pair embedding and the gate weights, under the
  hypotheses that these arrays hold the specification's pieces. No program is mentioned.
-/
import proofs.«153090_j59820304499077_2_alg».proof.Proof.RefSpec
import proofs.«153090_j59820304499077_2_alg».proof.Proof.LibOnlineSoftmax
import proofs.«153090_j59820304499077_2_alg».proof.Proof.LibClamp
import proofs.«153090_j59820304499077_2_alg».proof.Proof.LibFinite

noncomputable section

open scoped BigOperators

namespace Cert.Spec

open Idealize.ShloMosaic Idealize.ShloMosaic.ValueIdx
open Cert.Lib.OnlineSoftmax

section
variable (x : A1024x1024) (pe : A1024x1024x64) (Wq : A1024x1024) (bq : A1024) (Wk : A1024x1024) (bk : A1024)
  (Wv : A1024x1024) (bv : A1024) (Wg : A16x64) (bg : A16)

/-- The row maximum is the fold of max from ⊥ alone: a further maximum with ⊥ changes nothing. -/
theorem M_eq_fold (h : Fin 16) (n : Fin 1024) :
    M x pe Wq bq Wk bk Wg bg h n
      = (Finset.univ : Finset (Fin 1024)).fold max ⊥ (fun m => sc x pe Wq bq Wk bk Wg bg h n m) := by
  unfold M
  exact max_bot_left _

/-- A head's output is the two-pass softmax-weighted sum of the v projection over the row's scores. -/
theorem y_eq_refOut (h : Fin 16) (n : Fin 1024) (d : Fin 64) :
    y x pe Wq bq Wk bk Wv bv Wg bg h n d
      = refOut (fun m : Fin 1024 => sc x pe Wq bq Wk bk Wg bg h n m)
          (fun (m : Fin 1024) (d' : Fin 64) => proj x Wv bv h m d') d := by
  rw [refOut_def]
  unfold y w Z e
  simp only [M_eq_fold]

/-- The geometry bias with the two clamps merged: the clamp at zero is absorbed by the clamp at the positive constant. -/
theorem g_eq_clamp (h : Fin 16) (i j : Fin 1024) :
    g pe Wg bg h i j
      = Ideal.log (max ((∑ d : Fin 64, Wg (ix2 h d) * pe (ix3 i j d)) + bg (ix1 h))
          (Ideal.ofBits .f32 0x358637BD#32)) := by
  unfold g c6
  rw [Cert.Lib.Clamp.max_max_zero_clamp]

/-- Scores written over head-major projection arrays, the pair embedding, the gate weights and a 16 × 1 × 1 gate bias
    are the specification's scores, when those arrays hold the specification's pieces. -/
theorem score_eq_sc (Q K : (⟨3, ![16, 1024, 64]⟩ : Shape).Idx → EReal) (pe' : A1024x1024x64) (wg : A16x64)
    (bg3 : (⟨3, ![16, 1, 1]⟩ : Shape).Idx → EReal)
    (hQ : ∀ (h : Fin 16) (n : Fin 1024) (d : Fin 64), Q (ix3 h n d) = proj x Wq bq h n d)
    (hK : ∀ (h : Fin 16) (n : Fin 1024) (d : Fin 64), K (ix3 h n d) = proj x Wk bk h n d)
    (hpe : pe' = pe) (hwg : wg = Wg) (hbg : ∀ h : Fin 16, bg3 (ix3 h (0 : Fin 1) (0 : Fin 1)) = bg (ix1 h))
    (h : Fin 16) (n m : Fin 1024) :
    (∑ d : Fin 64, Q (ix3 h n d) * K (ix3 h m d))
        + Ideal.log (max ((∑ d : Fin 64, wg (ix2 h d) * pe' (ix3 n m d)) + bg3 (ix3 h (0 : Fin 1) (0 : Fin 1)))
            (Ideal.ofBits .f32 0x358637BD#32))
      = sc x pe Wq bq Wk bk Wg bg h n m := by
  subst hpe hwg
  unfold sc
  rw [g_eq_clamp, hbg h]
  simp only [hQ, hK]

/-- The head output through the two-pass form over those arrays is the specification's head output. -/
theorem refOut_eq_y (Q K Vv : (⟨3, ![16, 1024, 64]⟩ : Shape).Idx → EReal) (pe' : A1024x1024x64) (wg : A16x64)
    (bg3 : (⟨3, ![16, 1, 1]⟩ : Shape).Idx → EReal)
    (hQ : ∀ (h : Fin 16) (n : Fin 1024) (d : Fin 64), Q (ix3 h n d) = proj x Wq bq h n d)
    (hK : ∀ (h : Fin 16) (n : Fin 1024) (d : Fin 64), K (ix3 h n d) = proj x Wk bk h n d)
    (hV : ∀ (h : Fin 16) (n : Fin 1024) (d : Fin 64), Vv (ix3 h n d) = proj x Wv bv h n d)
    (hpe : pe' = pe) (hwg : wg = Wg) (hbg : ∀ h : Fin 16, bg3 (ix3 h (0 : Fin 1) (0 : Fin 1)) = bg (ix1 h))
    (h : Fin 16) (n : Fin 1024) (d : Fin 64) :
    refOut (fun m : Fin 1024 => (∑ d : Fin 64, Q (ix3 h n d) * K (ix3 h m d))
        + Ideal.log (max ((∑ d : Fin 64, wg (ix2 h d) * pe' (ix3 n m d)) + bg3 (ix3 h (0 : Fin 1) (0 : Fin 1)))
            (Ideal.ofBits .f32 0x358637BD#32)))
      (fun (m : Fin 1024) (d' : Fin 64) => Vv (ix3 h m d')) d
      = y x pe Wq bq Wk bk Wv bv Wg bg h n d := by
  rw [y_eq_refOut]
  simp only [score_eq_sc x pe Wq bq Wk bk Wg bg Q K pe' wg bg3 hQ hK hpe hwg hbg, hV]

end

/-! ## Finiteness

"Finite" is spelt `x ≠ ⊤ ∧ x ≠ ⊥`. When every entry of the argument arrays is finite, so is every projection, every
geometry bias (the clamp makes the logarithm's argument a positive real) and every score. -/

section Finite
open Cert.Lib.Finite

theorem proj_finite (x W : A1024x1024) (b : A1024) (hx : ∀ i, x i ≠ ⊤ ∧ x i ≠ ⊥) (hW : ∀ i, W i ≠ ⊤ ∧ W i ≠ ⊥) (hb : ∀ i, b i ≠ ⊤ ∧ b i ≠ ⊥)
    (h : Fin 16) (n : Fin 1024) (d : Fin 64) : proj x W b h n d ≠ ⊤ ∧ proj x W b h n d ≠ ⊥ := by
  unfold proj
  exact add_finite (sum_mul_finite _ _ (fun _ => hx _) (fun _ => hW _)) (hb _)

theorem g_finite (pe : A1024x1024x64) (Wg : A16x64) (bg : A16) (hpe : ∀ i, pe i ≠ ⊤ ∧ pe i ≠ ⊥) (hWg : ∀ i, Wg i ≠ ⊤ ∧ Wg i ≠ ⊥) (hbg : ∀ i, bg i ≠ ⊤ ∧ bg i ≠ ⊥)
    (h : Fin 16) (i j : Fin 1024) : g pe Wg bg h i j ≠ ⊤ ∧ g pe Wg bg h i j ≠ ⊥ := by
  rw [g_eq_clamp]
  exact Cert.Lib.Clamp.log_max_clamp_finite
    (add_finite (sum_mul_finite _ _ (fun _ => hWg _) (fun _ => hpe _)) (hbg _)).1

theorem sc_finite (x : A1024x1024) (pe : A1024x1024x64) (Wq : A1024x1024) (bq : A1024) (Wk : A1024x1024) (bk : A1024)
    (Wg : A16x64) (bg : A16) (hx : ∀ i, x i ≠ ⊤ ∧ x i ≠ ⊥) (hpe : ∀ i, pe i ≠ ⊤ ∧ pe i ≠ ⊥) (hWq : ∀ i, Wq i ≠ ⊤ ∧ Wq i ≠ ⊥) (hbq : ∀ i, bq i ≠ ⊤ ∧ bq i ≠ ⊥) (hWk : ∀ i, Wk i ≠ ⊤ ∧ Wk i ≠ ⊥) (hbk : ∀ i, bk i ≠ ⊤ ∧ bk i ≠ ⊥) (hWg : ∀ i, Wg i ≠ ⊤ ∧ Wg i ≠ ⊥) (hbg : ∀ i, bg i ≠ ⊤ ∧ bg i ≠ ⊥)
    (h : Fin 16) (n m : Fin 1024) :
    sc x pe Wq bq Wk bk Wg bg h n m ≠ ⊤ ∧ sc x pe Wq bq Wk bk Wg bg h n m ≠ ⊥ := by
  unfold sc
  exact add_finite
    (sum_mul_finite _ _ (fun d => proj_finite x Wq bq hx hWq hbq h n d) (fun d => proj_finite x Wk bk hx hWk hbk h m d))
    (g_finite pe Wg bg hpe hWg hbg h n m)

/-- The scores written over head-major arrays that hold the specification's pieces are finite. -/
theorem score_finite (x : A1024x1024) (pe : A1024x1024x64) (Wq : A1024x1024) (bq : A1024) (Wk : A1024x1024) (bk : A1024)
    (Wg : A16x64) (bg : A16) (hx : ∀ i, x i ≠ ⊤ ∧ x i ≠ ⊥) (hpe : ∀ i, pe i ≠ ⊤ ∧ pe i ≠ ⊥) (hWq : ∀ i, Wq i ≠ ⊤ ∧ Wq i ≠ ⊥) (hbq : ∀ i, bq i ≠ ⊤ ∧ bq i ≠ ⊥) (hWk : ∀ i, Wk i ≠ ⊤ ∧ Wk i ≠ ⊥) (hbk : ∀ i, bk i ≠ ⊤ ∧ bk i ≠ ⊥) (hWg : ∀ i, Wg i ≠ ⊤ ∧ Wg i ≠ ⊥) (hbg : ∀ i, bg i ≠ ⊤ ∧ bg i ≠ ⊥)
    (Q K : (⟨3, ![16, 1024, 64]⟩ : Shape).Idx → EReal) (pe' : A1024x1024x64) (wg : A16x64)
    (bg3 : (⟨3, ![16, 1, 1]⟩ : Shape).Idx → EReal)
    (hQ : ∀ (h : Fin 16) (n : Fin 1024) (d : Fin 64), Q (ix3 h n d) = proj x Wq bq h n d)
    (hK : ∀ (h : Fin 16) (n : Fin 1024) (d : Fin 64), K (ix3 h n d) = proj x Wk bk h n d)
    (hpe' : pe' = pe) (hwg : wg = Wg) (hbg3 : ∀ h : Fin 16, bg3 (ix3 h (0 : Fin 1) (0 : Fin 1)) = bg (ix1 h))
    (h : Fin 16) (n m : Fin 1024) :
    (∑ d : Fin 64, Q (ix3 h n d) * K (ix3 h m d))
        + Ideal.log (max ((∑ d : Fin 64, wg (ix2 h d) * pe' (ix3 n m d)) + bg3 (ix3 h (0 : Fin 1) (0 : Fin 1)))
            (Ideal.ofBits .f32 0x358637BD#32)) ≠ ⊤
      ∧ (∑ d : Fin 64, Q (ix3 h n d) * K (ix3 h m d))
        + Ideal.log (max ((∑ d : Fin 64, wg (ix2 h d) * pe' (ix3 n m d)) + bg3 (ix3 h (0 : Fin 1) (0 : Fin 1)))
            (Ideal.ofBits .f32 0x358637BD#32)) ≠ ⊥ := by
  rw [score_eq_sc x pe Wq bq Wk bk Wg bg Q K pe' wg bg3 hQ hK hpe' hwg hbg3 h n m]
  exact sc_finite x pe Wq bq Wk bk Wg bg hx hpe hWq hbq hWk hbk hWg hbg h n m

/-- A head-major array that holds the v projection is finite. -/
theorem V_finite (x Wv : A1024x1024) (bv : A1024) (hx : ∀ i, x i ≠ ⊤ ∧ x i ≠ ⊥) (hWv : ∀ i, Wv i ≠ ⊤ ∧ Wv i ≠ ⊥) (hbv : ∀ i, bv i ≠ ⊤ ∧ bv i ≠ ⊥)
    (Vv : (⟨3, ![16, 1024, 64]⟩ : Shape).Idx → EReal)
    (hV : ∀ (h : Fin 16) (n : Fin 1024) (d : Fin 64), Vv (ix3 h n d) = proj x Wv bv h n d)
    (h : Fin 16) (m : Fin 1024) (d' : Fin 64) : Vv (ix3 h m d') ≠ ⊤ ∧ Vv (ix3 h m d') ≠ ⊥ := by
  rw [hV]
  exact proj_finite x Wv bv hx hWv hbv h m d'

end Finite

end Cert.Spec

end
-- ==== Proof.IdealValueOut.lean ====
/-
  The kernel program's result as a function of the launch arguments. The attention region's output array holds the
  heads' softmax-weighted sums of values — its online accumulation over key blocks equals the two-pass softmax because,
  the arguments being finite, every score and value is a real number —, and the output region adds the activations to
  the projection of the heads laid side by side: the specification's result, entry by entry.
-/
import proofs.«153090_j59820304499077_2_alg».proof.Proof.IdealValueIn
import proofs.«153090_j59820304499077_2_alg».proof.Proof.IdealFinal1
import proofs.«153090_j59820304499077_2_alg».proof.Proof.IdealFinal2
import proofs.«153090_j59820304499077_2_alg».proof.Proof.SpecBridge
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelIdeal.Glue (fcol)

variable (m : (ℓ : Loc nD τ sig) → Buf (Elt Ideal) ℓ) (ρ : Dev nD → PrngReg) (c : Dev nD)

/-- The twelve launch arguments on core c, as arrays of extended reals. -/
abbrev arr0 : Cert.Spec.A1024x1024 := m ((c : Thread nD τ).loc main_arg0)
abbrev arr1 : Cert.Spec.A1024x1024x64 := m ((c : Thread nD τ).loc main_arg1)
abbrev arr2 : Cert.Spec.A1024x1024 := m ((c : Thread nD τ).loc main_arg2)
abbrev arr3 : Cert.Spec.A1024 := m ((c : Thread nD τ).loc main_arg3)
abbrev arr4 : Cert.Spec.A1024x1024 := m ((c : Thread nD τ).loc main_arg4)
abbrev arr5 : Cert.Spec.A1024 := m ((c : Thread nD τ).loc main_arg5)
abbrev arr6 : Cert.Spec.A1024x1024 := m ((c : Thread nD τ).loc main_arg6)
abbrev arr7 : Cert.Spec.A1024 := m ((c : Thread nD τ).loc main_arg7)
abbrev arr8 : Cert.Spec.A16x64 := m ((c : Thread nD τ).loc main_arg8)
abbrev arr9 : Cert.Spec.A16 := m ((c : Thread nD τ).loc main_arg9)
abbrev arr10 : Cert.Spec.A1024x1024 := m ((c : Thread nD τ).loc main_arg10)
abbrev arr11 : Cert.Spec.A1024 := m ((c : Thread nD τ).loc main_arg11)

/-- The attention region's output array holds the specification's head outputs. -/
theorem y_val
    (f0 : ∀ i, arr0 m c i ≠ ⊤ ∧ arr0 m c i ≠ ⊥)
    (f1 : ∀ i, arr1 m c i ≠ ⊤ ∧ arr1 m c i ≠ ⊥)
    (f2 : ∀ i, arr2 m c i ≠ ⊤ ∧ arr2 m c i ≠ ⊥)
    (f3 : ∀ i, arr3 m c i ≠ ⊤ ∧ arr3 m c i ≠ ⊥)
    (f4 : ∀ i, arr4 m c i ≠ ⊤ ∧ arr4 m c i ≠ ⊥)
    (f5 : ∀ i, arr5 m c i ≠ ⊤ ∧ arr5 m c i ≠ ⊥)
    (f6 : ∀ i, arr6 m c i ≠ ⊤ ∧ arr6 m c i ≠ ⊥)
    (f7 : ∀ i, arr7 m c i ≠ ⊤ ∧ arr7 m c i ≠ ⊥)
    (f8 : ∀ i, arr8 m c i ≠ ⊤ ∧ arr8 m c i ≠ ⊥)
    (f9 : ∀ i, arr9 m c i ≠ ⊤ ∧ arr9 m c i ≠ ⊥)
    (f10 : ∀ i, arr10 m c i ≠ ⊤ ∧ arr10 m c i ≠ ⊥)
    (f11 : ∀ i, arr11 m c i ≠ ⊤ ∧ arr11 m c i ≠ ⊥)
    (h : Fin 16) (n : Fin 1024) (d : Fin 64) :
    (W4 m ρ c (Proc.devRef .tc main_v18) : (⟨S16x1024x64, .bf16⟩ : BufTy).Contents (Elt Ideal)) (ix3 h n d)
      = Cert.Spec.y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) h n d := by
  rw [show W4 m ρ c (Proc.devRef .tc main_v18) = (dat1 (Vw3 m ρ) c).arrAt 6 cfg1.N from W4_arr m ρ c 6]
  rw [final1 (Vw3 m ρ) c]
  refine (G1_eq_refOut _ _ _ _ _ _ h n d ?hs ?hv).trans ?_
  case hs =>
    intro m'
    exact Cert.Spec.score_finite (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) f0 f1 f2 f3 f4 f5 f8 f9
      (Vw3 m ρ c main_v9) (Vw3 m ρ c main_v12) (Vw3 m ρ c main_arg1) (Vw3 m ρ c main_arg8) (Vw3 m ρ c main_v17)
      (q_eq m ρ c) (k_eq m ρ c) (pe_eq m ρ c) (wg_eq m ρ c) (bg_eq m ρ c) h n m'
  case hv =>
    intro m' d'
    exact Cert.Spec.V_finite (m ((c : Thread nD τ).loc main_arg0)) (m ((c : Thread nD τ).loc main_arg6)) (m ((c : Thread nD τ).loc main_arg7)) f0 f6 f7 (Vw3 m ρ c main_v16) (v_eq m ρ c) h m' d'
  exact Cert.Spec.refOut_eq_y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (Vw3 m ρ c main_v9) (Vw3 m ρ c main_v12) (Vw3 m ρ c main_v16) (Vw3 m ρ c main_arg1) (Vw3 m ρ c main_arg8) (Vw3 m ρ c main_v17)
    (q_eq m ρ c) (k_eq m ρ c) (v_eq m ρ c) (pe_eq m ρ c) (wg_eq m ρ c) (bg_eq m ρ c) h n d

/-- The program's result array at row n, column c'. -/
theorem out_val
    (f0 : ∀ i, arr0 m c i ≠ ⊤ ∧ arr0 m c i ≠ ⊥)
    (f1 : ∀ i, arr1 m c i ≠ ⊤ ∧ arr1 m c i ≠ ⊥)
    (f2 : ∀ i, arr2 m c i ≠ ⊤ ∧ arr2 m c i ≠ ⊥)
    (f3 : ∀ i, arr3 m c i ≠ ⊤ ∧ arr3 m c i ≠ ⊥)
    (f4 : ∀ i, arr4 m c i ≠ ⊤ ∧ arr4 m c i ≠ ⊥)
    (f5 : ∀ i, arr5 m c i ≠ ⊤ ∧ arr5 m c i ≠ ⊥)
    (f6 : ∀ i, arr6 m c i ≠ ⊤ ∧ arr6 m c i ≠ ⊥)
    (f7 : ∀ i, arr7 m c i ≠ ⊤ ∧ arr7 m c i ≠ ⊥)
    (f8 : ∀ i, arr8 m c i ≠ ⊤ ∧ arr8 m c i ≠ ⊥)
    (f9 : ∀ i, arr9 m c i ≠ ⊤ ∧ arr9 m c i ≠ ⊥)
    (f10 : ∀ i, arr10 m c i ≠ ⊤ ∧ arr10 m c i ≠ ⊥)
    (f11 : ∀ i, arr11 m c i ≠ ⊤ ∧ arr11 m c i ≠ ⊥)
    (n c' : Fin 1024) :
    (W6 m ρ c (Proc.devRef .tc main_v24) : (⟨S1024x1024, .f32⟩ : BufTy).Contents (Elt Ideal)) (ix2 n c')
      = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) n c' := by
  rw [show W6 m ρ c (Proc.devRef .tc main_v24) = (dat2 (Vw5 m ρ) c).arrAt 4 cfg2.N from W6_arr m ρ c 4]
  rw [final2 (Vw5 m ρ) c, G2_apply]
  unfold Cert.Spec.out
  congr 1
  · exact congrFun (W5_main_arg0 m ρ c) (ix2 n c')
  · congr 1
    · refine Finset.sum_congr rfl fun e _ => ?_
      congr 1
      · exact (Glue.g2_y (W4 m ρ c) n e).trans (y_val m ρ c f0 f1 f2 f3 f4 f5 f6 f7 f8 f9 f10 f11 _ _ _)
      · exact (Glue.g2_wy (W4 m ρ c) e c').trans (congrFun (W4_main_arg10 m ρ c) (ix2 c' e))
    · exact (Glue.g2_bo (W4 m ρ c) c').trans (congrFun (W4_main_arg11 m ρ c) (ix1 c'))

/-- The same as an equation of arrays. -/
theorem value_v24
    (f0 : ∀ i, arr0 m c i ≠ ⊤ ∧ arr0 m c i ≠ ⊥)
    (f1 : ∀ i, arr1 m c i ≠ ⊤ ∧ arr1 m c i ≠ ⊥)
    (f2 : ∀ i, arr2 m c i ≠ ⊤ ∧ arr2 m c i ≠ ⊥)
    (f3 : ∀ i, arr3 m c i ≠ ⊤ ∧ arr3 m c i ≠ ⊥)
    (f4 : ∀ i, arr4 m c i ≠ ⊤ ∧ arr4 m c i ≠ ⊥)
    (f5 : ∀ i, arr5 m c i ≠ ⊤ ∧ arr5 m c i ≠ ⊥)
    (f6 : ∀ i, arr6 m c i ≠ ⊤ ∧ arr6 m c i ≠ ⊥)
    (f7 : ∀ i, arr7 m c i ≠ ⊤ ∧ arr7 m c i ≠ ⊥)
    (f8 : ∀ i, arr8 m c i ≠ ⊤ ∧ arr8 m c i ≠ ⊥)
    (f9 : ∀ i, arr9 m c i ≠ ⊤ ∧ arr9 m c i ≠ ⊥)
    (f10 : ∀ i, arr10 m c i ≠ ⊤ ∧ arr10 m c i ≠ ⊥)
    (f11 : ∀ i, arr11 m c i ≠ ⊤ ∧ arr11 m c i ≠ ⊥) :
    W6 m ρ c (Proc.devRef .tc main_v24)
      = fun i => Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1) := by
  funext i
  obtain ⟨n, c', rfl⟩ : ∃ (n c' : Fin 1024), i = ix2 n c' := ⟨i 0, i 1, eq_ix2 i⟩
  exact out_val m ρ c f0 f1 f2 f3 f4 f5 f6 f7 f8 f9 f10 f11 n c'

end Cert.KernelIdeal.Hand

end
-- ==== Proof.IdealFinite.lean ====
/-
  Finite inputs. The precondition computes, for each of the twelve argument arrays, whether every
  entry x satisfies |x| < +∞, and conjoins the twelve answers. At the extended reals |x| is
  max x (-x), which is +∞ exactly when x is +∞ or -∞; so the precondition holding means that every
  entry of every array is neither ⊤ nor ⊥.
-/
import proofs.«153090_j59820304499077_2_alg».proof.Pre_finite_inputs
import Idealize.ShloMosaic.PureOps.Ideal
import Idealize.ShloMosaic.Lib.ValueIdx
import Idealize.ShloMosaic.Lib.ReduceAll

noncomputable section

namespace Cert.Finite

open Idealize.ShloMosaic Cert.Pre_finite_inputs

/-- The rank-0 shape has one index. -/
instance : Subsingleton S_.Idx := ⟨fun _ _ => funext fun d => d.elim0⟩

/-- The f32 word 0x7F800000 is +∞. -/
theorem ofBits_pos_inf_f32 : Ideal.ofBits .f32 0x7F800000#32 = ⊤ := by simp [Ideal.ofBits, Ideal.ieee]

/-- An extended real whose absolute value max x (-x) is below +∞ is neither ⊤ nor ⊥. -/
theorem finite_of_abs_lt_top {x : EReal} (h : max x (-x) < ⊤) : x ≠ ⊤ ∧ x ≠ ⊥ := by
  constructor
  · rintro rfl
    simp at h
  · rintro rfl
    simp at h

/-- One array's test: if the conjunction over all entries of |x i| < +∞ (a reduction by and of the
    comparisons against the broadcast word 0x7F800000, from any initial value) is 1, then every entry
    is neither ⊤ nor ⊥. Any shape, any reduced axes. -/
theorem finite_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32)))
        init hr hu ValueIdx.ix0 = 1#1) (i : s.Idx) : x i ≠ ⊤ ∧ x i ≠ ⊥ := by
  have h1 := Host.reduce_andi_all _ init hr hu ValueIdx.ix0 e i
  have h2 : Ideal.cmp .olt (max (x i) (-(x i))) (Ideal.ofBits .f32 0x7F800000#32) = 1#1 := h1
  rw [ofBits_pos_inf_f32] at h2
  have hb : ∀ b : Bool, BitVec.ofBool b = 1#1 → b = true := by decide
  have h3 : decide (max (x i) (-(x i)) < ⊤) = true := hb _ h2
  exact finite_of_abs_lt_top (of_decide_eq_true h3)

variable [Facts]

/-- If the precondition holds, every entry of each of the twelve argument arrays is neither ⊤ nor ⊥
    (the twelve conjuncts in argument order). -/
theorem finite_of_pre (a0 : FVec Ideal S1024x1024 .f32) (a1 : FVec Ideal S1024x1024x64 .f32)
    (a2 : FVec Ideal S1024x1024 .f32) (a3 : FVec Ideal S1024 .f32) (a4 : FVec Ideal S1024x1024 .f32)
    (a5 : FVec Ideal S1024 .f32) (a6 : FVec Ideal S1024x1024 .f32) (a7 : FVec Ideal S1024 .f32)
    (a8 : FVec Ideal S16x64 .f32) (a9 : FVec Ideal S16 .f32) (a10 : FVec Ideal S1024x1024 .f32)
    (a11 : FVec Ideal S1024 .f32)
    (h : fn (F := Ideal) a0 a1 a2 a3 a4 a5 a6 a7 a8 a9 a10 a11 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) ∧
    (∀ i, a3 i ≠ ⊤ ∧ a3 i ≠ ⊥) ∧ (∀ i, a4 i ≠ ⊤ ∧ a4 i ≠ ⊥) ∧ (∀ i, a5 i ≠ ⊤ ∧ a5 i ≠ ⊥) ∧
    (∀ i, a6 i ≠ ⊤ ∧ a6 i ≠ ⊥) ∧ (∀ i, a7 i ≠ ⊤ ∧ a7 i ≠ ⊥) ∧ (∀ i, a8 i ≠ ⊤ ∧ a8 i ≠ ⊥) ∧
    (∀ i, a9 i ≠ ⊤ ∧ a9 i ≠ ⊥) ∧ (∀ i, a10 i ≠ ⊤ ∧ a10 i ≠ ⊥) ∧ (∀ i, a11 i ≠ ⊤ ∧ a11 i ≠ ⊥) := by
  have h0 := congrFun h ValueIdx.ix0
  dsimp only [fn, fn_part1, fn_part2, fn_part3] at h0
  simp only [andi, IntOp.andi_eq_one] at h0
  obtain ⟨⟨⟨⟨⟨⟨⟨⟨⟨⟨⟨e0, e1⟩, e2⟩, e3⟩, e4⟩, e5⟩, e6⟩, e7⟩, e8⟩, e9⟩, e10⟩, e11⟩ := h0
  exact ⟨finite_of_all a0 _ _ _ _ e0, finite_of_all a1 _ _ _ _ e1, finite_of_all a2 _ _ _ _ e2,
    finite_of_all a3 _ _ _ _ e3, finite_of_all a4 _ _ _ _ e4, finite_of_all a5 _ _ _ _ e5,
    finite_of_all a6 _ _ _ _ e6, finite_of_all a7 _ _ _ _ e7, finite_of_all a8 _ _ _ _ e8,
    finite_of_all a9 _ _ _ _ e9, finite_of_all a10 _ _ _ _ e10, finite_of_all a11 _ _ _ _ e11⟩

end Cert.Finite

end
-- ==== Proof.RefImports.lean ====
/- The reference's run and its stages read at an index: the generated modules this directory's reference-side
   lemmas are stated over. -/
import proofs.«153090_j59820304499077_2_alg».proof.Proof.Gen.ReferenceIdeal.Run
import proofs.«153090_j59820304499077_2_alg».proof.Proof.Gen.ReferenceIdeal.Read
-- ==== Proof.RefValue.lean ====
/-
  The reference program computes `Cert.Spec.out`.

  The reference is a straight line of host operations; its generated reading gives each operation at an index. Here
  the stages are read group by group at explicit coordinates — the geometry bias at (h, i, j), the three projections at
  (h, n, d) after their reshape to 16 heads of 64 lanes and the transpose to head-major, the scores at (h, n, m), the
  softmax pieces (row maximum, exponentials, normaliser, weights), the heads' outputs, and the output projection with
  the residual — and each is identified with the named piece of the specification. The only arithmetic is on indices:
  the flat position (n · 16 + h) · 64 + d of a reshaped projection is row n, column h · 64 + d, and column e of the
  side-by-side layout is head e / 64, lane e % 64. No law of the extended reals is used beyond `0 + s = s` for the
  normaliser's initial value and the words of 0 and −∞ denoting 0 and ⊥.
-/
import proofs.«153090_j59820304499077_2_alg».proof.Proof.RefImports
import proofs.«153090_j59820304499077_2_alg».proof.Proof.RefSpec

noncomputable section

open scoped BigOperators

namespace Cert.ReferenceIdeal.RefValue

open Cert.ReferenceIdeal Cert.ReferenceIdeal.Gen Cert.ReferenceIdeal.Read Idealize.ShloMosaic Idealize.ShloMosaic.ValueIdx Idealize.ShloMosaic.TcCoe Idealize.SL.Sem

/-- The f32 word of −∞ is the extended reals' bottom. -/
theorem ofBits_neg_inf : Ideal.ofBits .f32 0xFF800000#32 = ⊥ := by simp [Ideal.ofBits, Ideal.ieee]

/-! ## The geometry bias -/

theorem lidx_v0 (h : Fin 16) (i j : Fin 1024) (k : Fin 64) : lidx_main_v0 (ix3 h i j) k = ix2 h k :=
  funext fun a => Fin.ext (by match a with | ⟨0, _⟩ => rfl | ⟨1, _⟩ => rfl)
theorem ridx_v0 (h : Fin 16) (i j : Fin 1024) (k : Fin 64) : ridx_main_v0 (ix3 h i j) k = ix3 i j k :=
  funext fun a => Fin.ext (by match a with | ⟨0, _⟩ => rfl | ⟨1, _⟩ => rfl | ⟨2, _⟩ => rfl)
theorem idx_v1_v2 (h : Fin 16) (i j : Fin 1024) : idx_main_v1 (idx_main_v2 (ix3 h i j)) = ix1 h :=
  funext fun a => Fin.ext (by match a with | ⟨0, _⟩ => rfl)

/-- The reference's logarithm of the clamped linear form is the geometry bias. -/
theorem g_eq (x1 : (⟨S1024x1024x64, .f32⟩ : BufTy).Contents (Elt Ideal)) (x8 : (⟨S16x64, .f32⟩ : BufTy).Contents (Elt Ideal)) (x9 : (⟨S16, .f32⟩ : BufTy).Contents (Elt Ideal)) (h : Fin 16) (i j : Fin 1024) :
    val_main_v7 (F := Ideal) x1 x8 x9 (ix3 h i j) = Cert.Spec.g x1 x8 x9 h i j := by
  rw [val_main_v7_apply, val_main_v6_apply, val_main_v4_apply, val_main_v3_apply, val_main_v0_apply, val_main_v2_apply,
    val_main_v1_apply, val_main_call0_v0_apply, val_main_call0_cst_apply, val_main_v5_apply, val_main_cst_apply]
  simp only [lidx_v0, ridx_v0, idx_v1_v2, Ideal.hostUnary_log_def, Ideal.maximumf_def, Ideal.addf_def, Ideal.ofBits_def,
    Ideal.ofBits_zero_f32]
  rfl

/-! ## The three projections -/

theorem idx_v13_v14 (h : Fin 16) (n : Fin 1024) (d : Fin 64) :
    idx_main_v13 (idx_main_v14 (ix3 h n d)) = ix2 n (Cert.Spec.col h d) :=
  funext fun a => Fin.ext (by
    have := h.isLt; have := n.isLt; have := d.isLt
    match a with
    | ⟨0, _⟩ => show ((n.val * 16 + h.val) * 64 + d.val) / 1024 = n.val; omega
    | ⟨1, _⟩ => show ((n.val * 16 + h.val) * 64 + d.val) % 1024 = h.val * 64 + d.val; omega)
theorem lidx_v9 (n c k : Fin 1024) : lidx_main_v9 (ix2 n c) k = ix2 n k :=
  funext fun a => Fin.ext (by match a with | ⟨0, _⟩ => rfl | ⟨1, _⟩ => rfl)
theorem idx_v8_ridx_v9 (n c k : Fin 1024) : idx_main_v8 (ridx_main_v9 (ix2 n c) k) = ix2 c k :=
  funext fun a => Fin.ext (by match a with | ⟨0, _⟩ => rfl | ⟨1, _⟩ => rfl)
theorem idx_v10_v11 (n c : Fin 1024) : idx_main_v10 (idx_main_v11 (ix2 n c)) = ix1 c :=
  funext fun a => Fin.ext (by match a with | ⟨0, _⟩ => rfl)

/-- The reference's q projection, reshaped and transposed to head-major, is `proj` at (head, row, lane). -/
theorem q_eq (x0 x2 : (⟨S1024x1024, .f32⟩ : BufTy).Contents (Elt Ideal)) (x3 : (⟨S1024, .f32⟩ : BufTy).Contents (Elt Ideal)) (h : Fin 16) (n : Fin 1024) (d : Fin 64) :
    val_main_v14 (F := Ideal) x0 x2 x3 (ix3 h n d) = Cert.Spec.proj x0 x2 x3 h n d := by
  rw [val_main_v14_apply, val_main_v13_apply, idx_v13_v14, val_main_v12_apply, val_main_v9_apply,
    val_main_v11_apply, val_main_v10_apply, idx_v10_v11]
  simp only [val_main_v8_apply, lidx_v9, idx_v8_ridx_v9, Ideal.addf_def]
  rfl

theorem idx_v20_v21 (h : Fin 16) (n : Fin 1024) (d : Fin 64) :
    idx_main_v20 (idx_main_v21 (ix3 h n d)) = ix2 n (Cert.Spec.col h d) :=
  funext fun a => Fin.ext (by
    have := h.isLt; have := n.isLt; have := d.isLt
    match a with
    | ⟨0, _⟩ => show ((n.val * 16 + h.val) * 64 + d.val) / 1024 = n.val; omega
    | ⟨1, _⟩ => show ((n.val * 16 + h.val) * 64 + d.val) % 1024 = h.val * 64 + d.val; omega)
theorem lidx_v16 (n c k : Fin 1024) : lidx_main_v16 (ix2 n c) k = ix2 n k :=
  funext fun a => Fin.ext (by match a with | ⟨0, _⟩ => rfl | ⟨1, _⟩ => rfl)
theorem idx_v15_ridx_v16 (n c k : Fin 1024) : idx_main_v15 (ridx_main_v16 (ix2 n c) k) = ix2 c k :=
  funext fun a => Fin.ext (by match a with | ⟨0, _⟩ => rfl | ⟨1, _⟩ => rfl)
theorem idx_v17_v18 (n c : Fin 1024) : idx_main_v17 (idx_main_v18 (ix2 n c)) = ix1 c :=
  funext fun a => Fin.ext (by match a with | ⟨0, _⟩ => rfl)

/-- The reference's k projection, reshaped and transposed to head-major, is `proj` at (head, row, lane). -/
theorem k_eq (x0 x4 : (⟨S1024x1024, .f32⟩ : BufTy).Contents (Elt Ideal)) (x5 : (⟨S1024, .f32⟩ : BufTy).Contents (Elt Ideal)) (h : Fin 16) (n : Fin 1024) (d : Fin 64) :
    val_main_v21 (F := Ideal) x0 x4 x5 (ix3 h n d) = Cert.Spec.proj x0 x4 x5 h n d := by
  rw [val_main_v21_apply, val_main_v20_apply, idx_v20_v21, val_main_v19_apply, val_main_v16_apply,
    val_main_v18_apply, val_main_v17_apply, idx_v17_v18]
  simp only [val_main_v15_apply, lidx_v16, idx_v15_ridx_v16, Ideal.addf_def]
  rfl

theorem idx_v27_v28 (h : Fin 16) (n : Fin 1024) (d : Fin 64) :
    idx_main_v27 (idx_main_v28 (ix3 h n d)) = ix2 n (Cert.Spec.col h d) :=
  funext fun a => Fin.ext (by
    have := h.isLt; have := n.isLt; have := d.isLt
    match a with
    | ⟨0, _⟩ => show ((n.val * 16 + h.val) * 64 + d.val) / 1024 = n.val; omega
    | ⟨1, _⟩ => show ((n.val * 16 + h.val) * 64 + d.val) % 1024 = h.val * 64 + d.val; omega)
theorem lidx_v23 (n c k : Fin 1024) : lidx_main_v23 (ix2 n c) k = ix2 n k :=
  funext fun a => Fin.ext (by match a with | ⟨0, _⟩ => rfl | ⟨1, _⟩ => rfl)
theorem idx_v22_ridx_v23 (n c k : Fin 1024) : idx_main_v22 (ridx_main_v23 (ix2 n c) k) = ix2 c k :=
  funext fun a => Fin.ext (by match a with | ⟨0, _⟩ => rfl | ⟨1, _⟩ => rfl)
theorem idx_v24_v25 (n c : Fin 1024) : idx_main_v24 (idx_main_v25 (ix2 n c)) = ix1 c :=
  funext fun a => Fin.ext (by match a with | ⟨0, _⟩ => rfl)

/-- The reference's v projection, reshaped and transposed to head-major, is `proj` at (head, row, lane). -/
theorem v_eq (x0 x6 : (⟨S1024x1024, .f32⟩ : BufTy).Contents (Elt Ideal)) (x7 : (⟨S1024, .f32⟩ : BufTy).Contents (Elt Ideal)) (h : Fin 16) (n : Fin 1024) (d : Fin 64) :
    val_main_v28 (F := Ideal) x0 x6 x7 (ix3 h n d) = Cert.Spec.proj x0 x6 x7 h n d := by
  rw [val_main_v28_apply, val_main_v27_apply, idx_v27_v28, val_main_v26_apply, val_main_v23_apply,
    val_main_v25_apply, val_main_v24_apply, idx_v24_v25]
  simp only [val_main_v22_apply, lidx_v23, idx_v22_ridx_v23, Ideal.addf_def]
  rfl

/-! ## The scores -/

theorem lidx_v29 (h : Fin 16) (n m : Fin 1024) (k : Fin 64) : lidx_main_v29 (ix3 h n m) k = ix3 h n k :=
  funext fun a => Fin.ext (by match a with | ⟨0, _⟩ => rfl | ⟨1, _⟩ => rfl | ⟨2, _⟩ => rfl)
theorem ridx_v29 (h : Fin 16) (n m : Fin 1024) (k : Fin 64) : ridx_main_v29 (ix3 h n m) k = ix3 h m k :=
  funext fun a => Fin.ext (by match a with | ⟨0, _⟩ => rfl | ⟨1, _⟩ => rfl | ⟨2, _⟩ => rfl)

/-- The reference's batched product of the q and k projections plus the geometry bias is the score. -/
theorem sc_eq (x0 : (⟨S1024x1024, .f32⟩ : BufTy).Contents (Elt Ideal)) (x1 : (⟨S1024x1024x64, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x8 : (⟨S16x64, .f32⟩ : BufTy).Contents (Elt Ideal)) (x9 : (⟨S16, .f32⟩ : BufTy).Contents (Elt Ideal)) (h : Fin 16) (n m : Fin 1024) :
    val_main_v30 (F := Ideal) x0 x1 x2 x3 x4 x5 x8 x9 (ix3 h n m) = Cert.Spec.sc x0 x1 x2 x3 x4 x5 x8 x9 h n m := by
  rw [val_main_v30_apply, val_main_v29_apply, g_eq]
  simp only [lidx_v29, ridx_v29, q_eq, k_eq, Ideal.addf_def]
  rfl

/-! ## The softmax: row maximum, exponentials, normaliser, weights -/

/-- The reduce's inserted index: the row (h, n) with column m put back on the last axis. -/
theorem lift_row (hr : S16x1024x1024.Reduces [2] S16x1024) (h : Fin 16) (n m : Fin 1024) :
    hr.lift (ix2 h n) m = ix3 h n m :=
  funext fun a => Fin.ext (by match a with | ⟨0, _⟩ => rfl | ⟨1, _⟩ => rfl | ⟨2, _⟩ => rfl)

/-- A max-reduce over the last axis from the word of −∞, at row (h, n): the fold of `max` from ⊥ over the row's
    entries (`max` commutes and associates, so the reduce's order does not matter). -/
theorem rowmax_fold (y : (⟨S16x1024x1024, .f32⟩ : BufTy).Contents (Elt Ideal)) (h : Fin 16) (n : Fin 1024) :
    Host.reduce (FloatOps.maximumf (F := Ideal) (φ := .f32)) y (val_main_cst_0 (F := Ideal))
        reducesTo_S16x1024x1024_S16x1024_d2 h_S_ (ix2 h n)
      = (Finset.univ : Finset (Fin 1024)).fold max ⊥ (fun m => y (ix3 h n m)) := by
  have hr : S16x1024x1024.Reduces [2] S16x1024 := by decide
  refine (Host.reduce_eq_fold_single (α := EReal) (FloatOps.maximumf (F := Ideal) (φ := .f32)) y _ _ hr h_S_
    (ix2 h n)).trans ?_
  have hf : (y ∘ hr.lift (ix2 h n)) = fun m : Fin 1024 => y (ix3 h n m) :=
    funext fun m => congrArg y (lift_row hr h n m)
  have hb : val_main_cst_0 (F := Ideal) (Shape.Idx.first h_S_) = (⊥ : EReal) := ofBits_neg_inf
  rw [hf, hb]
  rfl

/-- The reference's max-reduce of the scores from −∞, then the maximum with −∞ again, is the row maximum. -/
theorem M_eq (x0 : (⟨S1024x1024, .f32⟩ : BufTy).Contents (Elt Ideal)) (x1 : (⟨S1024x1024x64, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x8 : (⟨S16x64, .f32⟩ : BufTy).Contents (Elt Ideal)) (x9 : (⟨S16, .f32⟩ : BufTy).Contents (Elt Ideal)) (h : Fin 16) (n : Fin 1024) :
    val_main_v33 (F := Ideal) x0 x1 x2 x3 x4 x5 x8 x9 (ix2 h n) = Cert.Spec.M x0 x1 x2 x3 x4 x5 x8 x9 h n := by
  rw [val_main_v33_apply, val_main_v32_apply, val_main_cst_1_apply]
  have hs : (fun m : Fin 1024 => val_main_v30 (F := Ideal) x0 x1 x2 x3 x4 x5 x8 x9 (ix3 h n m))
      = fun m => Cert.Spec.sc x0 x1 x2 x3 x4 x5 x8 x9 h n m := funext fun m => sc_eq x0 x1 x2 x3 x4 x5 x8 x9 h n m
  have hred : val_main_v31 (F := Ideal) x0 x1 x2 x3 x4 x5 x8 x9 (ix2 h n)
      = (Finset.univ : Finset (Fin 1024)).fold max ⊥ (fun m => Cert.Spec.sc x0 x1 x2 x3 x4 x5 x8 x9 h n m) :=
    (rowmax_fold (val_main_v30 (F := Ideal) x0 x1 x2 x3 x4 x5 x8 x9) h n).trans (by rw [hs])
  rw [hred]
  simp only [Ideal.ofBits_def, ofBits_neg_inf, Ideal.maximumf_def]
  rfl

theorem idx_v34_v35 (h : Fin 16) (n m : Fin 1024) : idx_main_v34 (idx_main_v35 (ix3 h n m)) = ix2 h n :=
  funext fun a => Fin.ext (by match a with | ⟨0, _⟩ => rfl | ⟨1, _⟩ => rfl)

/-- The reference's exponential of the score less the broadcast row maximum. -/
theorem e_eq (x0 : (⟨S1024x1024, .f32⟩ : BufTy).Contents (Elt Ideal)) (x1 : (⟨S1024x1024x64, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x8 : (⟨S16x64, .f32⟩ : BufTy).Contents (Elt Ideal)) (x9 : (⟨S16, .f32⟩ : BufTy).Contents (Elt Ideal)) (h : Fin 16) (n m : Fin 1024) :
    val_main_v37 (F := Ideal) x0 x1 x2 x3 x4 x5 x8 x9 (ix3 h n m) = Cert.Spec.e x0 x1 x2 x3 x4 x5 x8 x9 h n m := by
  rw [val_main_v37_apply, val_main_v36_apply, sc_eq, val_main_v35_apply, val_main_v34_apply, idx_v34_v35, M_eq]
  simp only [Ideal.hostUnary_exp_def, Ideal.subf_def]
  rfl

theorem idx_v38 (h : Fin 16) (n k : Fin 1024) : idx_main_v38 (ix2 h n) k = ix3 h n k :=
  funext fun a => Fin.ext (by match a with | ⟨0, _⟩ => rfl | ⟨1, _⟩ => rfl | ⟨2, _⟩ => rfl)

/-- The reference's add-reduce of the exponentials from zero is the row's normaliser (`0 + s = s`). -/
theorem Z_eq (x0 : (⟨S1024x1024, .f32⟩ : BufTy).Contents (Elt Ideal)) (x1 : (⟨S1024x1024x64, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x8 : (⟨S16x64, .f32⟩ : BufTy).Contents (Elt Ideal)) (x9 : (⟨S16, .f32⟩ : BufTy).Contents (Elt Ideal)) (h : Fin 16) (n : Fin 1024) :
    val_main_v38 (F := Ideal) x0 x1 x2 x3 x4 x5 x8 x9 (ix2 h n) = Cert.Spec.Z x0 x1 x2 x3 x4 x5 x8 x9 h n := by
  rw [val_main_v38_apply, val_main_cst_2_apply]
  simp only [idx_v38, e_eq, Ideal.ofBits_def, Ideal.ofBits_zero_f32, zero_add]
  rfl

theorem idx_v39_v40 (h : Fin 16) (n m : Fin 1024) : idx_main_v39 (idx_main_v40 (ix3 h n m)) = ix2 h n :=
  funext fun a => Fin.ext (by match a with | ⟨0, _⟩ => rfl | ⟨1, _⟩ => rfl)

/-- The reference's quotient of an exponential by the broadcast normaliser is the softmax weight. -/
theorem w_eq (x0 : (⟨S1024x1024, .f32⟩ : BufTy).Contents (Elt Ideal)) (x1 : (⟨S1024x1024x64, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x8 : (⟨S16x64, .f32⟩ : BufTy).Contents (Elt Ideal)) (x9 : (⟨S16, .f32⟩ : BufTy).Contents (Elt Ideal)) (h : Fin 16) (n m : Fin 1024) :
    val_main_v41 (F := Ideal) x0 x1 x2 x3 x4 x5 x8 x9 (ix3 h n m) = Cert.Spec.w x0 x1 x2 x3 x4 x5 x8 x9 h n m := by
  rw [val_main_v41_apply, e_eq, val_main_v40_apply, val_main_v39_apply, idx_v39_v40, Z_eq]
  simp only [Ideal.hostDivf_def]
  rfl

/-! ## The heads' outputs -/

theorem lidx_v42 (h : Fin 16) (n : Fin 1024) (d : Fin 64) (k : Fin 1024) : lidx_main_v42 (ix3 h n d) k = ix3 h n k :=
  funext fun a => Fin.ext (by match a with | ⟨0, _⟩ => rfl | ⟨1, _⟩ => rfl | ⟨2, _⟩ => rfl)
theorem ridx_v42 (h : Fin 16) (n : Fin 1024) (d : Fin 64) (k : Fin 1024) : ridx_main_v42 (ix3 h n d) k = ix3 h k d :=
  funext fun a => Fin.ext (by match a with | ⟨0, _⟩ => rfl | ⟨1, _⟩ => rfl | ⟨2, _⟩ => rfl)

/-- The reference's batched product of the weights with the v projection is the head's output. -/
theorem y_eq (x0 : (⟨S1024x1024, .f32⟩ : BufTy).Contents (Elt Ideal)) (x1 : (⟨S1024x1024x64, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S16x64, .f32⟩ : BufTy).Contents (Elt Ideal)) (x9 : (⟨S16, .f32⟩ : BufTy).Contents (Elt Ideal)) (h : Fin 16) (n : Fin 1024) (d : Fin 64) :
    val_main_v42 (F := Ideal) x0 x1 x2 x3 x4 x5 x6 x7 x8 x9 (ix3 h n d) = Cert.Spec.y x0 x1 x2 x3 x4 x5 x6 x7 x8 x9 h n d := by
  rw [val_main_v42_apply]
  simp only [lidx_v42, ridx_v42, w_eq, v_eq]
  rfl

/-! ## The output projection and the residual -/

theorem lidx_v46 (n c k : Fin 1024) : lidx_main_v46 (ix2 n c) k = ix2 n k :=
  funext fun a => Fin.ext (by match a with | ⟨0, _⟩ => rfl | ⟨1, _⟩ => rfl)
theorem idx_v45_ridx_v46 (n c k : Fin 1024) : idx_main_v45 (ridx_main_v46 (ix2 n c) k) = ix2 c k :=
  funext fun a => Fin.ext (by match a with | ⟨0, _⟩ => rfl | ⟨1, _⟩ => rfl)
/-- Undoing the head-major layout: column e of row n of the side-by-side array is head e / 64, row n, lane e % 64. -/
theorem idx_v43_v44 (n e : Fin 1024) :
    idx_main_v43 (idx_main_v44 (ix2 n e)) = ix3 (Cert.Spec.headOf e) n (Cert.Spec.laneOf e) :=
  funext fun a => Fin.ext (by
    have := n.isLt; have := e.isLt
    match a with
    | ⟨0, _⟩ => show (n.val * 1024 + e.val) / 64 % 16 = e.val / 64; omega
    | ⟨1, _⟩ => show (n.val * 1024 + e.val) / 1024 = n.val; omega
    | ⟨2, _⟩ => show (n.val * 1024 + e.val) % 64 = e.val % 64; omega)
theorem idx_v47_v48 (n c : Fin 1024) : idx_main_v47 (idx_main_v48 (ix2 n c)) = ix1 c :=
  funext fun a => Fin.ext (by match a with | ⟨0, _⟩ => rfl)

/-- THE REFERENCE'S VALUE: its last stage, at row n and column c, is `Cert.Spec.out` of the twelve argument arrays. -/
theorem out_eq (x0 : (⟨S1024x1024, .f32⟩ : BufTy).Contents (Elt Ideal)) (x1 : (⟨S1024x1024x64, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S16x64, .f32⟩ : BufTy).Contents (Elt Ideal)) (x9 : (⟨S16, .f32⟩ : BufTy).Contents (Elt Ideal)) (x10 : (⟨S1024x1024, .f32⟩ : BufTy).Contents (Elt Ideal)) (x11 : (⟨S1024, .f32⟩ : BufTy).Contents (Elt Ideal)) (n c : Fin 1024) :
    val_main_v50 (F := Ideal) x0 x1 x2 x3 x4 x5 x6 x7 x8 x9 x10 x11 (ix2 n c) = Cert.Spec.out x0 x1 x2 x3 x4 x5 x6 x7 x8 x9 x10 x11 n c := by
  rw [val_main_v50_apply, val_main_v49_apply, val_main_v46_apply, val_main_v48_apply, val_main_v47_apply, idx_v47_v48]
  simp only [lidx_v46, val_main_v44_apply, val_main_v43_apply, idx_v43_v44, y_eq, val_main_v45_apply, idx_v45_ridx_v46,
    Ideal.addf_def]
  rfl

/-- The same as an equation of arrays. -/
theorem val_eq (x0 : (⟨S1024x1024, .f32⟩ : BufTy).Contents (Elt Ideal)) (x1 : (⟨S1024x1024x64, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S16x64, .f32⟩ : BufTy).Contents (Elt Ideal)) (x9 : (⟨S16, .f32⟩ : BufTy).Contents (Elt Ideal)) (x10 : (⟨S1024x1024, .f32⟩ : BufTy).Contents (Elt Ideal)) (x11 : (⟨S1024, .f32⟩ : BufTy).Contents (Elt Ideal)) :
    val_main_v50 (F := Ideal) x0 x1 x2 x3 x4 x5 x6 x7 x8 x9 x10 x11 = fun i => Cert.Spec.out x0 x1 x2 x3 x4 x5 x6 x7 x8 x9 x10 x11 (i 0) (i 1) := by
  funext i
  obtain ⟨n, c, rfl⟩ : ∃ (n c : Fin 1024), i = ix2 n c := ⟨i 0, i 1, eq_ix2 i⟩
  exact out_eq x0 x1 x2 x3 x4 x5 x6 x7 x8 x9 x10 x11 n c

/-- The run's result term is that array, of the twelve argument buffers' contents at launch. -/
theorem res_eq (m : (ℓ : Loc nD τ sig) → Buf (Elt Ideal) ℓ) (c : Dev nD) :
    Cert.ReferenceIdeal.Value.res_main_v50 (F := Ideal) m c
      = fun i => Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) (i 0) (i 1) :=
  (val_main_v50_eq m c).trans (val_eq _ _ _ _ _ _ _ _ _ _ _ _)

end Cert.ReferenceIdeal.RefValue

end
-- ==== Proof.lean ====
/-
  The kernel computes multi-head relation attention with a geometry bias in three kernel regions — a fused q/k/v
  projection, an attention kernel that sweeps key blocks keeping a running row maximum, a running sum of exponentials
  and a running weighted sum of values, and an output projection with a residual — with host reshapes and transposes
  between them; the reference computes the same attention with a two-pass softmax. Over the extended reals both are one
  function of the twelve arguments: matrix products are the same sums however they are blocked; changes of float format
  are the identity; clamping at zero and then at the positive constant is clamping at the constant; and the online
  accumulation equals the two-pass softmax because, every argument entry being finite, every score and every value is a
  real number, so rescaling by the exponential of a difference of maxima distributes over the sums and the final
  division commutes with the weighted sum. Each program's frame (it terminates, faults nowhere, leaves its arguments as
  launched) is its run through the several-regions launch theorem; the idealization rewrote no operation.
-/
import proofs.«153090_j59820304499077_2_alg».proof.Defs
import proofs.«153090_j59820304499077_2_alg».proof.Proof.Gen.Kernel
import proofs.«153090_j59820304499077_2_alg».proof.Proof.Gen.KernelIdeal
import proofs.«153090_j59820304499077_2_alg».proof.Proof.Gen.ReferenceIdeal
import proofs.«153090_j59820304499077_2_alg».proof.Proof.Gen.Pre_finite_inputs
import proofs.«153090_j59820304499077_2_alg».proof.Proof.BitsMain
import proofs.«153090_j59820304499077_2_alg».proof.Proof.IdealValueOut
import proofs.«153090_j59820304499077_2_alg».proof.Proof.IdealFinite
import proofs.«153090_j59820304499077_2_alg».proof.Proof.RefValue

set_option maxRecDepth 16384

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame_args (F := Bits) m ρ
/-- So does the idealized kernel. -/
theorem frame_ki : Cert.frame_KernelIdeal := fun m ρ _ => Cert.KernelIdeal.Hand.frame_args (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote no operation. -/
theorem preserves : Cert.preserves_Kernel_KernelIdeal := trivial

/-- From memories agreeing on finite arguments both programs end at the specification's result of those arguments. -/
theorem algebraic : Cert.algebraic_KernelIdeal_ReferenceIdeal := by
  intro m ρ m' ρ' hpre hagree
  refine ⟨fun c i => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1), ?_, ?_⟩
  · refine (θ_run Cert.KernelIdeal.defs _ _).mono (fun r h c => ?_) (Cert.KernelIdeal.Hand.run_all (F := Ideal) m ρ)
    obtain ⟨f0, f1, f2, f3, f4, f5, f6, f7, f8, f9, f10, f11⟩ := Cert.Finite.finite_of_pre _ _ _ _ _ _ _ _ _ _ _ _ (hpre c)
    exact ⟨(h c _ (Cert.KernelIdeal.Hand.mem_uc Cert.KernelIdeal.main_v24 (by decide))).trans
        (Cert.KernelIdeal.Hand.value_v24 m ρ c f0 f1 f2 f3 f4 f5 f6 f7 f8 f9 f10 f11),
      (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c),
      (h c _ (Cert.KernelIdeal.Hand.mem_uc Cert.KernelIdeal.main_arg5 (by decide))).trans (Cert.KernelIdeal.Hand.W6_main_arg5 m ρ c),
      (h c _ (Cert.KernelIdeal.Hand.mem_uc Cert.KernelIdeal.main_arg6 (by decide))).trans (Cert.KernelIdeal.Hand.W6_main_arg6 m ρ c),
      (h c _ (Cert.KernelIdeal.Hand.mem_uc Cert.KernelIdeal.main_arg7 (by decide))).trans (Cert.KernelIdeal.Hand.W6_main_arg7 m ρ c),
      (h c _ (Cert.KernelIdeal.Hand.mem_uc Cert.KernelIdeal.main_arg8 (by decide))).trans (Cert.KernelIdeal.Hand.W6_main_arg8 m ρ c),
      (h c _ (Cert.KernelIdeal.Hand.mem_uc Cert.KernelIdeal.main_arg9 (by decide))).trans (Cert.KernelIdeal.Hand.W6_main_arg9 m ρ c),
      (h c _ (Cert.KernelIdeal.Hand.mem_uc Cert.KernelIdeal.main_arg10 (by decide))).trans (Cert.KernelIdeal.Hand.W6_main_arg10 m ρ c),
      (h c _ (Cert.KernelIdeal.Hand.mem_uc Cert.KernelIdeal.main_arg11 (by decide))).trans (Cert.KernelIdeal.Hand.W6_main_arg11 m ρ c)⟩
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10, e11⟩ := hagree c
    rw [(h c).1, Cert.ReferenceIdeal.RefValue.res_eq, e0, e1, e2, e3, e4, e5, e6, e7, e8, e9, e10, e11]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
